-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v38)) (v1 : (c : Dev Cert.KernelIdeal.nD) → Buf (Elt Ideal) ((c.tc : Thread Cert.KernelIdeal.nD Cert.KernelIdeal.τ).loc Cert.KernelIdeal.main_v34_0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v38) = v0 c
          ∧ r.2.mem ((c.tc : Thread Cert.KernelIdeal.nD Cert.KernelIdeal.τ).loc Cert.KernelIdeal.main_v34_0) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x256 : Shape := ⟨2, ![10000, 256]⟩
abbrev S320000x256 : Shape := ⟨2, ![320000, 256]⟩
abbrev S320000 : Shape := ⟨1, ![320000]⟩
abbrev S256x256 : Shape := ⟨2, ![256, 256]⟩
abbrev S256 : Shape := ⟨1, ![256]⟩
abbrev S_ : Shape := ⟨0, ![]⟩

class Facts : Prop where
  bcast_S_S10000x256 : S_.BroadcastsInDim S10000x256 (![] : Fin 0 → Fin S10000x256.rank)
  reducesTo_S10000x256_S_d0_1 : S10000x256.ReducesTo [0, 1] S_
  h_S_ : 0 < S_.numel
  bcast_S_S320000x256 : S_.BroadcastsInDim S320000x256 (![] : Fin 0 → Fin S320000x256.rank)
  reducesTo_S320000x256_S_d0_1 : S320000x256.ReducesTo [0, 1] S_
  bcast_S_S256x256 : S_.BroadcastsInDim S256x256 (![] : Fin 0 → Fin S256x256.rank)
  reducesTo_S256x256_S_d0_1 : S256x256.ReducesTo [0, 1] S_
  bcast_S_S256 : S_.BroadcastsInDim S256 (![] : Fin 0 → Fin S256.rank)
  reducesTo_S256_S_d0 : S256.ReducesTo [0] S_

variable [Facts]

def fn_part2 {F : FTy → Type} [FloatOps F] (main_arg9 : FVec F S256 .f32) (main_arg10 : FVec F S256x256 .f32) (main_arg11 : FVec F S256 .f32) (main_v33 : IVec S_ 1) : IVec S_ 1 :=
  let main_v34 : FVec F S256 .f32 := Host.absf main_arg9
  let main_cst_12 : FVec F S_ .f32 := constant S_ .f32 0x7F800000#32
  let main_v35 : FVec F S256 .f32 := broadcastInDim S256 ![] bcast_S_S256 main_cst_12
  let main_v36 : IVec S256 1 := cmpf .olt main_v34 main_v35
  let main_c_13 : IVec S_ 1 := constantI S_ 1 1#1
  let main_v37 : IVec S_ 1 := (fun x v => Host.reduce IntOp.andi x v reducesTo_S256_S_d0 h_S_) main_v36 main_c_13
  let main_v38 : IVec S_ 1 := andi main_v33 main_v37
  let main_v39 : FVec F S256x256 .f32 := Host.absf main_arg10
  let main_cst_14 : FVec F S_ .f32 := constant S_ .f32 0x7F800000#32
  let main_v40 : FVec F S256x256 .f32 := broadcastInDim S256x256 ![] bcast_S_S256x256 main_cst_14
  let main_v41 : IVec S256x256 1 := cmpf .olt main_v39 main_v40
  let main_c_15 : IVec S_ 1 := constantI S_ 1 1#1
  let main_v42 : IVec S_ 1 := (fun x v => Host.reduce IntOp.andi x v reducesTo_S256x256_S_d0_1 h_S_) main_v41 main_c_15
  let main_v43 : IVec S_ 1 := andi main_v38 main_v42
  let main_v44 : FVec F S256 .f32 := Host.absf main_arg11
  let main_cst_16 : FVec F S_ .f32 := constant S_ .f32 0x7F800000#32
  let main_v45 : FVec F S256 .f32 := broadcastInDim S256 ![] bcast_S_S256 main_cst_16
  let main_v46 : IVec S256 1 := cmpf .olt main_v44 main_v45
  let main_c_17 : IVec S_ 1 := constantI S_ 1 1#1
  let main_v47 : IVec S_ 1 := (fun x v => Host.reduce IntOp.andi x v reducesTo_S256_S_d0 h_S_) main_v46 main_c_17
  let main_v48 : IVec S_ 1 := andi main_v43 main_v47
  main_v48

def fn_part1 {F : FTy → Type} [FloatOps F] (main_arg6 : FVec F S256x256 .f32) (main_arg7 : FVec F S256 .f32) (main_arg8 : FVec F S256x256 .f32) (main_arg9 : FVec F S256 .f32) (main_arg10 : FVec F S256x256 .f32) (main_arg11 : FVec F S256 .f32) (main_v13 : IVec S_ 1) (main_v16 : IVec S256 1) : IVec S_ 1 :=
  let main_c_5 : IVec S_ 1 := constantI S_ 1 1#1
  let main_v17 : IVec S_ 1 := (fun x v => Host.reduce IntOp.andi x v reducesTo_S256_S_d0 h_S_) main_v16 main_c_5
  let main_v18 : IVec S_ 1 := andi main_v13 main_v17
  let main_v19 : FVec F S256x256 .f32 := Host.absf main_arg6
  let main_cst_6 : FVec F S_ .f32 := constant S_ .f32 0x7F800000#32
  let main_v20 : FVec F S256x256 .f32 := broadcastInDim S256x256 ![] bcast_S_S256x256 main_cst_6
  let main_v21 : IVec S256x256 1 := cmpf .olt main_v19 main_v20
  let main_c_7 : IVec S_ 1 := constantI S_ 1 1#1
  let main_v22 : IVec S_ 1 := (fun x v => Host.reduce IntOp.andi x v reducesTo_S256x256_S_d0_1 h_S_) main_v21 main_c_7
  let main_v23 : IVec S_ 1 := andi main_v18 main_v22
  let main_v24 : FVec F S256 .f32 := Host.absf main_arg7
  let main_cst_8 : FVec F S_ .f32 := constant S_ .f32 0x7F800000#32
  let main_v25 : FVec F S256 .f32 := broadcastInDim S256 ![] bcast_S_S256 main_cst_8
  let main_v26 : IVec S256 1 := cmpf .olt main_v24 main_v25
  let main_c_9 : IVec S_ 1 := constantI S_ 1 1#1
  let main_v27 : IVec S_ 1 := (fun x v => Host.reduce IntOp.andi x v reducesTo_S256_S_d0 h_S_) main_v26 main_c_9
  let main_v28 : IVec S_ 1 := andi main_v23 main_v27
  let main_v29 : FVec F S256x256 .f32 := Host.absf main_arg8
  let main_cst_10 : FVec F S_ .f32 := constant S_ .f32 0x7F800000#32
  let main_v30 : FVec F S256x256 .f32 := broadcastInDim S256x256 ![] bcast_S_S256x256 main_cst_10
  let main_v31 : IVec S256x256 1 := cmpf .olt main_v29 main_v30
  let main_c_11 : IVec S_ 1 := constantI S_ 1 1#1
  let main_v32 : IVec S_ 1 := (fun x v => Host.reduce IntOp.andi x v reducesTo_S256x256_S_d0_1 h_S_) main_v31 main_c_11
  let main_v33 : IVec S_ 1 := andi main_v28 main_v32
  fn_part2 (F := F) main_arg9 main_arg10 main_arg11 main_v33

def fn {F : FTy → Type} [FloatOps F] (main_arg0 : FVec F S10000x256 .f32) (main_arg1 : FVec F S320000x256 .f32) (main_arg2 : IVec S320000 32) (main_arg3 : IVec S320000 32) (main_arg4 : FVec F S256x256 .f32) (main_arg5 : FVec F S256 .f32) (main_arg6 : FVec F S256x256 .f32) (main_arg7 : FVec F S256 .f32) (main_arg8 : FVec F S256x256 .f32) (main_arg9 : FVec F S256 .f32) (main_arg10 : FVec F S256x256 .f32) (main_arg11 : FVec F S256 .f32) : IVec S_ 1 :=
  let main_v0 : FVec F S10000x256 .f32 := Host.absf main_arg0
  let main_cst : FVec F S_ .f32 := constant S_ .f32 0x7F800000#32
  let main_v1 : FVec F S10000x256 .f32 := broadcastInDim S10000x256 ![] bcast_S_S10000x256 main_cst
  let main_v2 : IVec S10000x256 1 := cmpf .olt main_v0 main_v1
  let main_c : IVec S_ 1 := constantI S_ 1 1#1
  let main_v3 : IVec S_ 1 := (fun x v => Host.reduce IntOp.andi x v reducesTo_S10000x256_S_d0_1 h_S_) main_v2 main_c
  let main_v4 : FVec F S320000x256 .f32 := Host.absf main_arg1
  let main_cst_0 : FVec F S_ .f32 := constant S_ .f32 0x7F800000#32
  let main_v5 : FVec F S320000x256 .f32 := broadcastInDim S320000x256 ![] bcast_S_S320000x256 main_cst_0
  let main_v6 : IVec S320000x256 1 := cmpf .olt main_v4 main_v5
  let main_c_1 : IVec S_ 1 := constantI S_ 1 1#1
  let main_v7 : IVec S_ 1 := (fun x v => Host.reduce IntOp.andi x v reducesTo_S320000x256_S_d0_1 h_S_) main_v6 main_c_1
  let main_v8 : IVec S_ 1 := andi main_v3 main_v7
  let main_v9 : FVec F S256x256 .f32 := Host.absf main_arg4
  let main_cst_2 : FVec F S_ .f32 := constant S_ .f32 0x7F800000#32
  let main_v10 : FVec F S256x256 .f32 := broadcastInDim S256x256 ![] bcast_S_S256x256 main_cst_2
  let main_v11 : IVec S256x256 1 := cmpf .olt main_v9 main_v10
  let main_c_3 : IVec S_ 1 := constantI S_ 1 1#1
  let main_v12 : IVec S_ 1 := (fun x v => Host.reduce IntOp.andi x v reducesTo_S256x256_S_d0_1 h_S_) main_v11 main_c_3
  let main_v13 : IVec S_ 1 := andi main_v8 main_v12
  let main_v14 : FVec F S256 .f32 := Host.absf main_arg5
  let main_cst_4 : FVec F S_ .f32 := constant S_ .f32 0x7F800000#32
  let main_v15 : FVec F S256 .f32 := broadcastInDim S256 ![] bcast_S_S256 main_cst_4
  let main_v16 : IVec S256 1 := cmpf .olt main_v14 main_v15
  fn_part1 (F := F) main_arg6 main_arg7 main_arg8 main_arg9 main_arg10 main_arg11 main_v13 main_v16
-- ==== Kernel.lean ====
abbrev S10000x256 : Shape := ⟨2, ![10000, 256]⟩
abbrev S320000x256 : Shape := ⟨2, ![320000, 256]⟩
abbrev S320000 : Shape := ⟨1, ![320000]⟩
abbrev S256x256 : Shape := ⟨2, ![256, 256]⟩
abbrev S256 : Shape := ⟨1, ![256]⟩
abbrev S_ : Shape := ⟨0, ![]⟩
abbrev S10000 : Shape := ⟨1, ![10000]⟩
abbrev S320000x1 : Shape := ⟨2, ![320000, 1]⟩
abbrev S10000x1 : Shape := ⟨2, ![10000, 1]⟩
abbrev S1x256 : Shape := ⟨2, ![1, 256]⟩
abbrev S10000x512 : Shape := ⟨2, ![10000, 512]⟩
abbrev S2000x256 : Shape := ⟨2, ![2000, 256]⟩
abbrev S2000x1 : Shape := ⟨2, ![2000, 1]⟩
abbrev S2000x512 : Shape := ⟨2, ![2000, 512]⟩
abbrev S320000x512 : Shape := ⟨2, ![320000, 512]⟩

abbrev nBuf : Space → Nat
  | .hbm => 69
  | .vmem => 34
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S_, .f32⟩
  | .hbm, ⟨13, _⟩ => ⟨S320000, .f32⟩
  | .hbm, ⟨14, _⟩ => ⟨S_, .f32⟩
  | .hbm, ⟨15, _⟩ => ⟨S10000, .f32⟩
  | .hbm, ⟨16, _⟩ => ⟨S320000x1, .i32⟩
  | .hbm, ⟨17, _⟩ => ⟨S10000, .f32⟩
  | .hbm, ⟨18, _⟩ => ⟨S_, .f32⟩
  | .hbm, ⟨19, _⟩ => ⟨S10000, .f32⟩
  | .hbm, ⟨20, _⟩ => ⟨S320000x1, .i32⟩
  | .hbm, ⟨21, _⟩ => ⟨S10000, .f32⟩
  | .hbm, ⟨22, _⟩ => ⟨S_, .f32⟩
  | .hbm, ⟨23, _⟩ => ⟨S_, .f32⟩
  | .hbm, ⟨24, _⟩ => ⟨S10000, .f32⟩
  | .hbm, ⟨25, _⟩ => ⟨S10000, .f32⟩
  | .hbm, ⟨26, _⟩ => ⟨S_, .f32⟩
  | .hbm, ⟨27, _⟩ => ⟨S10000, .f32⟩
  | .hbm, ⟨28, _⟩ => ⟨S10000, .f32⟩
  | .hbm, ⟨29, _⟩ => ⟨S10000x1, .f32⟩
  | .hbm, ⟨30, _⟩ => ⟨S_, .f32⟩
  | .hbm, ⟨31, _⟩ => ⟨S_, .f32⟩
  | .hbm, ⟨32, _⟩ => ⟨S10000, .f32⟩
  | .hbm, ⟨33, _⟩ => ⟨S10000, .f32⟩
  | .hbm, ⟨34, _⟩ => ⟨S_, .f32⟩
  | .hbm, ⟨35, _⟩ => ⟨S10000, .f32⟩
  | .hbm, ⟨36, _⟩ => ⟨S10000, .f32⟩
  | .hbm, ⟨37, _⟩ => ⟨S10000x1, .f32⟩
  | .hbm, ⟨38, _⟩ => ⟨S1x256, .f32⟩
  | .hbm, ⟨39, _⟩ => ⟨S1x256, .f32⟩
  | .hbm, ⟨40, _⟩ => ⟨S1x256, .f32⟩
  | .hbm, ⟨41, _⟩ => ⟨S1x256, .f32⟩
  | .hbm, ⟨42, _⟩ => ⟨S10000x512, .f32⟩
  | .hbm, ⟨43, _⟩ => ⟨S10000x256, .f32⟩
  | .hbm, ⟨44, _⟩ => ⟨S_, .i32⟩
  | .hbm, ⟨45, _⟩ => ⟨S320000, .i32⟩
  | .hbm, ⟨46, _⟩ => ⟨S320000, .i1⟩
  | .hbm, ⟨47, _⟩ => ⟨S_, .i32⟩
  | .hbm, ⟨48, _⟩ => ⟨S320000, .i32⟩
  | .hbm, ⟨49, _⟩ => ⟨S320000, .i32⟩
  | .hbm, ⟨50, _⟩ => ⟨S320000, .i32⟩
  | .hbm, ⟨51, _⟩ => ⟨S320000x1, .i32⟩
  | .hbm, ⟨52, _⟩ => ⟨S320000x512, .f32⟩
  | .hbm, ⟨53, _⟩ => ⟨S_, .i32⟩
  | .hbm, ⟨54, _⟩ => ⟨S320000, .i32⟩
  | .hbm, ⟨55, _⟩ => ⟨S320000, .i1⟩
  | .hbm, ⟨56, _⟩ => ⟨S_, .i32⟩
  | .hbm, ⟨57, _⟩ => ⟨S320000, .i32⟩
  | .hbm, ⟨58, _⟩ => ⟨S320000, .i32⟩
  | .hbm, ⟨59, _⟩ => ⟨S320000, .i32⟩
  | .hbm, ⟨60, _⟩ => ⟨S320000x1, .i32⟩
  | .hbm, ⟨61, _⟩ => ⟨S320000x256, .f32⟩
  | .hbm, ⟨62, _⟩ => ⟨S320000x256, .f32⟩
  | .hbm, ⟨63, _⟩ => ⟨S320000x256, .f32⟩
  | .hbm, ⟨64, _⟩ => ⟨S_, .f32⟩
  | .hbm, ⟨65, _⟩ => ⟨S10000x256, .f32⟩
  | .hbm, ⟨66, _⟩ => ⟨S320000x1, .i32⟩
  | .hbm, ⟨67, _⟩ => ⟨S10000x256, .f32⟩
  | .hbm, ⟨68, _⟩ => ⟨S10000x256, .f32⟩
  | .local _ .vmem, ⟨0, _⟩ => ⟨S2000x256, .f32⟩
  | .local _ .vmem, ⟨1, _⟩ => ⟨S2000x256, .f32⟩
  | .local _ .vmem, ⟨2, _⟩ => ⟨S256x256, .f32⟩
  | .local _ .vmem, ⟨3, _⟩ => ⟨S256x256, .f32⟩
  | .local _ .vmem, ⟨4, _⟩ => ⟨S1x256, .f32⟩
  | .local _ .vmem, ⟨5, _⟩ => ⟨S1x256, .f32⟩
  | .local _ .vmem, ⟨6, _⟩ => ⟨S2000x1, .f32⟩
  | .local _ .vmem, ⟨7, _⟩ => ⟨S2000x1, .f32⟩
  | .local _ .vmem, ⟨8, _⟩ => ⟨S2000x512, .f32⟩
  | .local _ .vmem, ⟨9, _⟩ => ⟨S2000x512, .f32⟩
  | .local _ .vmem, ⟨10, _⟩ => ⟨S2000x256, .f32⟩
  | .local _ .vmem, ⟨11, _⟩ => ⟨S2000x256, .f32⟩
  | .local _ .vmem, ⟨12, _⟩ => ⟨S2000x256, .f32⟩
  | .local _ .vmem, ⟨13, _⟩ => ⟨S2000x256, .f32⟩
  | .local _ .vmem, ⟨14, _⟩ => ⟨S2000x512, .f32⟩
  | .local _ .vmem, ⟨15, _⟩ => ⟨S2000x512, .f32⟩
  | .local _ .vmem, ⟨16, _⟩ => ⟨S2000x256, .f32⟩
  | .local _ .vmem, ⟨17, _⟩ => ⟨S2000x256, .f32⟩
  | .local _ .vmem, ⟨18, _⟩ => ⟨S256x256, .f32⟩
  | .local _ .vmem, ⟨19, _⟩ => ⟨S1x256, .f32⟩
  | .local _ .vmem, ⟨20, _⟩ => ⟨S2000x256, .f32⟩
  | .local _ .vmem, ⟨21, _⟩ => ⟨S2000x256, .f32⟩
  | .local _ .vmem, ⟨22, _⟩ => ⟨S2000x256, .f32⟩
  | .local _ .vmem, ⟨23, _⟩ => ⟨S2000x256, .f32⟩
  | .local _ .vmem, ⟨24, _⟩ => ⟨S2000x256, .f32⟩
  | .local _ .vmem, ⟨25, _⟩ => ⟨S2000x256, .f32⟩
  | .local _ .vmem, ⟨26, _⟩ => ⟨S256x256, .f32⟩
  | .local _ .vmem, ⟨27, _⟩ => ⟨S1x256, .f32⟩
  | .local _ .vmem, ⟨28, _⟩ => ⟨S2000x1, .f32⟩
  | .local _ .vmem, ⟨29, _⟩ => ⟨S2000x1, .f32⟩
  | .local _ .vmem, ⟨30, _⟩ => ⟨S2000x256, .f32⟩
  | .local _ .vmem, ⟨31, _⟩ => ⟨S2000x256, .f32⟩
  | .local _ .vmem, ⟨32, _⟩ => ⟨S2000x256, .f32⟩
  | .local _ .vmem, ⟨33, _⟩ => ⟨S2000x256, .f32⟩
  | _, _ => ⟨S10000x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | _, _ => false

abbrev semScoped : Fin 0 → Bool
  | ⟨_, h⟩ => absurd h (Nat.not_lt_zero _)

abbrev dmaSemScoped : Fin 34 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | _ => false

abbrev sig : RefSig :=
  ofTc nBuf bufTy 0 34 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_cst_0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_cst_1 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_cst_2 : Ref sig .tc := ⟨.hbm, 22, rfl⟩
abbrev main_call0_v0 : Ref sig .tc := ⟨.hbm, 23, rfl⟩
abbrev main_call0_v1 : Ref sig .tc := ⟨.hbm, 24, rfl⟩
abbrev main_v7 : Ref sig .tc := ⟨.hbm, 25, rfl⟩
abbrev main_cst_3 : Ref sig .tc := ⟨.hbm, 26, rfl⟩
abbrev main_v8 : Ref sig .tc := ⟨.hbm, 27, rfl⟩
abbrev main_v9 : Ref sig .tc := ⟨.hbm, 28, rfl⟩
abbrev main_v10 : Ref sig .tc := ⟨.hbm, 29, rfl⟩
abbrev main_cst_4 : Ref sig .tc := ⟨.hbm, 30, rfl⟩
abbrev main_call1_v0 : Ref sig .tc := ⟨.hbm, 31, rfl⟩
abbrev main_call1_v1 : Ref sig .tc := ⟨.hbm, 32, rfl⟩
abbrev main_v11 : Ref sig .tc := ⟨.hbm, 33, rfl⟩
abbrev main_cst_5 : Ref sig .tc := ⟨.hbm, 34, rfl⟩
abbrev main_v12 : Ref sig .tc := ⟨.hbm, 35, rfl⟩
abbrev main_v13 : Ref sig .tc := ⟨.hbm, 36, rfl⟩
abbrev main_v14 : Ref sig .tc := ⟨.hbm, 37, rfl⟩
abbrev main_v15 : Ref sig .tc := ⟨.hbm, 38, rfl⟩
abbrev main_v16 : Ref sig .tc := ⟨.hbm, 39, rfl⟩
abbrev main_v17 : Ref sig .tc := ⟨.hbm, 40, rfl⟩
abbrev main_v18 : Ref sig .tc := ⟨.hbm, 41, rfl⟩
abbrev main_v19_0 : Ref sig .tc := ⟨.hbm, 42, rfl⟩
abbrev main_v19_1 : Ref sig .tc := ⟨.hbm, 43, rfl⟩
abbrev main_c : Ref sig .tc := ⟨.hbm, 44, rfl⟩
abbrev main_v20 : Ref sig .tc := ⟨.hbm, 45, rfl⟩
abbrev main_v21 : Ref sig .tc := ⟨.hbm, 46, rfl⟩
abbrev main_c_6 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_v26 : Ref sig .tc := ⟨.hbm, 52, rfl⟩
abbrev main_c_7 : Ref sig .tc := ⟨.hbm, 53, rfl⟩
abbrev main_v27 : Ref sig .tc := ⟨.hbm, 54, rfl⟩
abbrev main_v28 : Ref sig .tc := ⟨.hbm, 55, rfl⟩
abbrev main_c_8 : Ref sig .tc := ⟨.hbm, 56, rfl⟩
abbrev main_v29 : Ref sig .tc := ⟨.hbm, 57, rfl⟩
abbrev main_v30 : Ref sig .tc := ⟨.hbm, 58, rfl⟩
abbrev main_v31 : Ref sig .tc := ⟨.hbm, 59, rfl⟩
abbrev main_v32 : Ref sig .tc := ⟨.hbm, 60, rfl⟩
abbrev main_v33 : Ref sig .tc := ⟨.hbm, 61, rfl⟩
abbrev main_v34_0 : Ref sig .tc := ⟨.hbm, 62, rfl⟩
abbrev main_v34_1 : Ref sig .tc := ⟨.hbm, 63, rfl⟩
abbrev main_cst_9 : Ref sig .tc := ⟨.hbm, 64, rfl⟩
abbrev main_v35 : Ref sig .tc := ⟨.hbm, 65, rfl⟩
abbrev main_v36 : Ref sig .tc := ⟨.hbm, 66, rfl⟩
abbrev main_v37 : Ref sig .tc := ⟨.hbm, 67, rfl⟩
abbrev main_v38 : Ref sig .tc := ⟨.hbm, 68, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_stg6_0 : Ref sig .tc := ⟨.vmem, 8, rfl⟩
abbrev cc0_stg6_1 : Ref sig .tc := ⟨.vmem, 9, rfl⟩
abbrev cc0_stg7_0 : Ref sig .tc := ⟨.vmem, 10, rfl⟩
abbrev cc0_stg7_1 : Ref sig .tc := ⟨.vmem, 11, rfl⟩
abbrev cc1_stg0_0 : Ref sig .tc := ⟨.vmem, 12, rfl⟩
abbrev cc1_stg0_1 : Ref sig .tc := ⟨.vmem, 13, rfl⟩
abbrev cc1_stg1_0 : Ref sig .tc := ⟨.vmem, 14, rfl⟩
abbrev cc1_stg1_1 : Ref sig .tc := ⟨.vmem, 15, rfl⟩
abbrev cc1_stg2_0 : Ref sig .tc := ⟨.vmem, 16, rfl⟩
abbrev cc1_stg2_1 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc2_stg0_0 : Ref sig .tc := ⟨.vmem, 24, rfl⟩
abbrev cc2_stg0_1 : Ref sig .tc := ⟨.vmem, 25, rfl⟩
abbrev cc2_stg1_0 : Ref sig .tc := ⟨.vmem, 26, rfl⟩
abbrev cc2_stg2_0 : Ref sig .tc := ⟨.vmem, 27, rfl⟩
abbrev cc2_stg3_0 : Ref sig .tc := ⟨.vmem, 28, rfl⟩
abbrev cc2_stg3_1 : Ref sig .tc := ⟨.vmem, 29, rfl⟩
abbrev cc2_stg4_0 : Ref sig .tc := ⟨.vmem, 30, rfl⟩
abbrev cc2_stg4_1 : Ref sig .tc := ⟨.vmem, 31, rfl⟩
abbrev cc2_stg5_0 : Ref sig .tc := ⟨.vmem, 32, rfl⟩
abbrev cc2_stg5_1 : Ref sig .tc := ⟨.vmem, 33, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem2_1 : DmaSem sig := 17
abbrev cc1_sem3_0 : DmaSem sig := 18
abbrev cc1_sem4_0 : DmaSem sig := 19
abbrev cc1_sem5_0 : DmaSem sig := 20
abbrev cc1_sem5_1 : DmaSem sig := 21
abbrev cc1_sem6_0 : DmaSem sig := 22
abbrev cc1_sem6_1 : DmaSem sig := 23
abbrev cc2_sem0_0 : DmaSem sig := 24
abbrev cc2_sem0_1 : DmaSem sig := 25
abbrev cc2_sem1_0 : DmaSem sig := 26
abbrev cc2_sem2_0 : DmaSem sig := 27
abbrev cc2_sem3_0 : DmaSem sig := 28
abbrev cc2_sem3_1 : DmaSem sig := 29
abbrev cc2_sem4_0 : DmaSem sig := 30
abbrev cc2_sem4_1 : DmaSem sig := 31
abbrev cc2_sem5_0 : DmaSem sig := 32
abbrev cc2_sem5_1 : DmaSem sig := 33

abbrev nD : Nat := 1
abbrev τ : Topo := Topo.v7x

variable {F : FTy → Type} [FloatOps F]

abbrev grid0 : Pipeline.Grid := ⟨1, ![5], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x256 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S256x256 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x256 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2000x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S2000x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S2000x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![160], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_6 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x512 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S2000x256 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S256x256 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S1x256 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S2000x256 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S2000x256 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]

abbrev grid2 : Pipeline.Grid := ⟨1, ![5], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S256x256 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S1x256 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x1 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

abbrev stage2_4 : Fin 2 → Memref sig .tc .vmem S2000x256 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev stage2_5 : Fin 2 → Memref sig .tc .vmem S2000x256 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  bcast_S_S320000 : S_.BroadcastsInDim S320000 (![] : Fin 0 → Fin S320000.rank)
  bcast_S_S10000 : S_.BroadcastsInDim S10000 (![] : Fin 0 → Fin S10000.rank)
  bcast_S320000_S320000x1_0 : S320000.BroadcastsInDim S320000x1 (![0] : Fin 1 → Fin S320000x1.rank)
  shapeCasts_S10000_S10000x1 : S10000.ShapeCasts S10000x1
  shapeCasts_S256_S1x256 : S256.ShapeCasts S1x256
  inb_S2000x256_S2000x256_0_0 : ∀ a, (![0, 0] : Fin 2 → Nat) a + S2000x256.size a ≤ S2000x256.size a
  h_S2000x256 : 0 < S2000x256.numel
  bitsLt_bf16_f32 : FTy.bits .bf16 < FTy.bits .f32
  inb_S256x256_S256x256_0_0 : ∀ a, (![0, 0] : Fin 2 → Nat) a + S256x256.size a ≤ S256x256.size a
  h_S256x256 : 0 < S256x256.numel
  inb_S1x256_S1x256_0_0 : ∀ a, (![0, 0] : Fin 2 → Nat) a + S1x256.size a ≤ S1x256.size a
  h_S1x256 : 0 < S1x256.numel
  shapeCasts_S1x256_S1x256 : S1x256.ShapeCasts S1x256
  broadcasts_S1x256_S2000x256 : S1x256.Broadcasts S2000x256
  inb_S2000x1_S2000x1_0_0 : ∀ a, (![0, 0] : Fin 2 → Nat) a + S2000x1.size a ≤ S2000x1.size a
  h_S2000x1 : 0 < S2000x1.numel
  shapeCasts_S2000x1_S2000x1 : S2000x1.ShapeCasts S2000x1
  broadcasts_S2000x1_S2000x256 : S2000x1.Broadcasts S2000x256
  inb_S2000x512_S2000x256_0_0 : ∀ a, (![0, 0] : Fin 2 → Nat) a + S2000x256.size a ≤ S2000x512.size a
  inb_S2000x512_S2000x256_0_256 : ∀ a, (![0, 256] : Fin 2 → Nat) a + S2000x256.size a ≤ S2000x512.size a
  shapeCasts_S2000x256_S2000x256 : S2000x256.ShapeCasts S2000x256
  bcast_S_S10000x256 : S_.BroadcastsInDim S10000x256 (![] : Fin 0 → Fin S10000x256.rank)
  scatter_S10000_S320000x1_S320000_n_0_0_1_wf : ScatterDims.WF S10000 S320000x1 S320000 [] [0] [0] 1
  dot_S2000x256_S256x256_S2000x256_1_0_0_1_n_n_wf : DotDims.WF S2000x256 S256x256 S2000x256 [1] [0] [0] [1] [] []
  gather_S10000x512_S320000x1_S320000x512_1_0_n_n_0_1_1512_wf : GatherDims.WF S10000x512 S320000x1 S320000x512 [1] [0] [] [0] [] 1 ![1, 512]
  gather_S10000x256_S320000x1_S320000x256_1_0_n_n_0_1_1256_wf : GatherDims.WF S10000x256 S320000x1 S320000x256 [1] [0] [] [0] [] 1 ![1, 256]
  scatter_S10000x256_S320000x1_S320000x256_1_0_0_1_wf : ScatterDims.WF S10000x256 S320000x1 S320000x256 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x256.size a ≤ S10000x256.size a
  hwx0_0 : ∀ i : grid0.Coords, EltTy.bits .f32 = 32 ∨ (Rect.block (s := S10000x256) S2000x256.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x256.size a ≤ S256x256.size a
  hwx0_1 : ∀ i : grid0.Coords, EltTy.bits .f32 = 32 ∨ (Rect.block (s := S256x256) S256x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S256x256.size a ≤ S256x256.size a
  hwx0_2 : ∀ i : grid0.Coords, EltTy.bits .f32 = 32 ∨ (Rect.block (s := S256x256) S256x256.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x256.size a ≤ S1x256.size a
  hwx0_3 : ∀ i : grid0.Coords, EltTy.bits .f32 = 32 ∨ (Rect.block (s := S1x256) S1x256.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x256.size a ≤ S1x256.size a
  hwx0_4 : ∀ i : grid0.Coords, EltTy.bits .f32 = 32 ∨ (Rect.block (s := S1x256) S1x256.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S2000x1.size a ≤ S10000x1.size a
  hwx0_5 : ∀ i : grid0.Coords, EltTy.bits .f32 = 32 ∨ (Rect.block (s := S10000x1) S2000x1.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S2000x512.size a ≤ S10000x512.size a
  hwx0_6 : ∀ i : grid0.Coords, EltTy.bits .f32 = 32 ∨ (Rect.block (s := S10000x512) S2000x512.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x256.size a ≤ S10000x256.size a
  hwx0_7 : ∀ i : grid0.Coords, EltTy.bits .f32 = 32 ∨ (Rect.block (s := S10000x256) S2000x256.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x256.size a ≤ S320000x256.size a
  hwx1_0 : ∀ i : grid1.Coords, EltTy.bits .f32 = 32 ∨ (Rect.block (s := S320000x256) S2000x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x512.size a ≤ S320000x512.size a
  hwx1_1 : ∀ i : grid1.Coords, EltTy.bits .f32 = 32 ∨ (Rect.block (s := S320000x512) S2000x512.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x256.size a ≤ S320000x256.size a
  hwx1_2 : ∀ i : grid1.Coords, EltTy.bits .f32 = 32 ∨ (Rect.block (s := S320000x256) S2000x256.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S256x256.size a ≤ S256x256.size a
  hwx1_3 : ∀ i : grid1.Coords, EltTy.bits .f32 = 32 ∨ (Rect.block (s := S256x256) S256x256.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x256.size a ≤ S1x256.size a
  hwx1_4 : ∀ i : grid1.Coords, EltTy.bits .f32 = 32 ∨ (Rect.block (s := S1x256) S1x256.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S2000x256.size a ≤ S320000x256.size a
  hwx1_5 : ∀ i : grid1.Coords, EltTy.bits .f32 = 32 ∨ (Rect.block (s := S320000x256) S2000x256.size (cc1_transform_5 i) (hinb1_5 i)).WholeWords (EltTy.packing .f32)
  hstage1_6 : ∀ j, (stage1_6 j).IsWhole
  nbuf1_6 : grid1.bufCount reads1_6 false = 2
  hreads1_6 : ∀ i i' : grid1.Coords, (∀ a, reads1_6 a = true → i a = i' a) → cc1_transform_6 i = cc1_transform_6 i'
  hinb1_6 : ∀ (i : grid1.Coords) a, (cc1_transform_6 i a + 1) * S2000x256.size a ≤ S320000x256.size a
  hwx1_6 : ∀ i : grid1.Coords, EltTy.bits .f32 = 32 ∨ (Rect.block (s := S320000x256) S2000x256.size (cc1_transform_6 i) (hinb1_6 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x256.size a ≤ S10000x256.size a
  hwx2_0 : ∀ i : grid2.Coords, EltTy.bits .f32 = 32 ∨ (Rect.block (s := S10000x256) S2000x256.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S256x256.size a ≤ S256x256.size a
  hwx2_1 : ∀ i : grid2.Coords, EltTy.bits .f32 = 32 ∨ (Rect.block (s := S256x256) S256x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x256.size a ≤ S1x256.size a
  hwx2_2 : ∀ i : grid2.Coords, EltTy.bits .f32 = 32 ∨ (Rect.block (s := S1x256) S1x256.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x1.size a ≤ S10000x1.size a
  hwx2_3 : ∀ i : grid2.Coords, EltTy.bits .f32 = 32 ∨ (Rect.block (s := S10000x1) S2000x1.size (cc2_transform_3 i) (hinb2_3 i)).WholeWords (EltTy.packing .f32)
  hstage2_4 : ∀ j, (stage2_4 j).IsWhole
  nbuf2_4 : grid2.bufCount reads2_4 false = 2
  hreads2_4 : ∀ i i' : grid2.Coords, (∀ a, reads2_4 a = true → i a = i' a) → cc2_transform_4 i = cc2_transform_4 i'
  hinb2_4 : ∀ (i : grid2.Coords) a, (cc2_transform_4 i a + 1) * S2000x256.size a ≤ S10000x256.size a
  hwx2_4 : ∀ i : grid2.Coords, EltTy.bits .f32 = 32 ∨ (Rect.block (s := S10000x256) S2000x256.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x256.size a ≤ S10000x256.size a
  hwx2_5 : ∀ i : grid2.Coords, EltTy.bits .f32 = 32 ∨ (Rect.block (s := S10000x256) S2000x256.size (cc2_transform_5 i) (hinb2_5 i)).WholeWords (EltTy.packing .f32)

variable [Facts₀]

def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def dot_S2000x256_S256x256_S2000x256_1_0_0_1_n_n : DotDims S2000x256 S256x256 S2000x256 where
  lhsContracting := [1]
  rhsContracting := [0]
  lhsNonContracting := [0]
  rhsNonContracting := [1]
  lhsBatch := []
  rhsBatch := []
  wf := dot_S2000x256_S256x256_S2000x256_1_0_0_1_n_n_wf
def gather_S10000x512_S320000x1_S320000x512_1_0_n_n_0_1_1512 : GatherDims S10000x512 S320000x1 S320000x512 where
  offsetDims := [1]
  collapsedSliceDims := [0]
  operandBatchingDims := []
  startIndicesBatchingDims := []
  startIndexMap := [0]
  indexVectorDim := 1
  sliceSizes := ![1, 512]
  wf := gather_S10000x512_S320000x1_S320000x512_1_0_n_n_0_1_1512_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

abbrev win0_0 : Pipeline.Window sig grid0 :=
  Pipeline.Window.ofSpec (Memref.whole main_arg0) S2000x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg6) S256x256.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_arg8) S256x256.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v15) S1x256.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v16) S1x256.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v10) S2000x1.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_v19_0) S2000x512.size cc0_transform_6 reads0_6 true false 2 stage0_6 sem0_6
    hrank0 hreads0_6 hinb0_6 nbuf0_6 (Memref.isWhole_whole _) hwx0_6 hstage0_6

abbrev win0_7 : Pipeline.Window sig grid0 :=
  Pipeline.Window.ofSpec (Memref.whole main_v19_1) S2000x256.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_arg1) S2000x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v26) S2000x512.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v33) S2000x256.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_arg10) S256x256.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x256.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v34_0) S2000x256.size cc1_transform_5 reads1_5 true false 2 stage1_5 sem1_5
    hrank1 hreads1_5 hinb1_5 nbuf1_5 (Memref.isWhole_whole _) hwx1_5 hstage1_5

abbrev win1_6 : Pipeline.Window sig grid1 :=
  Pipeline.Window.ofSpec (Memref.whole main_v34_1) S2000x256.size cc1_transform_6 reads1_6 true false 2 stage1_6 sem1_6
    hrank1 hreads1_6 hinb1_6 nbuf1_6 (Memref.isWhole_whole _) hwx1_6 hstage1_6

abbrev win1 : Fin 7 → Pipeline.Window sig grid1 := fun | 0 => win1_0 | 1 => win1_1 | 2 => win1_2 | 3 => win1_3 | 4 => win1_4 | 5 => win1_5 | 6 => win1_6 | ⟨_ + 7, h⟩ => absurd h (Nat.not_lt.2 (Nat.le_add_left _ _))
abbrev spec1 : Fin 7 → Pipeline.WinSpec sig grid1.rank := fun w => (win1 w).toWinSpec

abbrev win2_0 : Pipeline.Window sig grid2 :=
  Pipeline.Window.ofSpec (Memref.whole main_v37) S2000x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S256x256.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v18) S1x256.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v14) S2000x1.size cc2_transform_3 reads2_3 false false 2 stage2_3 sem2_3
    hrank2 hreads2_3 hinb2_3 nbuf2_3 (Memref.isWhole_whole _) hwx2_3 hstage2_3

abbrev win2_4 : Pipeline.Window sig grid2 :=
  Pipeline.Window.ofSpec (Memref.whole main_arg0) S2000x256.size cc2_transform_4 reads2_4 false false 2 stage2_4 sem2_4
    hrank2 hreads2_4 hinb2_4 nbuf2_4 (Memref.isWhole_whole _) hwx2_4 hstage2_4

abbrev win2_5 : Pipeline.Window sig grid2 :=
  Pipeline.Window.ofSpec (Memref.whole main_v38) S2000x256.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S10000x256 : Shape := ⟨2, ![10000, 256]⟩
abbrev S320000x256 : Shape := ⟨2, ![320000, 256]⟩
abbrev S320000 : Shape := ⟨1, ![320000]⟩
abbrev S256x256 : Shape := ⟨2, ![256, 256]⟩
abbrev S256 : Shape := ⟨1, ![256]⟩
abbrev S_ : Shape := ⟨0, ![]⟩
abbrev S1x256 : Shape := ⟨2, ![1, 256]⟩
abbrev S320000x1 : Shape := ⟨2, ![320000, 1]⟩
abbrev S10000 : Shape := ⟨1, ![10000]⟩
abbrev S10000x1 : Shape := ⟨2, ![10000, 1]⟩

abbrev nBuf : Space → Nat
  | .hbm => 101
  | .vmem => 0
  | .smem => 0
  | _ => 0

abbrev bufTy : (tb : Table) → Fin (tcTables nBuf tb) → BufTy
  | .hbm, ⟨0, _⟩ => ⟨S10000x256, .f32⟩
  | .hbm, ⟨1, _⟩ => ⟨S320000x256, .f32⟩
  | .hbm, ⟨2, _⟩ => ⟨S320000, .i32⟩
  | .hbm, ⟨3, _⟩ => ⟨S320000, .i32⟩
  | .hbm, ⟨4, _⟩ => ⟨S256x256, .f32⟩
  | .hbm, ⟨5, _⟩ => ⟨S256, .f32⟩
  | .hbm, ⟨6, _⟩ => ⟨S256x256, .f32⟩
  | .hbm, ⟨7, _⟩ => ⟨S256, .f32⟩
  | .hbm, ⟨8, _⟩ => ⟨S256x256, .f32⟩
  | .hbm, ⟨9, _⟩ => ⟨S256, .f32⟩
  | .hbm, ⟨10, _⟩ => ⟨S256x256, .f32⟩
  | .hbm, ⟨11, _⟩ => ⟨S256, .f32⟩
  | .hbm, ⟨12, _⟩ => ⟨S_, .f32⟩
  | .hbm, ⟨13, _⟩ => ⟨S320000, .f32⟩
  | .hbm, ⟨14, _⟩ => ⟨S10000x256, .f32⟩
  | .hbm, ⟨15, _⟩ => ⟨S1x256, .f32⟩
  | .hbm, ⟨16, _⟩ => ⟨S10000x256, .f32⟩
  | .hbm, ⟨17, _⟩ => ⟨S10000x256, .f32⟩
  | .hbm, ⟨18, _⟩ => ⟨S10000x256, .f32⟩
  | .hbm, ⟨19, _⟩ => ⟨S1x256, .f32⟩
  | .hbm, ⟨20, _⟩ => ⟨S10000x256, .f32⟩
  | .hbm, ⟨21, _⟩ => ⟨S10000x256, .f32⟩
  | .hbm, ⟨22, _⟩ => ⟨S_, .i32⟩
  | .hbm, ⟨23, _⟩ => ⟨S320000, .i32⟩
  | .hbm, ⟨24, _⟩ => ⟨S320000, .i1⟩
  | .hbm, ⟨25, _⟩ => ⟨S_, .i32⟩
  | .hbm, ⟨26, _⟩ => ⟨S320000, .i32⟩
  | .hbm, ⟨27, _⟩ => ⟨S320000, .i32⟩
  | .hbm, ⟨28, _⟩ => ⟨S320000, .i32⟩
  | .hbm, ⟨29, _⟩ => ⟨S320000x1, .i32⟩
  | .hbm, ⟨30, _⟩ => ⟨S320000x256, .f32⟩
  | .hbm, ⟨31, _⟩ => ⟨S_, .i32⟩
  | .hbm, ⟨32, _⟩ => ⟨S320000, .i32⟩
  | .hbm, ⟨33, _⟩ => ⟨S320000, .i1⟩
  | .hbm, ⟨34, _⟩ => ⟨S_, .i32⟩
  | .hbm, ⟨35, _⟩ => ⟨S320000, .i32⟩
  | .hbm, ⟨36, _⟩ => ⟨S320000, .i32⟩
  | .hbm, ⟨37, _⟩ => ⟨S320000, .i32⟩
  | .hbm, ⟨38, _⟩ => ⟨S320000x1, .i32⟩
  | .hbm, ⟨39, _⟩ => ⟨S320000x256, .f32⟩
  | .hbm, ⟨40, _⟩ => ⟨S320000x256, .f32⟩
  | .hbm, ⟨41, _⟩ => ⟨S320000x256, .f32⟩
  | .hbm, ⟨42, _⟩ => ⟨S1x256, .f32⟩
  | .hbm, ⟨43, _⟩ => ⟨S320000x256, .f32⟩
  | .hbm, ⟨44, _⟩ => ⟨S320000x256, .f32⟩
  | .hbm, ⟨45, _⟩ => ⟨S320000x256, .f32⟩
  | .hbm, ⟨46, _⟩ => ⟨S320000x256, .f32⟩
  | .hbm, ⟨47, _⟩ => ⟨S320000x256, .f32⟩
  | .hbm, ⟨48, _⟩ => ⟨S_, .f32⟩
  | .hbm, ⟨49, _⟩ => ⟨S320000x256, .f32⟩
  | .hbm, ⟨50, _⟩ => ⟨S320000x256, .f32⟩
  | .hbm, ⟨51, _⟩ => ⟨S_, .f32⟩
  | .hbm, ⟨52, _⟩ => ⟨S320000x256, .f32⟩
  | .hbm, ⟨53, _⟩ => ⟨S320000x256, .f32⟩
  | .hbm, ⟨54, _⟩ => ⟨S_, .f32⟩
  | .hbm, ⟨55, _⟩ => ⟨S10000, .f32⟩
  | .hbm, ⟨56, _⟩ => ⟨S320000x1, .i32⟩
  | .hbm, ⟨57, _⟩ => ⟨S10000, .f32⟩
  | .hbm, ⟨58, _⟩ => ⟨S_, .f32⟩
  | .hbm, ⟨59, _⟩ => ⟨S_, .f32⟩
  | .hbm, ⟨60, _⟩ => ⟨S10000, .f32⟩
  | .hbm, ⟨61, _⟩ => ⟨S10000, .f32⟩
  | .hbm, ⟨62, _⟩ => ⟨S_, .f32⟩
  | .hbm, ⟨63, _⟩ => ⟨S10000, .f32⟩
  | .hbm, ⟨64, _⟩ => ⟨S10000, .f32⟩
  | .hbm, ⟨65, _⟩ => ⟨S10000x1, .f32⟩
  | .hbm, ⟨66, _⟩ => ⟨S10000x256, .f32⟩
  | .hbm, ⟨67, _⟩ => ⟨S10000x256, .f32⟩
  | .hbm, ⟨68, _⟩ => ⟨S_, .i32⟩
  | .hbm, ⟨69, _⟩ => ⟨S320000, .i32⟩
  | .hbm, ⟨70, _⟩ => ⟨S320000, .i1⟩
  | .hbm, ⟨71, _⟩ => ⟨S_, .i32⟩
  | .hbm, ⟨72, _⟩ => ⟨S320000, .i32⟩
  | .hbm, ⟨73, _⟩ => ⟨S320000, .i32⟩
  | .hbm, ⟨74, _⟩ => ⟨S320000, .i32⟩
  | .hbm, ⟨75, _⟩ => ⟨S320000x1, .i32⟩
  | .hbm, ⟨76, _⟩ => ⟨S320000x256, .f32⟩
  | .hbm, ⟨77, _⟩ => ⟨S320000x256, .f32⟩
  | .hbm, ⟨78, _⟩ => ⟨S_, .f32⟩
  | .hbm, ⟨79, _⟩ => ⟨S10000x256, .f32⟩
  | .hbm, ⟨80, _⟩ => ⟨S320000x1, .i32⟩
  | .hbm, ⟨81, _⟩ => ⟨S10000x256, .f32⟩
  | .hbm, ⟨82, _⟩ => ⟨S10000x256, .f32⟩
  | .hbm, ⟨83, _⟩ => ⟨S_, .f32⟩
  | .hbm, ⟨84, _⟩ => ⟨S10000, .f32⟩
  | .hbm, ⟨85, _⟩ => ⟨S320000x1, .i32⟩
  | .hbm, ⟨86, _⟩ => ⟨S10000, .f32⟩
  | .hbm, ⟨87, _⟩ => ⟨S_, .f32⟩
  | .hbm, ⟨88, _⟩ => ⟨S_, .f32⟩
  | .hbm, ⟨89, _⟩ => ⟨S10000, .f32⟩
  | .hbm, ⟨90, _⟩ => ⟨S10000, .f32⟩
  | .hbm, ⟨91, _⟩ => ⟨S_, .f32⟩
  | .hbm, ⟨92, _⟩ => ⟨S10000, .f32⟩
  | .hbm, ⟨93, _⟩ => ⟨S10000, .f32⟩
  | .hbm, ⟨94, _⟩ => ⟨S10000x1, .f32⟩
  | .hbm, ⟨95, _⟩ => ⟨S10000x256, .f32⟩
  | .hbm, ⟨96, _⟩ => ⟨S10000x256, .f32⟩
  | .hbm, ⟨97, _⟩ => ⟨S1x256, .f32⟩
  | .hbm, ⟨98, _⟩ => ⟨S10000x256, .f32⟩
  | .hbm, ⟨99, _⟩ => ⟨S10000x256, .f32⟩
  | .hbm, ⟨100, _⟩ => ⟨S10000x256, .f32⟩
  | _, _ => ⟨S10000x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_cst : Ref sig .tc := ⟨.hbm, 12, rfl⟩
abbrev main_v0 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_c : Ref sig .tc := ⟨.hbm, 22, rfl⟩
abbrev main_v9 : Ref sig .tc := ⟨.hbm, 23, rfl⟩
abbrev main_v10 : Ref sig .tc := ⟨.hbm, 24, rfl⟩
abbrev main_c_0 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_c_1 : Ref sig .tc := ⟨.hbm, 31, rfl⟩
abbrev main_v16 : Ref sig .tc := ⟨.hbm, 32, rfl⟩
abbrev main_v17 : Ref sig .tc := ⟨.hbm, 33, rfl⟩
abbrev main_c_2 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_cst_3 : Ref sig .tc := ⟨.hbm, 48, rfl⟩
abbrev main_v31 : Ref sig .tc := ⟨.hbm, 49, rfl⟩
abbrev main_v32 : Ref sig .tc := ⟨.hbm, 50, rfl⟩
abbrev main_cst_4 : Ref sig .tc := ⟨.hbm, 51, rfl⟩
abbrev main_v33 : Ref sig .tc := ⟨.hbm, 52, rfl⟩
abbrev main_v34 : Ref sig .tc := ⟨.hbm, 53, rfl⟩
abbrev main_cst_5 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_cst_6 : Ref sig .tc := ⟨.hbm, 58, rfl⟩
abbrev main_call0_v0 : Ref sig .tc := ⟨.hbm, 59, rfl⟩
abbrev main_call0_v1 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_v41 : Ref sig .tc := ⟨.hbm, 65, rfl⟩
abbrev main_v42 : Ref sig .tc := ⟨.hbm, 66, rfl⟩
abbrev main_v43 : Ref sig .tc := ⟨.hbm, 67, rfl⟩
abbrev main_c_8 : Ref sig .tc := ⟨.hbm, 68, rfl⟩
abbrev main_v44 : Ref sig .tc := ⟨.hbm, 69, rfl⟩
abbrev main_v45 : Ref sig .tc := ⟨.hbm, 70, rfl⟩
abbrev main_c_9 : Ref sig .tc := ⟨.hbm, 71, rfl⟩
abbrev main_v46 : Ref sig .tc := ⟨.hbm, 72, rfl⟩
abbrev main_v47 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_cst_10 : Ref sig .tc := ⟨.hbm, 78, rfl⟩
abbrev main_v52 : Ref sig .tc := ⟨.hbm, 79, rfl⟩
abbrev main_v53 : Ref sig .tc := ⟨.hbm, 80, rfl⟩
abbrev main_v54 : Ref sig .tc := ⟨.hbm, 81, rfl⟩
abbrev main_v55 : Ref sig .tc := ⟨.hbm, 82, rfl⟩
abbrev main_cst_11 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_cst_12 : Ref sig .tc := ⟨.hbm, 87, rfl⟩
abbrev main_call1_v0 : Ref sig .tc := ⟨.hbm, 88, rfl⟩
abbrev main_call1_v1 : Ref sig .tc := ⟨.hbm, 89, rfl⟩
abbrev main_v59 : Ref sig .tc := ⟨.hbm, 90, rfl⟩
abbrev main_cst_13 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_v65 : Ref sig .tc := ⟨.hbm, 97, rfl⟩
abbrev main_v66 : Ref sig .tc := ⟨.hbm, 98, rfl⟩
abbrev main_v67 : Ref sig .tc := ⟨.hbm, 99, rfl⟩
abbrev main_v68 : Ref sig .tc := ⟨.hbm, 100, rfl⟩

abbrev nD : Nat := 1
abbrev τ : Topo := Topo.v7x

variable {F : FTy → Type} [FloatOps F]

class Facts₀ : Prop where
  bcast_S_S320000 : S_.BroadcastsInDim S320000 (![] : Fin 0 → Fin S320000.rank)
  bcast_S256_S1x256_1 : S256.BroadcastsInDim S1x256 (![1] : Fin 1 → Fin S1x256.rank)
  bcast_S1x256_S10000x256_0_1 : S1x256.BroadcastsInDim S10000x256 (![0, 1] : Fin 2 → Fin S10000x256.rank)
  bcast_S320000_S320000x1_0 : S320000.BroadcastsInDim S320000x1 (![0] : Fin 1 → Fin S320000x1.rank)
  bcast_S1x256_S320000x256_0_1 : S1x256.BroadcastsInDim S320000x256 (![0, 1] : Fin 2 → Fin S320000x256.rank)
  bcast_S_S320000x256 : S_.BroadcastsInDim S320000x256 (![] : Fin 0 → Fin S320000x256.rank)
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x256_0_1 : S10000x1.BroadcastsInDim S10000x256 (![0, 1] : Fin 2 → Fin S10000x256.rank)
  bcast_S_S10000x256 : S_.BroadcastsInDim S10000x256 (![] : Fin 0 → Fin S10000x256.rank)
  dot_S10000x256_S256x256_S10000x256_1_0_0_1_n_n_wf : DotDims.WF S10000x256 S256x256 S10000x256 [1] [0] [0] [1] [] []
  gather_S10000x256_S320000x1_S320000x256_1_0_n_n_0_1_1256_wf : GatherDims.WF S10000x256 S320000x1 S320000x256 [1] [0] [] [0] [] 1 ![1, 256]
  dot_S320000x256_S256x256_S320000x256_1_0_0_1_n_n_wf : DotDims.WF S320000x256 S256x256 S320000x256 [1] [0] [0] [1] [] []
  scatter_S10000_S320000x1_S320000_n_0_0_1_wf : ScatterDims.WF S10000 S320000x1 S320000 [] [0] [0] 1
  scatter_S10000x256_S320000x1_S320000x256_1_0_0_1_wf : ScatterDims.WF S10000x256 S320000x1 S320000x256 [1] [0] [0] 1

variable [Facts₀]

def dot_S10000x256_S256x256_S10000x256_1_0_0_1_n_n : DotDims S10000x256 S256x256 S10000x256 where
  lhsContracting := [1]
  rhsContracting := [0]
  lhsNonContracting := [0]
  rhsNonContracting := [1]
  lhsBatch := []
  rhsBatch := []
  wf := dot_S10000x256_S256x256_S10000x256_1_0_0_1_n_n_wf
def gather_S10000x256_S320000x1_S320000x256_1_0_n_n_0_1_1256 : GatherDims S10000x256 S320000x1 S320000x256 where
  offsetDims := [1]
  collapsedSliceDims := [0]
  operandBatchingDims := []
  startIndicesBatchingDims := []
  startIndexMap := [0]
  indexVectorDim := 1
  sliceSizes := ![1, 256]
  wf := gather_S10000x256_S320000x1_S320000x256_1_0_n_n_0_1_1256_wf
def dot_S320000x256_S256x256_S320000x256_1_0_0_1_n_n : DotDims S320000x256 S256x256 S320000x256 where
  lhsContracting := [1]
  rhsContracting := [0]
  lhsNonContracting := [0]
  rhsNonContracting := [1]
  lhsBatch := []
  rhsBatch := []
  wf := dot_S320000x256_S256x256_S320000x256_1_0_0_1_n_n_wf
def scatter_S10000_S320000x1_S320000_n_0_0_1 : ScatterDims S10000 S320000x1 S320000 where
  updateWindowDims := []
  insertedWindowDims := [0]
  scatterDimsToOperandDims := [0]
  indexVectorDim := 1
  wf := scatter_S10000_S320000x1_S320000_n_0_0_1_wf
def scatter_S10000x256_S320000x1_S320000x256_1_0_0_1 : ScatterDims S10000x256 S320000x1 S320000x256 where
  updateWindowDims := [1]
  insertedWindowDims := [0]
  scatterDimsToOperandDims := [0]
  indexVectorDim := 1
  wf := scatter_S10000x256_S320000x1_S320000x256_1_0_0_1_wf

class Facts : Prop extends Facts₀ where

variable [Facts]
-- ==== Proof.KernelRun.lean ====
/-
  The idealized kernel program's run with its two results named.

  The program is ten segments: stretches of host operations and three grid launches. The buffer contents at
  each boundary are a fold through the program from the launch memory; after the last launch every unscoped
  buffer holds the last fold's contents. Here that fold is read at the two result buffers (the final node
  array and the gate array) as well as at the twelve arguments.
-/
import proofs.«160713_j32031866093817_2_alg».proof.Proof.Gen.KernelIdeal.Frame

set_option maxRecDepth 16384

noncomputable section

namespace Cert.KernelIdeal.Run

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of the program terminates without a fault, the two results end at the last fold's
    contents of their buffers, and the arguments end as launched. -/
theorem run_named : θ_run defs (onTc (τ := τ) (main (F := F))) ⟨m, fun _ => 0, ρ⟩ (fun r => ∀ c : Dev nD,
      r.2.mem ((c.tc : Thread nD τ).loc main_v38) = W10 m ρ c (Proc.devRef .tc main_v38)
      ∧ r.2.mem ((c.tc : Thread nD τ).loc main_v34_0) = W10 m ρ c (Proc.devRef .tc main_v34_0)
      ∧       r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W10 m ρ c b)
    (hfin := fun c s' => by
      iintro ⟨⟨Hh, -⟩, HSI⟩
      unfold StableHlo.held
      imodintro
      iapply (pointsTo_read_all (Pipeline.ucRefs τ sig) (fun b => (((c : Thread nD τ)).1, b)) (W10 m ρ c) s')
      isplitl [Hh] <;> iassumption)
    (hQ := fun s h c =>
      ⟨h c _ (mem_uc main_v38 (by decide)),
       h c _ (mem_uc main_v34_0 (by decide)),
       (h c _ (mem_uc main_arg0 (by decide))).trans (W10_main_arg0 m ρ c),
       (h c _ (mem_uc main_arg1 (by decide))).trans (W10_main_arg1 m ρ c),
       (h c _ (mem_uc main_arg2 (by decide))).trans (W10_main_arg2 m ρ c),
       (h c _ (mem_uc main_arg3 (by decide))).trans (W10_main_arg3 m ρ c),
       (h c _ (mem_uc main_arg4 (by decide))).trans (W10_main_arg4 m ρ c),
       (h c _ (mem_uc main_arg5 (by decide))).trans (W10_main_arg5 m ρ c),
       (h c _ (mem_uc main_arg6 (by decide))).trans (W10_main_arg6 m ρ c),
       (h c _ (mem_uc main_arg7 (by decide))).trans (W10_main_arg7 m ρ c),
       (h c _ (mem_uc main_arg8 (by decide))).trans (W10_main_arg8 m ρ c),
       (h c _ (mem_uc main_arg9 (by decide))).trans (W10_main_arg9 m ρ c),
       (h c _ (mem_uc main_arg10 (by decide))).trans (W10_main_arg10 m ρ c),
       (h c _ (mem_uc main_arg11 (by decide))).trans (W10_main_arg11 m ρ c)⟩)

end Cert.KernelIdeal.Run

end
-- ==== Proof.Spec.lean ====
/-
  The mathematics of the gated graph convolution, layer by layer, over the extended reals.

  A layer is written as ONE function of whole arrays, index by index:
  * `affine x w b`      — entry (r, c) is  Σ_k x(r,k)·w(k,c) + b(0,c)      (a product of matrices plus a bias row);
  * `nodeCat x w b d`   — the two node tables laid side by side: columns 0..255 are `affine x w b`,
                          columns 256..511 are x(r, c−256)·d(r,0)            (the features scaled by a degree column);
  * `gate ef g h w b`   — (g(e,c) + h(e,c)) + (Σ_k ef(e,k)·w(k,c) + b(0,c)), g read in its first 256 columns;
  * `message ef g h w b`— g(e, 256+c) · logistic (gate … (e,c));
  * `finish s w b d x`  — x(r,c) + ((Σ_k s(r,k)·w(k,c))·d(r,0) + b(0,c)).
  Nothing here is finite-only: sums and products are the extended reals' own.
-/
import Idealize.ShloMosaic.PureOps.Ideal
import Idealize.ShloMosaic.Lib.ValueIdx

noncomputable section

namespace Cert.Spec

open Idealize.ShloMosaic Idealize.ShloMosaic.ValueIdx

/-- An array of extended reals with `a` rows and `b` columns. -/
abbrev Mat (a b : Nat) : Type := (⟨2, ![a, b]⟩ : Shape).Idx → EReal

/-- Column `c` of the left half of a 512-column array. -/
abbrev lo (c : Fin 256) : Fin 512 := ⟨c.val, by omega⟩
/-- Column `c` of the right half of a 512-column array. -/
abbrev hi (c : Fin 256) : Fin 512 := ⟨c.val + 256, by omega⟩

variable {R : Nat}

/-- Σ_k x(r,k)·w(k,c): one entry of the product of a matrix with 256 columns and a 256×256 matrix. -/
def prodAt (x : Mat R 256) (w : Mat 256 256) (r : Fin R) (c : Fin 256) : EReal :=
  ∑ k : Fin 256, x (ix2 r k) * w (ix2 k c)

/-- One entry of the product plus the bias row. -/
def affineAt (x : Mat R 256) (w : Mat 256 256) (b : Mat 1 256) (r : Fin R) (c : Fin 256) : EReal :=
  prodAt x w r c + b (ix2 0 c)

/-- The product plus the bias row, as an array. -/
def affine (x : Mat R 256) (w : Mat 256 256) (b : Mat 1 256) : Mat R 256 :=
  fun i => affineAt x w b (i 0) (i 1)

/-- The source-side table: the projected features in columns 0..255, the degree-scaled features in columns 256..511. -/
def nodeCat (x : Mat R 256) (w : Mat 256 256) (b : Mat 1 256) (d : Mat R 1) : Mat R 512 :=
  fun i => if h : (i 1).val < 256 then affineAt x w b (i 0) ⟨(i 1).val, h⟩
    else x (ix2 (i 0) ⟨(i 1).val - 256, by have h1 : (i 1).val < 512 := (i 1).isLt; omega⟩) * d (ix2 (i 0) 0)

/-- The gate's argument at edge `e`, feature `c`. -/
def gateAt (ef : Mat R 256) (g : Mat R 512) (h : Mat R 256) (w : Mat 256 256) (b : Mat 1 256) (e : Fin R) (c : Fin 256) : EReal :=
  (g (ix2 e (lo c)) + h (ix2 e c)) + affineAt ef w b e c

/-- The gate's argument, as an array. -/
def gate (ef : Mat R 256) (g : Mat R 512) (h : Mat R 256) (w : Mat 256 256) (b : Mat 1 256) : Mat R 256 :=
  fun i => gateAt ef g h w b (i 0) (i 1)

/-- The message on an edge: the gathered scaled features times the logistic of the gate's argument. -/
def message (ef : Mat R 256) (g : Mat R 512) (h : Mat R 256) (w : Mat 256 256) (b : Mat 1 256) : Mat R 256 :=
  fun i => g (ix2 (i 0) (hi (i 1))) * Ideal.logistic (gateAt ef g h w b (i 0) (i 1))

/-- The output layer: the aggregate projected, scaled by a degree column, biased, and added to the input. -/
def finish (s : Mat R 256) (w : Mat 256 256) (b : Mat 1 256) (d : Mat R 1) (x : Mat R 256) : Mat R 256 :=
  fun i => x i + (prodAt s w (i 0) (i 1) * d (ix2 (i 0) 0) + b (ix2 0 (i 1)))

end Cert.Spec

end
-- ==== Proof.KTerm.lean ====
/-
  The idealized kernel program's two results as pure terms of the twelve argument arrays.

  The program computes, in order: the two degree vectors (how many edges leave and enter each node, at least one,
  to the power −1/2); the source-side node table (projected features beside degree-scaled features) and the
  destination-side node table; their rows gathered along the edges; the gate's argument and the message on every
  edge; the messages summed into their destination nodes; and the output layer. The three grid launches are the
  layers of `Cert.Spec`; the host operations between them are kept exactly as the program spells them.
-/
import proofs.«160713_j32031866093817_2_alg».proof.Proof.Gen.KernelIdeal
import proofs.«160713_j32031866093817_2_alg».proof.Proof.Spec

noncomputable section

namespace Cert.KernelIdeal.Term

open Cert.KernelIdeal Cert.KernelIdeal.Facts₀ Idealize.ShloMosaic

/-- The contents of a buffer of shape `s` and element type `e` at the ideal instance. -/
abbrev Arr (s : Shape) (e : EltTy) : Type := (⟨s, e⟩ : BufTy).Contents (Elt Ideal)

/-- (number of edges with endpoint v, at least 1)^(−1/2), for every node v: the endpoints' histogram is a
    scatter-add of ones into zeros. -/
def degNorm (ends : Arr S320000 .i32) : Arr S10000 .f32 :=
  Host.powf (F := Ideal)
    (maximumf (broadcastInDim S10000 ![] bcast_S_S10000 (id (constant (F := Ideal) S_ .f32 0x3F800000#32)))
      (Host.scatterAdd (F := Ideal) scatter_S10000_S320000x1_S320000_n_0_0_1
        (broadcastInDim S10000 ![] bcast_S_S10000 (constant (F := Ideal) S_ .f32 0x00000000#32))
        (broadcastInDim S320000x1 ![0] bcast_S320000_S320000x1_0 ends)
        (broadcastInDim S320000 ![] bcast_S_S320000 (constant (F := Ideal) S_ .f32 0x3F800000#32))))
    (broadcastInDim S10000 ![] bcast_S_S10000 (constant (F := Ideal) S_ .f32 0xBF000000#32))

/-- The degree vector as a column. -/
def degCol (ends : Arr S320000 .i32) : Arr S10000x1 .f32 :=
  shapeCast S10000x1 (degNorm ends) shapeCasts_S10000_S10000x1

/-- A bias vector as a row. -/
def biasRow (b : Arr S256 .f32) : Arr S1x256 .f32 :=
  shapeCast S1x256 b shapeCasts_S256_S1x256

/-- The row numbers a gather reads: a negative endpoint counts from the end; as a column of start indices. -/
def rowsOf (ends : Arr S320000 .i32) : Arr S320000x1 .i32 :=
  broadcastInDim S320000x1 ![0] bcast_S320000_S320000x1_0
    (select (cmpi .slt ends (broadcastInDim S320000 ![] bcast_S_S320000 (constantI S_ 32 0#32)))
      (addi ends (broadcastInDim S320000 ![] bcast_S_S320000 (constantI S_ 32 10000#32))) ends)

variable (a0 : Arr S10000x256 .f32) (a1 : Arr S320000x256 .f32) (a2 a3 : Arr S320000 .i32)
  (a4 : Arr S256x256 .f32) (a5 : Arr S256 .f32) (a6 : Arr S256x256 .f32) (a7 : Arr S256 .f32)
  (a8 : Arr S256x256 .f32) (a9 : Arr S256 .f32) (a10 : Arr S256x256 .f32) (a11 : Arr S256 .f32)

/-- The source-side node table's rows gathered along the edges. -/
def catG : Arr S320000x512 .f32 :=
  Host.gather gather_S10000x512_S320000x1_S320000x512_1_0_n_n_0_1_1512
    (Cert.Spec.nodeCat a0 a6 (biasRow a7) (degCol a2)) (rowsOf a2)

/-- The destination-side node table's rows gathered along the edges. -/
def dstG : Arr S320000x256 .f32 :=
  Host.gather gather_S10000x256_S320000x1_S320000x256_1_0_n_n_0_1_1256
    (Cert.Spec.affine a0 a8 (biasRow a9)) (rowsOf a3)

/-- The gate's argument on every edge: the program's second result. -/
def gateK : Arr S320000x256 .f32 :=
  Cert.Spec.gate a1 (catG a0 a2 a6 a7) (dstG a0 a3 a8 a9) a10 (biasRow a11)

/-- The message on every edge. -/
def msgK : Arr S320000x256 .f32 :=
  Cert.Spec.message a1 (catG a0 a2 a6 a7) (dstG a0 a3 a8 a9) a10 (biasRow a11)

/-- The messages summed into their destination nodes. -/
def aggK : Arr S10000x256 .f32 :=
  Host.scatterAdd (F := Ideal) scatter_S10000x256_S320000x1_S320000x256_1_0_0_1
    (broadcastInDim S10000x256 ![] bcast_S_S10000x256 (constant (F := Ideal) S_ .f32 0x00000000#32))
    (broadcastInDim S320000x1 ![0] bcast_S320000_S320000x1_0 a3)
    (msgK a0 a1 a2 a3 a6 a7 a8 a9 a10 a11)

/-- The output layer: the program's first result. -/
def rstK : Arr S10000x256 .f32 :=
  Cert.Spec.finish (aggK a0 a1 a2 a3 a6 a7 a8 a9 a10 a11) a4 (biasRow a5) (degCol a3) a0

end Cert.KernelIdeal.Term

end
-- ==== Proof.KernelHost.lean ====
/-
  What the host operations between the launches leave in the buffers the launches read.

  The buffer contents at each boundary of the program are a fold from the launch memory. Before the first launch
  the host computes the two degree columns (a histogram of the endpoints, at least one, to the power −1/2) and lays
  the four bias vectors out as rows; between the first and the second launch it gathers the two node tables' rows
  along the edges; between the second and the third it sums the messages into their destination nodes. Every
  other buffer a launch reads is passed through unchanged.
-/
import proofs.«160713_j32031866093817_2_alg».proof.Proof.Gen.KernelIdeal.Frame
import proofs.«160713_j32031866093817_2_alg».proof.Proof.KTerm
import Idealize.ShloMosaic.Lib.StableHlo.Run

set_option maxRecDepth 16384

noncomputable section

namespace Cert.KernelIdeal.Host

open Cert.KernelIdeal Cert.KernelIdeal.Gen
open Idealize.ShloMosaic Idealize.ShloMosaic.TcCoe Idealize.ShloMosaic.StableHlo Idealize.SL.Sem

variable (m : (ℓ : Loc nD τ sig) → Buf (Elt Ideal) ℓ) (ρ : Dev nD → PrngReg)

/-! ## Before the first launch -/

/-- Argument 0 is as launched when the first launch begins. -/
theorem W5_arg0 (c : Dev nD) : W5 m ρ c (Proc.devRef .tc main_arg0) = m ((c : Thread nD τ).loc main_arg0) := by
  show StableHlo.after hostOps0_4 (StableHlo.after hostOps0_3 (StableHlo.after hostOps0_2 (StableHlo.after hostOps0_1 (StableHlo.after hostOps0 (W0 m ρ c))))) (Proc.devRef .tc main_arg0) = _
  after_results_simp
/-- Argument 1 is as launched when the first launch begins. -/
theorem W5_arg1 (c : Dev nD) : W5 m ρ c (Proc.devRef .tc main_arg1) = m ((c : Thread nD τ).loc main_arg1) := by
  show StableHlo.after hostOps0_4 (StableHlo.after hostOps0_3 (StableHlo.after hostOps0_2 (StableHlo.after hostOps0_1 (StableHlo.after hostOps0 (W0 m ρ c))))) (Proc.devRef .tc main_arg1) = _
  after_results_simp
/-- Argument 2 is as launched when the first launch begins. -/
theorem W5_arg2 (c : Dev nD) : W5 m ρ c (Proc.devRef .tc main_arg2) = m ((c : Thread nD τ).loc main_arg2) := by
  show StableHlo.after hostOps0_4 (StableHlo.after hostOps0_3 (StableHlo.after hostOps0_2 (StableHlo.after hostOps0_1 (StableHlo.after hostOps0 (W0 m ρ c))))) (Proc.devRef .tc main_arg2) = _
  after_results_simp
/-- Argument 3 is as launched when the first launch begins. -/
theorem W5_arg3 (c : Dev nD) : W5 m ρ c (Proc.devRef .tc main_arg3) = m ((c : Thread nD τ).loc main_arg3) := by
  show StableHlo.after hostOps0_4 (StableHlo.after hostOps0_3 (StableHlo.after hostOps0_2 (StableHlo.after hostOps0_1 (StableHlo.after hostOps0 (W0 m ρ c))))) (Proc.devRef .tc main_arg3) = _
  after_results_simp
/-- Argument 4 is as launched when the first launch begins. -/
theorem W5_arg4 (c : Dev nD) : W5 m ρ c (Proc.devRef .tc main_arg4) = m ((c : Thread nD τ).loc main_arg4) := by
  show StableHlo.after hostOps0_4 (StableHlo.after hostOps0_3 (StableHlo.after hostOps0_2 (StableHlo.after hostOps0_1 (StableHlo.after hostOps0 (W0 m ρ c))))) (Proc.devRef .tc main_arg4) = _
  after_results_simp
/-- Argument 6 is as launched when the first launch begins. -/
theorem W5_arg6 (c : Dev nD) : W5 m ρ c (Proc.devRef .tc main_arg6) = m ((c : Thread nD τ).loc main_arg6) := by
  show StableHlo.after hostOps0_4 (StableHlo.after hostOps0_3 (StableHlo.after hostOps0_2 (StableHlo.after hostOps0_1 (StableHlo.after hostOps0 (W0 m ρ c))))) (Proc.devRef .tc main_arg6) = _
  after_results_simp
/-- Argument 8 is as launched when the first launch begins. -/
theorem W5_arg8 (c : Dev nD) : W5 m ρ c (Proc.devRef .tc main_arg8) = m ((c : Thread nD τ).loc main_arg8) := by
  show StableHlo.after hostOps0_4 (StableHlo.after hostOps0_3 (StableHlo.after hostOps0_2 (StableHlo.after hostOps0_1 (StableHlo.after hostOps0 (W0 m ρ c))))) (Proc.devRef .tc main_arg8) = _
  after_results_simp
/-- Argument 10 is as launched when the first launch begins. -/
theorem W5_arg10 (c : Dev nD) : W5 m ρ c (Proc.devRef .tc main_arg10) = m ((c : Thread nD τ).loc main_arg10) := by
  show StableHlo.after hostOps0_4 (StableHlo.after hostOps0_3 (StableHlo.after hostOps0_2 (StableHlo.after hostOps0_1 (StableHlo.after hostOps0 (W0 m ρ c))))) (Proc.devRef .tc main_arg10) = _
  after_results_simp
/-- Bias vector 7 laid out as a row. -/
theorem W5_v15 (c : Dev nD) : W5 m ρ c (Proc.devRef .tc main_v15) = Term.biasRow (m ((c : Thread nD τ).loc main_arg7)) := by
  show StableHlo.after hostOps0_4 (StableHlo.after hostOps0_3 (StableHlo.after hostOps0_2 (StableHlo.after hostOps0_1 (StableHlo.after hostOps0 (W0 m ρ c))))) (Proc.devRef .tc main_v15) = _
  after_results_simp
  rfl
/-- Bias vector 9 laid out as a row. -/
theorem W5_v16 (c : Dev nD) : W5 m ρ c (Proc.devRef .tc main_v16) = Term.biasRow (m ((c : Thread nD τ).loc main_arg9)) := by
  show StableHlo.after hostOps0_4 (StableHlo.after hostOps0_3 (StableHlo.after hostOps0_2 (StableHlo.after hostOps0_1 (StableHlo.after hostOps0 (W0 m ρ c))))) (Proc.devRef .tc main_v16) = _
  after_results_simp
  rfl
/-- Bias vector 11 laid out as a row. -/
theorem W5_v17 (c : Dev nD) : W5 m ρ c (Proc.devRef .tc main_v17) = Term.biasRow (m ((c : Thread nD τ).loc main_arg11)) := by
  show StableHlo.after hostOps0_4 (StableHlo.after hostOps0_3 (StableHlo.after hostOps0_2 (StableHlo.after hostOps0_1 (StableHlo.after hostOps0 (W0 m ρ c))))) (Proc.devRef .tc main_v17) = _
  after_results_simp
  rfl
/-- Bias vector 5 laid out as a row. -/
theorem W5_v18 (c : Dev nD) : W5 m ρ c (Proc.devRef .tc main_v18) = Term.biasRow (m ((c : Thread nD τ).loc main_arg5)) := by
  show StableHlo.after hostOps0_4 (StableHlo.after hostOps0_3 (StableHlo.after hostOps0_2 (StableHlo.after hostOps0_1 (StableHlo.after hostOps0 (W0 m ρ c))))) (Proc.devRef .tc main_v18) = _
  after_results_simp
  rfl
/-- The out-degree column. -/
theorem W5_v10 (c : Dev nD) : W5 m ρ c (Proc.devRef .tc main_v10) = Term.degCol (m ((c : Thread nD τ).loc main_arg2)) := by
  show StableHlo.after hostOps0_4 (StableHlo.after hostOps0_3 (StableHlo.after hostOps0_2 (StableHlo.after hostOps0_1 (StableHlo.after hostOps0 (W0 m ρ c))))) (Proc.devRef .tc main_v10) = _
  after_results_simp
  rfl
/-- The in-degree column. -/
theorem W5_v14 (c : Dev nD) : W5 m ρ c (Proc.devRef .tc main_v14) = Term.degCol (m ((c : Thread nD τ).loc main_arg3)) := by
  show StableHlo.after hostOps0_4 (StableHlo.after hostOps0_3 (StableHlo.after hostOps0_2 (StableHlo.after hostOps0_1 (StableHlo.after hostOps0 (W0 m ρ c))))) (Proc.devRef .tc main_v14) = _
  after_results_simp
  rfl

/-! ## Between the first and the second launch -/

/-- The source-side table's rows gathered along the edges. -/
theorem W7_v26 (c : Dev nD) : W7 m ρ c (Proc.devRef .tc main_v26)
    = Host.gather gather_S10000x512_S320000x1_S320000x512_1_0_n_n_0_1_1512 (W6 m ρ c (Proc.devRef .tc main_v19_0)) (Term.rowsOf (W6 m ρ c (Proc.devRef .tc main_arg2))) := by
  show StableHlo.after hostOps1 (W6 m ρ c) (Proc.devRef .tc main_v26) = _
  after_results_simp
  rfl
/-- The destination-side table's rows gathered along the edges. -/
theorem W7_v33 (c : Dev nD) : W7 m ρ c (Proc.devRef .tc main_v33)
    = Host.gather gather_S10000x256_S320000x1_S320000x256_1_0_n_n_0_1_1256 (W6 m ρ c (Proc.devRef .tc main_v19_1)) (Term.rowsOf (W6 m ρ c (Proc.devRef .tc main_arg3))) := by
  show StableHlo.after hostOps1 (W6 m ρ c) (Proc.devRef .tc main_v33) = _
  after_results_simp
  rfl
theorem W7_main_arg1 (c : Dev nD) : W7 m ρ c (Proc.devRef .tc main_arg1) = W6 m ρ c (Proc.devRef .tc main_arg1) := by
  show StableHlo.after hostOps1 (W6 m ρ c) (Proc.devRef .tc main_arg1) = _
  after_results_simp
theorem W7_main_arg10 (c : Dev nD) : W7 m ρ c (Proc.devRef .tc main_arg10) = W6 m ρ c (Proc.devRef .tc main_arg10) := by
  show StableHlo.after hostOps1 (W6 m ρ c) (Proc.devRef .tc main_arg10) = _
  after_results_simp
theorem W7_main_v17 (c : Dev nD) : W7 m ρ c (Proc.devRef .tc main_v17) = W6 m ρ c (Proc.devRef .tc main_v17) := by
  show StableHlo.after hostOps1 (W6 m ρ c) (Proc.devRef .tc main_v17) = _
  after_results_simp
theorem W7_main_arg3 (c : Dev nD) : W7 m ρ c (Proc.devRef .tc main_arg3) = W6 m ρ c (Proc.devRef .tc main_arg3) := by
  show StableHlo.after hostOps1 (W6 m ρ c) (Proc.devRef .tc main_arg3) = _
  after_results_simp
theorem W7_main_arg4 (c : Dev nD) : W7 m ρ c (Proc.devRef .tc main_arg4) = W6 m ρ c (Proc.devRef .tc main_arg4) := by
  show StableHlo.after hostOps1 (W6 m ρ c) (Proc.devRef .tc main_arg4) = _
  after_results_simp
theorem W7_main_v18 (c : Dev nD) : W7 m ρ c (Proc.devRef .tc main_v18) = W6 m ρ c (Proc.devRef .tc main_v18) := by
  show StableHlo.after hostOps1 (W6 m ρ c) (Proc.devRef .tc main_v18) = _
  after_results_simp
theorem W7_main_v14 (c : Dev nD) : W7 m ρ c (Proc.devRef .tc main_v14) = W6 m ρ c (Proc.devRef .tc main_v14) := by
  show StableHlo.after hostOps1 (W6 m ρ c) (Proc.devRef .tc main_v14) = _
  after_results_simp
theorem W7_main_arg0 (c : Dev nD) : W7 m ρ c (Proc.devRef .tc main_arg0) = W6 m ρ c (Proc.devRef .tc main_arg0) := by
  show StableHlo.after hostOps1 (W6 m ρ c) (Proc.devRef .tc main_arg0) = _
  after_results_simp

/-! ## Between the second and the third launch -/

/-- The messages summed into their destination nodes. -/
theorem W9_v37 (c : Dev nD) : W9 m ρ c (Proc.devRef .tc main_v37)
    = Host.scatterAdd (F := Ideal) scatter_S10000x256_S320000x1_S320000x256_1_0_0_1
        (broadcastInDim S10000x256 ![] Facts₀.bcast_S_S10000x256 (constant (F := Ideal) S_ .f32 0x00000000#32))
        (broadcastInDim S320000x1 ![0] Facts₀.bcast_S320000_S320000x1_0 (W8 m ρ c (Proc.devRef .tc main_arg3)))
        (W8 m ρ c (Proc.devRef .tc main_v34_1)) := by
  show StableHlo.after hostOps2 (W8 m ρ c) (Proc.devRef .tc main_v37) = _
  after_results_simp
theorem W9_main_arg4 (c : Dev nD) : W9 m ρ c (Proc.devRef .tc main_arg4) = W8 m ρ c (Proc.devRef .tc main_arg4) := by
  show StableHlo.after hostOps2 (W8 m ρ c) (Proc.devRef .tc main_arg4) = _
  after_results_simp
theorem W9_main_v18 (c : Dev nD) : W9 m ρ c (Proc.devRef .tc main_v18) = W8 m ρ c (Proc.devRef .tc main_v18) := by
  show StableHlo.after hostOps2 (W8 m ρ c) (Proc.devRef .tc main_v18) = _
  after_results_simp
theorem W9_main_v14 (c : Dev nD) : W9 m ρ c (Proc.devRef .tc main_v14) = W8 m ρ c (Proc.devRef .tc main_v14) := by
  show StableHlo.after hostOps2 (W8 m ρ c) (Proc.devRef .tc main_v14) = _
  after_results_simp
theorem W9_main_arg0 (c : Dev nD) : W9 m ρ c (Proc.devRef .tc main_arg0) = W8 m ρ c (Proc.devRef .tc main_arg0) := by
  show StableHlo.after hostOps2 (W8 m ρ c) (Proc.devRef .tc main_arg0) = _
  after_results_simp
theorem W9_main_v34_0 (c : Dev nD) : W9 m ρ c (Proc.devRef .tc main_v34_0) = W8 m ρ c (Proc.devRef .tc main_v34_0) := by
  show StableHlo.after hostOps2 (W8 m ρ c) (Proc.devRef .tc main_v34_0) = _
  after_results_simp

end Cert.KernelIdeal.Host

end
-- ==== Proof.KBlock.lean ====
/-
  One grid point's arithmetic, read at an index.

  Every launch of the program works on a block of 2000 rows: it multiplies the block by a 256×256 weight matrix
  (the accumulator starting at zero), adds a bias row to every row, and scales rows by a column. Here each of
  these, at the extended reals, is read at the entry (p, q) of the block.
-/
import proofs.«160713_j32031866093817_2_alg».proof.Proof.Gen.KernelIdeal
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Block

open Cert.KernelIdeal Cert.KernelIdeal.Facts₀ Idealize.ShloMosaic Idealize.ShloMosaic.ValueIdx

/-- The left operand's row coordinate at output entry `i` is `i`'s row. -/
theorem lhs_row (i : S2000x256.Idx) (k : dot_S2000x256_S256x256_S2000x256_1_0_0_1_n_n.contr.Idx) :
    (dot_S2000x256_S256x256_S2000x256_1_0_0_1_n_n.lhsIdx i k 0).val = (i 0).val := by
  unfold DotDims.lhsIdx
  rw [dif_neg (show ¬(0 : Fin S2000x256.rank) ∈ dot_S2000x256_S256x256_S2000x256_1_0_0_1_n_n.lhsBatch by decide), dif_pos (show (0 : Fin S2000x256.rank) ∈ dot_S2000x256_S256x256_S2000x256_1_0_0_1_n_n.lhsNonContracting by decide)]
  rfl
/-- The left operand's column coordinate is the contraction index. -/
theorem lhs_col (i : S2000x256.Idx) (k : dot_S2000x256_S256x256_S2000x256_1_0_0_1_n_n.contr.Idx) :
    (dot_S2000x256_S256x256_S2000x256_1_0_0_1_n_n.lhsIdx i k 1).val = (k ⟨0, by decide⟩).val :=
  dot_S2000x256_S256x256_S2000x256_1_0_0_1_n_n.lhsIdx_val_of_single rfl i k
/-- The right operand's row coordinate is the contraction index. -/
theorem rhs_row (i : S2000x256.Idx) (k : dot_S2000x256_S256x256_S2000x256_1_0_0_1_n_n.contr.Idx) :
    (dot_S2000x256_S256x256_S2000x256_1_0_0_1_n_n.rhsIdx i k 0).val = (k ⟨0, by decide⟩).val :=
  dot_S2000x256_S256x256_S2000x256_1_0_0_1_n_n.rhsIdx_val_of_single rfl i k
/-- The right operand's column coordinate at output entry `i` is `i`'s column. -/
theorem rhs_col (i : S2000x256.Idx) (k : dot_S2000x256_S256x256_S2000x256_1_0_0_1_n_n.contr.Idx) :
    (dot_S2000x256_S256x256_S2000x256_1_0_0_1_n_n.rhsIdx i k 1).val = (i 1).val := by
  unfold DotDims.rhsIdx
  rw [dif_neg (show ¬(1 : Fin S256x256.rank) ∈ dot_S2000x256_S256x256_S2000x256_1_0_0_1_n_n.rhsBatch by decide), dif_pos (show (1 : Fin S256x256.rank) ∈ dot_S2000x256_S256x256_S2000x256_1_0_0_1_n_n.rhsNonContracting by decide)]
  rfl

/-- The block's product with the weights, accumulated from zero: entry (p, q) is Σ_k x(p,k)·w(k,q). -/
theorem matmul_apply {φ₁ φ₂ : FTy} (x : FVec Ideal S2000x256 φ₁) (w : FVec Ideal S256x256 φ₂) (p : Fin 2000) (q : Fin 256) :
    matmul dot_S2000x256_S256x256_S2000x256_1_0_0_1_n_n none x w (constant (F := Ideal) S2000x256 .f32 0x00000000#32) (ix2 p q)
      = ∑ k : Fin 256, x (ix2 p k) * w (ix2 k q) := by
  refine (Ideal.matmul_constant_zero_apply dot_S2000x256_S256x256_S2000x256_1_0_0_1_n_n none x w (ix2 p q)).trans ?_
  rw [← Equiv.sum_comp (ValueIdx.contrEquiv1 dot_S2000x256_S256x256_S2000x256_1_0_0_1_n_n 256 rfl rfl).symm]
  refine Finset.sum_congr rfl fun k _ => ?_
  have hk := ValueIdx.contrEquiv1_symm_val dot_S2000x256_S256x256_S2000x256_1_0_0_1_n_n 256 rfl rfl k
  have el : dot_S2000x256_S256x256_S2000x256_1_0_0_1_n_n.lhsIdx (ix2 p q) ((ValueIdx.contrEquiv1 dot_S2000x256_S256x256_S2000x256_1_0_0_1_n_n 256 rfl rfl).symm k) = ix2 p k :=
    funext fun a => Fin.ext (by
      match a with
      | ⟨0, _⟩ => exact lhs_row _ _
      | ⟨1, _⟩ => exact (lhs_col _ _).trans hk)
  have er : dot_S2000x256_S256x256_S2000x256_1_0_0_1_n_n.rhsIdx (ix2 p q) ((ValueIdx.contrEquiv1 dot_S2000x256_S256x256_S2000x256_1_0_0_1_n_n 256 rfl rfl).symm k) = ix2 k q :=
    funext fun a => Fin.ext (by
      match a with
      | ⟨0, _⟩ => exact (rhs_row _ _).trans hk
      | ⟨1, _⟩ => exact rhs_col _ _)
  rw [el, er]

/-- The bias row repeated over the block's rows: entry (p, q) is the row's entry q. -/
theorem biasRows_apply (v : Vec Ideal S1x256 .f32) (p : Fin 2000) (q : Fin 256) :
    broadcastTo S2000x256 (shapeCast S1x256 v shapeCasts_S1x256_S1x256) broadcasts_S1x256_S2000x256 (ix2 p q) = v (ix2 0 q) := by
  rw [shapeCast_self]
  refine broadcastTo_apply v broadcasts_S1x256_S2000x256 (ix2 p q) (ix2 0 q) fun a => ?_
  match a with
  | ⟨0, _⟩ => rfl
  | ⟨1, _⟩ => rfl

/-- The degree column repeated over the block's columns: entry (p, q) is the column's entry p. -/
theorem degCols_apply (v : Vec Ideal S2000x1 .f32) (p : Fin 2000) (q : Fin 256) :
    broadcastTo S2000x256 (shapeCast S2000x1 v shapeCasts_S2000x1_S2000x1) broadcasts_S2000x1_S2000x256 (ix2 p q) = v (ix2 p 0) := by
  rw [shapeCast_self]
  refine broadcastTo_apply v broadcasts_S2000x1_S2000x256 (ix2 p q) (ix2 p 0) fun a => ?_
  match a with
  | ⟨0, _⟩ => rfl
  | ⟨1, _⟩ => rfl

end Cert.KernelIdeal.Block

end
-- ==== Proof.Region0.lean ====
/-
  The node-preparation launch's source-side table as one function of whole arrays.

  The launch has five grid points; point t works on rows 2000·t … 2000·t + 1999 of the node features and of the
  degree column, with the weight matrix and the bias row whole. It writes those rows of the source-side table in two
  halves: columns 0..255 are the projected features x·W + b, columns 256..511 are the features scaled by the degree
  column. So the table after the launch is `Spec.nodeCat` of the arrays the launch finds, whatever they are.
-/
import proofs.«160713_j32031866093817_2_alg».proof.Proof.Gen.KernelIdeal.Frame
import proofs.«160713_j32031866093817_2_alg».proof.Proof.Gen.KernelIdeal.Points
import proofs.«160713_j32031866093817_2_alg».proof.Proof.Spec
import proofs.«160713_j32031866093817_2_alg».proof.Proof.KBlock
import Idealize.ShloMosaic.Lib.Pipeline.Value

noncomputable section

namespace Cert.KernelIdeal.Region0

open Cert.KernelIdeal Cert.KernelIdeal.Gen
open Idealize.ShloMosaic Idealize.ShloMosaic.TcCoe Idealize.ShloMosaic.ValueIdx Idealize.SL.Sem

/-! ## One block's payloads at an entry -/

/-- The projected block at the entry (p, q): Σ_k x(p,k)·w(k,q) + b(0,q). -/
theorem pay2_apply (x0 : Vec Ideal S2000x256 .f32) (w : Vec Ideal S256x256 .f32) (b : Vec Ideal S1x256 .f32)
    (p : Fin 2000) (q : Fin 256) :
    k0_pay2 x0 w b (ix2 p q) = (∑ k : Fin 256, x0 (ix2 p k) * w (ix2 k q)) + b (ix2 0 q) := by
  have e1 := Block.matmul_apply (truncf (F := Ideal) .bf16 x0 Facts₀.bitsLt_bf16_f32)
    (truncf (F := Ideal) .bf16 w Facts₀.bitsLt_bf16_f32) p q
  have e2 : (∑ k : Fin 256, (truncf (F := Ideal) .bf16 x0 Facts₀.bitsLt_bf16_f32) (ix2 p k)
        * (truncf (F := Ideal) .bf16 w Facts₀.bitsLt_bf16_f32) (ix2 k q)) = ∑ k : Fin 256, x0 (ix2 p k) * w (ix2 k q) := rfl
  exact congrArg₂ (· + ·) (e1.trans e2) (Block.biasRows_apply b p q)

/-- The scaled block at the entry (p, q): x(p,q)·d(p,0). -/
theorem pay4_apply (x0 : Vec Ideal S2000x256 .f32) (d : Vec Ideal S2000x1 .f32) (p : Fin 2000) (q : Fin 256) :
    k0_pay4 x0 d (ix2 p q) = x0 (ix2 p q) * d (ix2 p 0) :=
  congrArg (x0 (ix2 p q) * ·) (Block.degCols_apply d p q)

/-! ## A block's payload as the layer at the block's rows -/

/-- The left half of the source-side block: rows `base + p` of the projected features. -/
theorem point_lo (X : Spec.Mat 10000 256) (W : Spec.Mat 256 256) (B : Spec.Mat 1 256) (D : Spec.Mat 10000 1)
    (x0 : Vec Ideal S2000x256 .f32) (w : Vec Ideal S256x256 .f32) (b : Vec Ideal S1x256 .f32)
    (i : S10000x512.Idx) (j : S2000x256.Idx) (hc : (i 1).val = (j 1).val)
    (h0 : ∀ k : Fin 256, x0 (ix2 (j 0) k) = X (ix2 (i 0) k)) (hw : ∀ k : Fin 256, w (ix2 k (j 1)) = W (ix2 k (j 1)))
    (hb : b (ix2 0 (j 1)) = B (ix2 0 (j 1))) :
    k0_pay2 x0 w b j = Spec.nodeCat X W B D i := by
  obtain ⟨p, q, rfl⟩ : ∃ (p : Fin 2000) (q : Fin 256), j = ix2 p q := ⟨j 0, j 1, eq_ix2 j⟩
  have hc' : (i 1).val = q.val := hc
  have h0' : ∀ k : Fin 256, x0 (ix2 p k) = X (ix2 (i 0) k) := h0
  have hw' : ∀ k : Fin 256, w (ix2 k q) = W (ix2 k q) := hw
  have hb' : b (ix2 0 q) = B (ix2 0 q) := hb
  have hlt : (i 1).val < 256 := by rw [hc']; exact q.isLt
  unfold Spec.nodeCat
  rw [dif_pos hlt, show (⟨(i 1).val, hlt⟩ : Fin 256) = q from Fin.ext hc', pay2_apply, hb']
  unfold Spec.affineAt Spec.prodAt
  exact congrArg (· + B (ix2 0 q)) (Finset.sum_congr rfl fun k _ => by rw [h0' k, hw' k])

/-- The right half of the source-side block: rows `base + p` of the features scaled by the degree column. -/
theorem point_hi (X : Spec.Mat 10000 256) (W : Spec.Mat 256 256) (B : Spec.Mat 1 256) (D : Spec.Mat 10000 1)
    (x0 : Vec Ideal S2000x256 .f32) (d : Vec Ideal S2000x1 .f32)
    (i : S10000x512.Idx) (j : S2000x256.Idx) (hc : (i 1).val = (j 1).val + 256)
    (h0 : x0 j = X (ix2 (i 0) (j 1))) (hd : d (ix2 (j 0) 0) = D (ix2 (i 0) 0)) :
    k0_pay4 x0 d j = Spec.nodeCat X W B D i := by
  obtain ⟨p, q, rfl⟩ : ∃ (p : Fin 2000) (q : Fin 256), j = ix2 p q := ⟨j 0, j 1, eq_ix2 j⟩
  have hc' : (i 1).val = q.val + 256 := hc
  have h0' : x0 (ix2 p q) = X (ix2 (i 0) q) := h0
  have hd' : d (ix2 p 0) = D (ix2 (i 0) 0) := hd
  have hge : ¬ (i 1).val < 256 := by omega
  unfold Spec.nodeCat
  rw [dif_neg hge, pay4_apply, h0', hd']
  refine congrArg (fun k : Fin 256 => X (ix2 (i 0) k) * D (ix2 (i 0) 0)) (Fin.ext ?_)
  show q.val = (i 1).val - 256
  omega

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Point t's blocks: the row-blocked windows move together along the rows, the weights and the bias row stay whole,
    and there are five row blocks. -/
theorem idx_facts : ∀ t : Fin cfg0.N,
    win0_0.index t (0 : Fin 2) = win0_6.index t (0 : Fin 2) ∧ win0_0.index t (1 : Fin 2) = 0
    ∧ win0_1.index t (0 : Fin 2) = 0 ∧ win0_1.index t (1 : Fin 2) = 0
    ∧ win0_3.index t (0 : Fin 2) = 0 ∧ win0_3.index t (1 : Fin 2) = 0
    ∧ win0_5.index t (0 : Fin 2) = win0_6.index t (0 : Fin 2) ∧ win0_5.index t (1 : Fin 2) = 0
    ∧ win0_6.index t (1 : Fin 2) = 0 ∧ win0_6.index t (0 : Fin 2) ≤ 4 :=
  (by decide +kernel : ∀ t : Fin grid0.N, _)

/-- Every row block is some point's. -/
theorem idx_onto : ∀ q0 : Fin 5, ∃ t : Fin cfg0.N, win0_6.index t = ![q0.val, 0] :=
  (by decide +kernel : ∀ q0 : Fin 5, ∃ t : Fin grid0.N, win0_6.index t = ![q0.val, 0])

/-- What point t writes back is block t of the source-side table of the arrays the launch finds. -/
theorem flushed_eq (c : Dev nD) (t : Fin cfg0.N) :
    (dat0 (F := Ideal) V c).flushed 6 t = ((cfg0.win 6).blk t).view.read (Elt Ideal)
      (Spec.nodeCat (V c main_arg0) (V c main_arg6) (V c main_v15) (V c main_v10)) := by
  show (cfg0.win 6).cut (grid0.coords t) ((dat0 V c).after 6 t) = _
  rw [after0_6]
  unfold out0_6
  simp only [View.ld_unit_zero (S := S2000x256) hz, View.ld_unit_zero (S := S256x256) hz,
    View.ld_unit_zero (S := S2000x1) hz, View.ld_unit_zero (S := S1x256) hz]
  obtain ⟨e00, e01, e10, e11, e30, e31, e50, e51, e61, e6⟩ := idx_facts t
  funext y
  show View.canon (Val := Elt Ideal) ([⟨r0_5, k0_pay4 (iblk0 V c 0 t) (iblk0 V c 5 t)⟩,
      ⟨r0_4, k0_pay2 (iblk0 V c 0 t) (iblk0 V c 1 t) (iblk0 V c 3 t)⟩] : List (View.Piece (Elt Ideal) S2000x512 .f32)) y
    = Spec.nodeCat (V c main_arg0) (V c main_arg6) (V c main_v15) (V c main_v10) (((cfg0.win 6).blk t).view.emb y)
  refine View.canon_apply_of_pieces (Val := Elt Ideal) (S := S2000x512) (e := .f32)
    (fun y => Spec.nodeCat (V c main_arg0) (V c main_arg6) (V c main_v15) (V c main_v10) (((cfg0.win 6).blk t).view.emb y))
    _ ?_ y (cover0_6 _ _ y)
  intro pc hpc
  rcases List.mem_cons.mp hpc with rfl | hpc
  · intro x
    show k0_pay4 (iblk0 V c 0 t) (iblk0 V c 5 t) x
      = Spec.nodeCat (V c main_arg0) (V c main_arg6) (V c main_v15) (V c main_v10) (((cfg0.win 6).blk t).view.emb (r0_5.emb x))
    refine point_hi _ _ _ _ _ _ (((cfg0.win 6).blk t).view.emb (r0_5.emb x)) x ?_ ?_ ?_
    · show win0_6.index t (1 : Fin 2) * 512 + 1 * (256 + 1 * (x 1).val) = (x 1).val + 256
      omega
    · show V c main_arg0 (((cfg0.win 0).blk t).view.emb x)
        = V c main_arg0 (ix2 ((((cfg0.win 6).blk t).view.emb (r0_5.emb x)) 0) (x 1))
      refine congrArg _ (funext fun a => Fin.ext ?_)
      match a with
      | ⟨0, _⟩ => show win0_0.index t (0 : Fin 2) * 2000 + 1 * (x 0).val = win0_6.index t (0 : Fin 2) * 2000 + 1 * (0 + 1 * (x 0).val); omega
      | ⟨1, _⟩ => show win0_0.index t (1 : Fin 2) * 256 + 1 * (x 1).val = (x 1).val; omega
    · show V c main_v10 (((cfg0.win 5).blk t).view.emb (ix2 (x 0) 0))
        = V c main_v10 (ix2 ((((cfg0.win 6).blk t).view.emb (r0_5.emb x)) 0) 0)
      refine congrArg _ (funext fun a => Fin.ext ?_)
      match a with
      | ⟨0, _⟩ => show win0_5.index t (0 : Fin 2) * 2000 + 1 * (x 0).val = win0_6.index t (0 : Fin 2) * 2000 + 1 * (0 + 1 * (x 0).val); omega
      | ⟨1, _⟩ => show win0_5.index t (1 : Fin 2) * 1 + 1 * 0 = 0; omega
  rcases List.mem_cons.mp hpc with rfl | hpc
  · intro x
    show k0_pay2 (iblk0 V c 0 t) (iblk0 V c 1 t) (iblk0 V c 3 t) x
      = Spec.nodeCat (V c main_arg0) (V c main_arg6) (V c main_v15) (V c main_v10) (((cfg0.win 6).blk t).view.emb (r0_4.emb x))
    refine point_lo _ _ _ _ _ _ _ (((cfg0.win 6).blk t).view.emb (r0_4.emb x)) x ?_ ?_ ?_ ?_
    · show win0_6.index t (1 : Fin 2) * 512 + 1 * (0 + 1 * (x 1).val) = (x 1).val
      omega
    · intro k
      show V c main_arg0 (((cfg0.win 0).blk t).view.emb (ix2 (x 0) k))
        = V c main_arg0 (ix2 ((((cfg0.win 6).blk t).view.emb (r0_4.emb x)) 0) k)
      refine congrArg _ (funext fun a => Fin.ext ?_)
      match a with
      | ⟨0, _⟩ => show win0_0.index t (0 : Fin 2) * 2000 + 1 * (x 0).val = win0_6.index t (0 : Fin 2) * 2000 + 1 * (0 + 1 * (x 0).val); omega
      | ⟨1, _⟩ => show win0_0.index t (1 : Fin 2) * 256 + 1 * k.val = k.val; omega
    · intro k
      show V c main_arg6 (((cfg0.win 1).blk t).view.emb (ix2 k (x 1))) = V c main_arg6 (ix2 k (x 1))
      refine congrArg _ (funext fun a => Fin.ext ?_)
      match a with
      | ⟨0, _⟩ => show win0_1.index t (0 : Fin 2) * 256 + 1 * k.val = k.val; omega
      | ⟨1, _⟩ => show win0_1.index t (1 : Fin 2) * 256 + 1 * (x 1).val = (x 1).val; omega
    · show V c main_v15 (((cfg0.win 3).blk t).view.emb (ix2 0 (x 1))) = V c main_v15 (ix2 0 (x 1))
      refine congrArg _ (funext fun a => Fin.ext ?_)
      match a with
      | ⟨0, _⟩ => show win0_3.index t (0 : Fin 2) * 1 + 1 * 0 = 0; omega
      | ⟨1, _⟩ => show win0_3.index t (1 : Fin 2) * 256 + 1 * (x 1).val = (x 1).val; omega
  · exact absurd hpc List.not_mem_nil

/-- An index of the table is in point t's block iff each coordinate is in the block's range on its axis. -/
theorem mem_blk (t : Fin cfg0.N) (i : S10000x512.Idx) :
    i ∈ ((cfg0.win 6).blk t).view.set ↔ ∀ a : Fin 2, win0_6.index t a * S2000x512.size a ≤ (i a).val ∧ (i a).val < win0_6.index t a * S2000x512.size a + S2000x512.size a := by
  show i ∈ ((View.whole main_v19_0).slice (win0_6.rect t)).set ↔ _
  rw [View.set_slice_whole, Rect.mem_set_unit]
  exact Iff.rfl

/-- Every row of the table is in some point's block: row r in block r / 2000. -/
theorem cover (i : S10000x512.Idx) : ∃ t : Fin cfg0.N, (cfg0.win 6).flush t = true ∧ i ∈ ((cfg0.win 6).blk t).view.set := by
  have hi0 : (i 0).val < 10000 := (i 0).isLt
  have hi1 : (i 1).val < 512 := (i 1).isLt
  obtain ⟨t, ht⟩ := idx_onto ⟨(i 0).val / 2000, by omega⟩
  have q0 : win0_6.index t (0 : Fin 2) = (i 0).val / 2000 := congrFun ht 0
  have q1 : win0_6.index t (1 : Fin 2) = 0 := congrFun ht 1
  refine ⟨t, flush0_6 t, ?_⟩
  rw [mem_blk]
  intro a
  match a with
  | ⟨0, _⟩ => show win0_6.index t (0 : Fin 2) * 2000 ≤ (i 0).val ∧ (i 0).val < win0_6.index t (0 : Fin 2) * 2000 + 2000; omega
  | ⟨1, _⟩ => show win0_6.index t (1 : Fin 2) * 512 ≤ (i 1).val ∧ (i 1).val < win0_6.index t (1 : Fin 2) * 512 + 512; omega

/-- The source-side table after the launch: the two node tables side by side, of the arrays the launch finds. -/
theorem cat_array (c : Dev nD) :
    (dat0 (F := Ideal) V c).arrAt 6 cfg0.N
      = Spec.nodeCat (V c main_arg0) (V c main_arg6) (V c main_v15) (V c main_v10) :=
  (dat0 (F := Ideal) V c).arrAt_eq_of_cover 6 _ (fun t _ => flushed_eq V c t) cover

end Cert.KernelIdeal.Region0

end
-- ==== Proof.RegionBlock.lean ====
/-
  One block of 2000 rows, entry by entry.

  Every grid point of the three launches works on a block of 2000 rows of its row-blocked arrays, against the whole
  256×256 weight, the whole 1×256 bias row and (where there is one) the block's 2000×1 degree column. This module reads
  the vector operations the bodies are made of at one entry (p, q) of the block:
  * the product accumulated into zeros is  Σ_k x(p,k)·w(k,q);
  * the bias row broadcast over the rows is b(0,q); the degree column broadcast over the columns is d(p,0);
  * a load of the left or right half of a 512-column block reads column q or column 256 + q.
-/
import proofs.«160713_j32031866093817_2_alg».proof.Proof.Gen.KernelIdeal.Frame
import proofs.«160713_j32031866093817_2_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.RegionBlock

open Cert.KernelIdeal Cert.KernelIdeal.Gen Idealize.ShloMosaic Idealize.ShloMosaic.ValueIdx

/-- The contraction's dimension numbers: the left operand's axis 1 against the right operand's axis 0. -/
local notation "D" => dot_S2000x256_S256x256_S2000x256_1_0_0_1_n_n

theorem lhs_row (i : S2000x256.Idx) (k : (D).contr.Idx) : ((D).lhsIdx i k 0).val = (i 0).val := by
  unfold DotDims.lhsIdx
  rw [dif_neg (show ¬(0 : Fin S2000x256.rank) ∈ (D).lhsBatch by decide), dif_pos (show (0 : Fin S2000x256.rank) ∈ (D).lhsNonContracting by decide)]
  rfl

theorem lhs_col (i : S2000x256.Idx) (k : (D).contr.Idx) : ((D).lhsIdx i k 1).val = (k ⟨0, by decide⟩).val :=
  (D).lhsIdx_val_of_single rfl i k

theorem rhs_row (i : S2000x256.Idx) (k : (D).contr.Idx) : ((D).rhsIdx i k 0).val = (k ⟨0, by decide⟩).val :=
  (D).rhsIdx_val_of_single rfl i k

theorem rhs_col (i : S2000x256.Idx) (k : (D).contr.Idx) : ((D).rhsIdx i k 1).val = (i 1).val := by
  unfold DotDims.rhsIdx
  rw [dif_neg (show ¬(1 : Fin S256x256.rank) ∈ (D).rhsBatch by decide), dif_pos (show (1 : Fin S256x256.rank) ∈ (D).rhsNonContracting by decide)]
  rfl

/-- Entry (p, q) of the product of a block of 2000 rows with a 256×256 matrix, accumulated into zeros, is
    Σ_k x(p,k)·w(k,q). -/
theorem matmul_zero_apply {φ₁ φ₂ : FTy} (x : FVec Ideal S2000x256 φ₁) (w : FVec Ideal S256x256 φ₂) (p : Fin 2000) (q : Fin 256) :
    FloatOps.matmul (D) none x w (constant (F := Ideal) S2000x256 .f32 0x00000000#32) (ix2 p q)
      = ∑ k : Fin 256, x (ix2 p k) * w (ix2 k q) := by
  rw [Ideal.matmul_constant_zero_apply, ← Equiv.sum_comp (contrEquiv1 (D) 256 rfl rfl).symm]
  refine Finset.sum_congr rfl fun k _ => ?_
  have hk := contrEquiv1_symm_val (D) 256 rfl rfl k
  have el : (D).lhsIdx (ix2 p q) ((contrEquiv1 (D) 256 rfl rfl).symm k) = ix2 p k := funext fun a => Fin.ext (by
    match a with
    | ⟨0, _⟩ => exact lhs_row _ _
    | ⟨1, _⟩ => exact (lhs_col _ _).trans hk)
  have er : (D).rhsIdx (ix2 p q) ((contrEquiv1 (D) 256 rfl rfl).symm k) = ix2 k q := funext fun a => Fin.ext (by
    match a with
    | ⟨0, _⟩ => exact (rhs_row _ _).trans hk
    | ⟨1, _⟩ => exact rhs_col _ _)
  rw [el, er]

/-- An [a, 1] column broadcast to [a, b] reads, at (p, c), the column's entry of row p. -/
theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- The 2000×256 rectangle at column 0 of a 2000×512 block reads column q. -/
theorem ld_left {α : EltTy → Type} (x : S2000x512.Idx → α .f32) (p : Fin 2000) (q : Fin 256) :
    View.ld (Val := α) x r1_3 (ix2 p q) = x (ix2 p (Cert.Spec.lo q)) := by
  show x (r1_3.emb (ix2 p q)) = _
  refine congrArg x (funext fun a => Fin.ext ?_)
  rw [Rect.emb_apply]
  match a with
  | ⟨0, _⟩ => show 0 + 1 * p.val = p.val; omega
  | ⟨1, _⟩ => show 0 + 1 * q.val = q.val; omega

/-- The 2000×256 rectangle at column 256 of a 2000×512 block reads column 256 + q. -/
theorem ld_right {α : EltTy → Type} (x : S2000x512.Idx → α .f32) (p : Fin 2000) (q : Fin 256) :
    View.ld (Val := α) x r1_4 (ix2 p q) = x (ix2 p (Cert.Spec.hi q)) := by
  show x (r1_4.emb (ix2 p q)) = _
  refine congrArg x (funext fun a => Fin.ext ?_)
  rw [Rect.emb_apply]
  match a with
  | ⟨0, _⟩ => show 0 + 1 * p.val = p.val; omega
  | ⟨1, _⟩ => show 256 + 1 * q.val = q.val + 256; omega

theorem hz : (![0, 0] : Fin 2 → Nat) = fun _ => 0 := funext fun a => by fin_cases a <;> rfl

end Cert.KernelIdeal.RegionBlock

end
-- ==== Proof.Region0Dst.lean ====
/-
  The node launch's destination-side table as a whole array.

  The launch walks the 10000 nodes in 5 blocks of 2000 rows. At point t it reads rows 2000·t … 2000·t + 1999 of the node
  features together with the whole 256×256 destination weight and the whole bias row, and writes the same rows of the
  destination-side table:  Σ_k x(r,k)·w(k,c) + b(0,c). First one block, entry by entry, for an input block that is rows
  `row p` of an arbitrary whole array; then the launch: each point's block is those rows of the array the launch finds,
  every row lies in the block of point ⌊row / 2000⌋, so the output array ends as `Cert.Spec.affine` of the arrays the
  launch finds — whatever those hold.
-/
import proofs.«160713_j32031866093817_2_alg».proof.Proof.RegionBlock
import proofs.«160713_j32031866093817_2_alg».proof.Proof.KBlock

noncomputable section

namespace Cert.KernelIdeal.Region0Dst

open Cert.KernelIdeal Cert.KernelIdeal.Gen Idealize.ShloMosaic Idealize.ShloMosaic.TcCoe Idealize.ShloMosaic.ValueIdx
open Idealize.ShloMosaic.Pipeline (Dat Cfg Window)
open Cert.Spec

/-- The projection computed on a block of 2000 nodes, at node p and feature q of the block. -/
theorem pay_apply (x : Vec Ideal S2000x256 .f32) (w : Vec Ideal S256x256 .f32) (b : Vec Ideal S1x256 .f32)
    (p : Fin 2000) (q : Fin 256) :
    k0_pay3 x w b (ix2 p q) = (∑ k : Fin 256, x (ix2 p k) * w (ix2 k q)) + b (ix2 0 q) := by
  unfold k0_pay3 k0_pay1
  simp only [shapeCast_self]
  rw [addf_apply, Block.matmul_apply, broadcastTo_1b_ab_apply]
  rfl

variable {R : Nat}

/-- What the body leaves in the output block, entry by entry, when row p of the feature block is row `row p` of a whole
    array and the weight and bias blocks are the whole weight and bias. -/
theorem out_apply (X : Mat R 256) (W : Mat 256 256) (B : Mat 1 256) (row : Fin 2000 → Fin R)
    (x0 : Vec Ideal S2000x256 .f32) (x1 x2 : Vec Ideal S256x256 .f32) (x3 x4 : Vec Ideal S1x256 .f32) (x5 : Vec Ideal S2000x1 .f32)
    (h0 : ∀ p k, x0 (ix2 p k) = X (ix2 (row p) k)) (h2 : x2 = W) (h4 : x4 = B) (p : Fin 2000) (q : Fin 256) :
    out0_7 x0 x1 x2 x3 x4 x5 (ix2 p q) = affineAt X W B (row p) q := by
  unfold out0_7
  rw [View.canon_unit_zero RegionBlock.hz]
  simp only [View.ld_unit_zero (S := S2000x256) RegionBlock.hz, View.ld_unit_zero (S := S256x256) RegionBlock.hz,
    View.ld_unit_zero (S := S1x256) RegionBlock.hz]
  rw [pay_apply, h2, h4]
  unfold affineAt prodAt
  simp only [h0]

/-! ## The launch: 5 points, point t on rows 2000·t … 2000·t + 1999 -/

variable (V : (c : Dev nD) → (b : Ref sig .tc) → Buf (Elt Ideal) ((c : Thread nD τ).loc b))

/-- The printed index maps, decided over the grid: the features and the output are on block row t at point t, the
    weight and the bias row on their one block. -/
theorem idx_facts : ∀ t : Fin cfg0.N,
    win0_0.index t (0 : Fin 2) = t.val ∧ win0_0.index t (1 : Fin 2) = 0
    ∧ win0_2.index t (0 : Fin 2) = 0 ∧ win0_2.index t (1 : Fin 2) = 0
    ∧ win0_4.index t (0 : Fin 2) = 0 ∧ win0_4.index t (1 : Fin 2) = 0
    ∧ win0_7.index t (0 : Fin 2) = t.val ∧ win0_7.index t (1 : Fin 2) = 0 :=
  (by decide +kernel : ∀ t : Fin grid0.N, _)

theorem point_lt (t : Fin cfg0.N) : t.val < 5 := lt_of_lt_of_eq t.isLt N_0

/-- The row of the 10000-row arrays that row p of point t's block is. -/
def rowAt (t : Fin cfg0.N) (p : Fin 2000) : Fin 10000 :=
  ⟨t.val * 2000 + p.val, by have := point_lt t; have := p.isLt; omega⟩

theorem blk0_apply (c : Dev nD) (t : Fin cfg0.N) (p : Fin 2000) (k : Fin 256) :
    (iblk0 V c 0 t : Vec Ideal S2000x256 .f32) (ix2 p k) = V c main_arg0 (ix2 (rowAt t p) k) := by
  obtain ⟨e0, e1, -⟩ := idx_facts t
  show V c main_arg0 (((cfg0.win 0).blk t).view.emb (ix2 p k)) = _
  refine congrArg (V c main_arg0) (funext fun a => Fin.ext ?_)
  match a with
  | ⟨0, _⟩ => show win0_0.index t (0 : Fin 2) * 2000 + 1 * p.val = t.val * 2000 + p.val; rw [e0]; omega
  | ⟨1, _⟩ => show win0_0.index t (1 : Fin 2) * 256 + 1 * k.val = k.val; rw [e1]; omega

/-- The weight's block at every point is the whole weight. -/
theorem blk2_eq (c : Dev nD) (t : Fin cfg0.N) : (iblk0 V c 2 t : Vec Ideal S256x256 .f32) = V c main_arg8 := by
  obtain ⟨-, -, e0, e1, -⟩ := idx_facts t
  funext j
  show V c main_arg8 (((cfg0.win 2).blk t).view.emb j) = V c main_arg8 j
  refine congrArg (V c main_arg8) (funext fun a => Fin.ext ?_)
  match a with
  | ⟨0, _⟩ => show win0_2.index t (0 : Fin 2) * 256 + 1 * (j 0).val = (j 0).val; rw [e0]; omega
  | ⟨1, _⟩ => show win0_2.index t (1 : Fin 2) * 256 + 1 * (j 1).val = (j 1).val; rw [e1]; omega

/-- The bias row's block at every point is the whole row. -/
theorem blk4_eq (c : Dev nD) (t : Fin cfg0.N) : (iblk0 V c 4 t : Vec Ideal S1x256 .f32) = V c main_v16 := by
  obtain ⟨-, -, -, -, e0, e1, -⟩ := idx_facts t
  funext j
  show V c main_v16 (((cfg0.win 4).blk t).view.emb j) = V c main_v16 j
  refine congrArg (V c main_v16) (funext fun a => Fin.ext ?_)
  match a with
  | ⟨0, _⟩ => show win0_4.index t (0 : Fin 2) * 1 + 1 * (j 0).val = (j 0).val; rw [e0]; omega
  | ⟨1, _⟩ => show win0_4.index t (1 : Fin 2) * 256 + 1 * (j 1).val = (j 1).val; rw [e1]; omega

/-- Entry (p, q) of the output block at point t is entry (2000·t + p, q) of the output array. -/
theorem out_emb (t : Fin cfg0.N) (p : Fin 2000) (q : Fin 256) :
    ((cfg0.win 7).blk t).view.emb (ix2 p q) = ix2 (rowAt t p) q := by
  obtain ⟨-, -, -, -, -, -, e0, e1⟩ := idx_facts t
  refine funext fun a => Fin.ext ?_
  match a with
  | ⟨0, _⟩ => show win0_7.index t (0 : Fin 2) * 2000 + 1 * p.val = t.val * 2000 + p.val; rw [e0]; omega
  | ⟨1, _⟩ => show win0_7.index t (1 : Fin 2) * 256 + 1 * q.val = q.val; rw [e1]; omega

/-- WHAT POINT t WRITES BACK is block t of the projection of the arrays the launch finds. -/
theorem flushed_eq (c : Dev nD) (t : Fin cfg0.N) :
    (dat0 (F := Ideal) V c).flushed 7 t
      = ((cfg0.win 7).blk t).view.read (Elt Ideal) (affine (V c main_arg0) (V c main_arg8) (V c main_v16)) := by
  show (cfg0.win 7).cut (grid0.coords t) ((dat0 (F := Ideal) V c).after 7 t) = _
  rw [after0_7]
  refine funext fun (j : S2000x256.Idx) => ?_
  obtain ⟨p, q, rfl⟩ : ∃ (p : Fin 2000) (q : Fin 256), j = ix2 p q := ⟨j 0, j 1, eq_ix2 j⟩
  show out0_7 (iblk0 V c 0 t) (iblk0 V c 1 t) (iblk0 V c 2 t) (iblk0 V c 3 t) (iblk0 V c 4 t) (iblk0 V c 5 t) (ix2 p q)
    = affine (V c main_arg0) (V c main_arg8) (V c main_v16) (((cfg0.win 7).blk t).view.emb (ix2 p q))
  rw [out_emb]
  exact out_apply (V c main_arg0) (V c main_arg8) (V c main_v16) (rowAt t) _ _ _ _ _ _
    (blk0_apply V c t) (blk2_eq V c t) (blk4_eq V c t) p q

/-- An index of the output array is in point t's block iff its row is one of the block's 2000 rows. -/
theorem mem_blk (t : Fin cfg0.N) (i : S10000x256.Idx) :
    i ∈ ((cfg0.win 7).blk t).view.set ↔ ∀ a : Fin 2, win0_7.index t a * S2000x256.size a ≤ (i a).val ∧ (i a).val < win0_7.index t a * S2000x256.size a + S2000x256.size a := by
  show i ∈ ((View.whole main_v19_1).slice (win0_7.rect t)).set ↔ _
  rw [View.set_slice_whole, Rect.mem_set_unit]
  exact Iff.rfl

/-- The point whose block holds row r: r / 2000. -/
def pointOf (r : Fin 10000) : Fin cfg0.N :=
  ⟨r.val / 2000, lt_of_lt_of_eq (by have := r.isLt; omega : r.val / 2000 < 5) N_0.symm⟩

/-- Every entry of the output array is in the block of the point its row belongs to. -/
theorem cover (i : S10000x256.Idx) : ∃ t : Fin cfg0.N, (cfg0.win 7).flush t = true ∧ i ∈ ((cfg0.win 7).blk t).view.set := by
  have hi0 : (i 0).val < 10000 := (i 0).isLt
  have hi1 : (i 1).val < 256 := (i 1).isLt
  refine ⟨pointOf ⟨(i 0).val, hi0⟩, flush0_7 _, ?_⟩
  obtain ⟨-, -, -, -, -, -, e0, e1⟩ := idx_facts (pointOf ⟨(i 0).val, hi0⟩)
  rw [mem_blk]
  intro a
  match a with
  | ⟨0, _⟩ =>
    show win0_7.index (pointOf ⟨(i 0).val, hi0⟩) (0 : Fin 2) * 2000 ≤ (i 0).val ∧ (i 0).val < win0_7.index (pointOf ⟨(i 0).val, hi0⟩) (0 : Fin 2) * 2000 + 2000
    rw [e0]
    show (i 0).val / 2000 * 2000 ≤ (i 0).val ∧ (i 0).val < (i 0).val / 2000 * 2000 + 2000
    omega
  | ⟨1, _⟩ =>
    show win0_7.index (pointOf ⟨(i 0).val, hi0⟩) (1 : Fin 2) * 256 ≤ (i 1).val ∧ (i 1).val < win0_7.index (pointOf ⟨(i 0).val, hi0⟩) (1 : Fin 2) * 256 + 256
    rw [e1]
    omega

/-- THE DESTINATION-SIDE TABLE after the launch: the projection of the arrays the launch finds, whatever they hold. -/
theorem dst_array (c : Dev nD) :
    (dat0 (F := Ideal) V c).arrAt 7 cfg0.N = affine (V c main_arg0) (V c main_arg8) (V c main_v16) :=
  (dat0 (F := Ideal) V c).arrAt_eq_of_cover 7 _ (fun t _ => flushed_eq V c t) cover

end Cert.KernelIdeal.Region0Dst

end
-- ==== Proof.Region1.lean ====
/-
  The edge launch as whole arrays.

  The launch walks the 320000 edges in 160 blocks of 2000 rows. At point t it reads rows 2000·t … 2000·t + 1999 of the
  edge features, of the gathered source-side table (512 columns: its two halves are read separately) and of the gathered
  destination-side table, together with the whole 256×256 weight and the whole bias row, and writes the same rows of two
  output arrays: the gate's argument  (g(e,c) + h(e,c)) + (Σ_k ef(e,k)·w(k,c) + b(0,c))  and the message
  g(e,256+c)·logistic(gate's argument). First one block, entry by entry, for input blocks that are rows `row p` of
  arbitrary whole arrays; then the launch: each point's blocks are those rows of the arrays the launch finds, every
  row lies in exactly the block of point ⌊row / 2000⌋, so the two output arrays end as `Cert.Spec.gate` and
  `Cert.Spec.message` of the arrays the launch finds — whatever those hold.
-/
import proofs.«160713_j32031866093817_2_alg».proof.Proof.RegionBlock
import proofs.«160713_j32031866093817_2_alg».proof.Proof.KBlock

noncomputable section

namespace Cert.KernelIdeal.Region1

open Cert.KernelIdeal Cert.KernelIdeal.Gen Idealize.ShloMosaic Idealize.ShloMosaic.TcCoe Idealize.ShloMosaic.ValueIdx
open Idealize.ShloMosaic.Pipeline (Dat Cfg Window)
open Cert.KernelIdeal.Facts₀ Cert.Spec

/-- The gate's argument computed on a block of 2000 edges, at edge p and feature q of the block. -/
theorem gatePay_apply (x0 : Vec Ideal S2000x256 .f32) (w : Vec Ideal S256x256 .f32) (b : Vec Ideal S1x256 .f32)
    (g h : Vec Ideal S2000x256 .f32) (p : Fin 2000) (q : Fin 256) :
    k1_pay1 x0 w b g h (ix2 p q) = (g (ix2 p q) + h (ix2 p q)) + ((∑ k : Fin 256, x0 (ix2 p k) * w (ix2 k q)) + b (ix2 0 q)) := by
  unfold k1_pay1
  simp only [shapeCast_self]
  rw [addf_apply, addf_apply, addf_apply, Block.matmul_apply, broadcastTo_1b_ab_apply]
  rfl

/-- The message computed on a block of 2000 edges, at edge p and feature q of the block. -/
theorem msgPay_apply (x0 : Vec Ideal S2000x256 .f32) (w : Vec Ideal S256x256 .f32) (b : Vec Ideal S1x256 .f32)
    (g g' h : Vec Ideal S2000x256 .f32) (p : Fin 2000) (q : Fin 256) :
    k1_pay2 x0 w b g g' h (ix2 p q) = g' (ix2 p q) * Ideal.logistic (k1_pay1 x0 w b g h (ix2 p q)) := by
  unfold k1_pay2
  simp only [shapeCast_self]
  rfl

variable {R : Nat}

/-- What the body leaves in the gate's output block, entry by entry, when row p of every row-blocked input block is row
    `row p` of a whole array and the weight and bias blocks are the whole weight and bias. -/
theorem gateOut_apply (ef : Mat R 256) (G : Mat R 512) (H : Mat R 256) (W : Mat 256 256) (B : Mat 1 256) (row : Fin 2000 → Fin R)
    (x0 : Vec Ideal S2000x256 .f32) (x1 : Vec Ideal S2000x512 .f32) (x2 : Vec Ideal S2000x256 .f32)
    (x3 : Vec Ideal S256x256 .f32) (x4 : Vec Ideal S1x256 .f32)
    (h0 : ∀ p k, x0 (ix2 p k) = ef (ix2 (row p) k)) (h1 : ∀ p k, x1 (ix2 p k) = G (ix2 (row p) k))
    (h2 : ∀ p k, x2 (ix2 p k) = H (ix2 (row p) k)) (h3 : x3 = W) (h4 : x4 = B) (p : Fin 2000) (q : Fin 256) :
    out1_5 x0 x1 x2 x3 x4 (ix2 p q) = gateAt ef G H W B (row p) q := by
  unfold out1_5
  rw [View.canon_unit_zero RegionBlock.hz]
  simp only [View.ld_unit_zero (S := S2000x256) RegionBlock.hz, View.ld_unit_zero (S := S256x256) RegionBlock.hz,
    View.ld_unit_zero (S := S1x256) RegionBlock.hz]
  rw [gatePay_apply, RegionBlock.ld_left, h1, h2, h3, h4]
  unfold gateAt affineAt prodAt
  simp only [h0]

/-- What the body leaves in the message's output block, entry by entry, under the same reading of the input blocks. -/
theorem msgOut_apply (ef : Mat R 256) (G : Mat R 512) (H : Mat R 256) (W : Mat 256 256) (B : Mat 1 256) (row : Fin 2000 → Fin R)
    (x0 : Vec Ideal S2000x256 .f32) (x1 : Vec Ideal S2000x512 .f32) (x2 : Vec Ideal S2000x256 .f32)
    (x3 : Vec Ideal S256x256 .f32) (x4 : Vec Ideal S1x256 .f32)
    (h0 : ∀ p k, x0 (ix2 p k) = ef (ix2 (row p) k)) (h1 : ∀ p k, x1 (ix2 p k) = G (ix2 (row p) k))
    (h2 : ∀ p k, x2 (ix2 p k) = H (ix2 (row p) k)) (h3 : x3 = W) (h4 : x4 = B) (p : Fin 2000) (q : Fin 256) :
    out1_6 x0 x1 x2 x3 x4 (ix2 p q) = G (ix2 (row p) (hi q)) * Ideal.logistic (gateAt ef G H W B (row p) q) := by
  unfold out1_6
  rw [View.canon_unit_zero RegionBlock.hz]
  simp only [View.ld_unit_zero (S := S2000x256) RegionBlock.hz, View.ld_unit_zero (S := S256x256) RegionBlock.hz,
    View.ld_unit_zero (S := S1x256) RegionBlock.hz]
  rw [msgPay_apply, gatePay_apply, RegionBlock.ld_left, RegionBlock.ld_right, h1, h1, h2, h3, h4]
  unfold gateAt affineAt prodAt
  simp only [h0]

/-! ## The launch: 160 points, point t on rows 2000·t … 2000·t + 1999 -/

variable (V : (c : Dev nD) → (b : Ref sig .tc) → Buf (Elt Ideal) ((c : Thread nD τ).loc b))

/-- The printed index maps, decided over the grid: the five row-blocked windows are on block row t at point t, the
    weight and the bias row on their one block. -/
theorem idx_facts : ∀ t : Fin cfg1.N,
    win1_0.index t (0 : Fin 2) = t.val ∧ win1_0.index t (1 : Fin 2) = 0
    ∧ win1_1.index t (0 : Fin 2) = t.val ∧ win1_1.index t (1 : Fin 2) = 0
    ∧ win1_2.index t (0 : Fin 2) = t.val ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = t.val ∧ win1_5.index t (1 : Fin 2) = 0
    ∧ win1_6.index t (0 : Fin 2) = t.val ∧ win1_6.index t (1 : Fin 2) = 0 :=
  (by decide +kernel : ∀ t : Fin grid1.N, _)

theorem point_lt (t : Fin cfg1.N) : t.val < 160 := lt_of_lt_of_eq t.isLt N_1

/-- The row of the 320000-row arrays that row p of point t's block is. -/
def rowAt (t : Fin cfg1.N) (p : Fin 2000) : Fin 320000 :=
  ⟨t.val * 2000 + p.val, by have := point_lt t; have := p.isLt; omega⟩

theorem blk0_apply (c : Dev nD) (t : Fin cfg1.N) (p : Fin 2000) (k : Fin 256) :
    (iblk1 V c 0 t : Vec Ideal S2000x256 .f32) (ix2 p k) = V c main_arg1 (ix2 (rowAt t p) k) := by
  obtain ⟨e0, e1, -⟩ := idx_facts t
  show V c main_arg1 (((cfg1.win 0).blk t).view.emb (ix2 p k)) = _
  refine congrArg (V c main_arg1) (funext fun a => Fin.ext ?_)
  match a with
  | ⟨0, _⟩ => show win1_0.index t (0 : Fin 2) * 2000 + 1 * p.val = t.val * 2000 + p.val; rw [e0]; omega
  | ⟨1, _⟩ => show win1_0.index t (1 : Fin 2) * 256 + 1 * k.val = k.val; rw [e1]; omega

theorem blk1_apply (c : Dev nD) (t : Fin cfg1.N) (p : Fin 2000) (k : Fin 512) :
    (iblk1 V c 1 t : Vec Ideal S2000x512 .f32) (ix2 p k) = V c main_v26 (ix2 (rowAt t p) k) := by
  obtain ⟨-, -, e0, e1, -⟩ := idx_facts t
  show V c main_v26 (((cfg1.win 1).blk t).view.emb (ix2 p k)) = _
  refine congrArg (V c main_v26) (funext fun a => Fin.ext ?_)
  match a with
  | ⟨0, _⟩ => show win1_1.index t (0 : Fin 2) * 2000 + 1 * p.val = t.val * 2000 + p.val; rw [e0]; omega
  | ⟨1, _⟩ => show win1_1.index t (1 : Fin 2) * 512 + 1 * k.val = k.val; rw [e1]; omega

theorem blk2_apply (c : Dev nD) (t : Fin cfg1.N) (p : Fin 2000) (k : Fin 256) :
    (iblk1 V c 2 t : Vec Ideal S2000x256 .f32) (ix2 p k) = V c main_v33 (ix2 (rowAt t p) k) := by
  obtain ⟨-, -, -, -, e0, e1, -⟩ := idx_facts t
  show V c main_v33 (((cfg1.win 2).blk t).view.emb (ix2 p k)) = _
  refine congrArg (V c main_v33) (funext fun a => Fin.ext ?_)
  match a with
  | ⟨0, _⟩ => show win1_2.index t (0 : Fin 2) * 2000 + 1 * p.val = t.val * 2000 + p.val; rw [e0]; omega
  | ⟨1, _⟩ => show win1_2.index t (1 : Fin 2) * 256 + 1 * k.val = k.val; rw [e1]; omega

/-- The weight's block at every point is the whole weight. -/
theorem blk3_eq (c : Dev nD) (t : Fin cfg1.N) : (iblk1 V c 3 t : Vec Ideal S256x256 .f32) = V c main_arg10 := by
  obtain ⟨-, -, -, -, -, -, e0, e1, -⟩ := idx_facts t
  funext j
  show V c main_arg10 (((cfg1.win 3).blk t).view.emb j) = V c main_arg10 j
  refine congrArg (V c main_arg10) (funext fun a => Fin.ext ?_)
  match a with
  | ⟨0, _⟩ => show win1_3.index t (0 : Fin 2) * 256 + 1 * (j 0).val = (j 0).val; rw [e0]; omega
  | ⟨1, _⟩ => show win1_3.index t (1 : Fin 2) * 256 + 1 * (j 1).val = (j 1).val; rw [e1]; omega

/-- The bias row's block at every point is the whole row. -/
theorem blk4_eq (c : Dev nD) (t : Fin cfg1.N) : (iblk1 V c 4 t : Vec Ideal S1x256 .f32) = V c main_v17 := by
  obtain ⟨-, -, -, -, -, -, -, -, e0, e1, -⟩ := idx_facts t
  funext j
  show V c main_v17 (((cfg1.win 4).blk t).view.emb j) = V c main_v17 j
  refine congrArg (V c main_v17) (funext fun a => Fin.ext ?_)
  match a with
  | ⟨0, _⟩ => show win1_4.index t (0 : Fin 2) * 1 + 1 * (j 0).val = (j 0).val; rw [e0]; omega
  | ⟨1, _⟩ => show win1_4.index t (1 : Fin 2) * 256 + 1 * (j 1).val = (j 1).val; rw [e1]; omega

/-- Entry (p, q) of an output block at point t is entry (2000·t + p, q) of the output array. -/
theorem out5_emb (t : Fin cfg1.N) (p : Fin 2000) (q : Fin 256) :
    ((cfg1.win 5).blk t).view.emb (ix2 p q) = ix2 (rowAt t p) q := by
  obtain ⟨-, -, -, -, -, -, -, -, -, -, e0, e1, -⟩ := idx_facts t
  refine funext fun a => Fin.ext ?_
  match a with
  | ⟨0, _⟩ => show win1_5.index t (0 : Fin 2) * 2000 + 1 * p.val = t.val * 2000 + p.val; rw [e0]; omega
  | ⟨1, _⟩ => show win1_5.index t (1 : Fin 2) * 256 + 1 * q.val = q.val; rw [e1]; omega

theorem out6_emb (t : Fin cfg1.N) (p : Fin 2000) (q : Fin 256) :
    ((cfg1.win 6).blk t).view.emb (ix2 p q) = ix2 (rowAt t p) q := by
  obtain ⟨-, -, -, -, -, -, -, -, -, -, -, -, e0, e1⟩ := idx_facts t
  refine funext fun a => Fin.ext ?_
  match a with
  | ⟨0, _⟩ => show win1_6.index t (0 : Fin 2) * 2000 + 1 * p.val = t.val * 2000 + p.val; rw [e0]; omega
  | ⟨1, _⟩ => show win1_6.index t (1 : Fin 2) * 256 + 1 * q.val = q.val; rw [e1]; omega

/-- WHAT POINT t WRITES BACK to the gate's array is block t of the gate's argument of the arrays the launch finds. -/
theorem flushed5_eq (c : Dev nD) (t : Fin cfg1.N) :
    (dat1 (F := Ideal) V c).flushed 5 t
      = ((cfg1.win 5).blk t).view.read (Elt Ideal)
          (gate (V c main_arg1) (V c main_v26) (V c main_v33) (V c main_arg10) (V c main_v17)) := by
  show (cfg1.win 5).cut (grid1.coords t) ((dat1 (F := Ideal) V c).after 5 t) = _
  rw [after1_5]
  refine funext fun (j : S2000x256.Idx) => ?_
  obtain ⟨p, q, rfl⟩ : ∃ (p : Fin 2000) (q : Fin 256), j = ix2 p q := ⟨j 0, j 1, eq_ix2 j⟩
  show out1_5 (iblk1 V c 0 t) (iblk1 V c 1 t) (iblk1 V c 2 t) (iblk1 V c 3 t) (iblk1 V c 4 t) (ix2 p q)
    = gate (V c main_arg1) (V c main_v26) (V c main_v33) (V c main_arg10) (V c main_v17) (((cfg1.win 5).blk t).view.emb (ix2 p q))
  rw [out5_emb]
  exact gateOut_apply (V c main_arg1) (V c main_v26) (V c main_v33) (V c main_arg10) (V c main_v17) (rowAt t) _ _ _ _ _
    (blk0_apply V c t) (blk1_apply V c t) (blk2_apply V c t) (blk3_eq V c t) (blk4_eq V c t) p q

/-- WHAT POINT t WRITES BACK to the message's array is block t of the message of the arrays the launch finds. -/
theorem flushed6_eq (c : Dev nD) (t : Fin cfg1.N) :
    (dat1 (F := Ideal) V c).flushed 6 t
      = ((cfg1.win 6).blk t).view.read (Elt Ideal)
          (message (V c main_arg1) (V c main_v26) (V c main_v33) (V c main_arg10) (V c main_v17)) := by
  show (cfg1.win 6).cut (grid1.coords t) ((dat1 (F := Ideal) V c).after 6 t) = _
  rw [after1_6]
  refine funext fun (j : S2000x256.Idx) => ?_
  obtain ⟨p, q, rfl⟩ : ∃ (p : Fin 2000) (q : Fin 256), j = ix2 p q := ⟨j 0, j 1, eq_ix2 j⟩
  show out1_6 (iblk1 V c 0 t) (iblk1 V c 1 t) (iblk1 V c 2 t) (iblk1 V c 3 t) (iblk1 V c 4 t) (ix2 p q)
    = message (V c main_arg1) (V c main_v26) (V c main_v33) (V c main_arg10) (V c main_v17) (((cfg1.win 6).blk t).view.emb (ix2 p q))
  rw [out6_emb]
  exact msgOut_apply (V c main_arg1) (V c main_v26) (V c main_v33) (V c main_arg10) (V c main_v17) (rowAt t) _ _ _ _ _
    (blk0_apply V c t) (blk1_apply V c t) (blk2_apply V c t) (blk3_eq V c t) (blk4_eq V c t) p q

/-- An index of the gate's array is in point t's block iff its row is one of the block's 2000 rows. -/
theorem mem_blk5 (t : Fin cfg1.N) (i : S320000x256.Idx) :
    i ∈ ((cfg1.win 5).blk t).view.set ↔ ∀ a : Fin 2, win1_5.index t a * S2000x256.size a ≤ (i a).val ∧ (i a).val < win1_5.index t a * S2000x256.size a + S2000x256.size a := by
  show i ∈ ((View.whole main_v34_0).slice (win1_5.rect t)).set ↔ _
  rw [View.set_slice_whole, Rect.mem_set_unit]
  exact Iff.rfl

theorem mem_blk6 (t : Fin cfg1.N) (i : S320000x256.Idx) :
    i ∈ ((cfg1.win 6).blk t).view.set ↔ ∀ a : Fin 2, win1_6.index t a * S2000x256.size a ≤ (i a).val ∧ (i a).val < win1_6.index t a * S2000x256.size a + S2000x256.size a := by
  show i ∈ ((View.whole main_v34_1).slice (win1_6.rect t)).set ↔ _
  rw [View.set_slice_whole, Rect.mem_set_unit]
  exact Iff.rfl

/-- The point whose block holds row r: r / 2000. -/
def pointOf (r : Fin 320000) : Fin cfg1.N :=
  ⟨r.val / 2000, lt_of_lt_of_eq (by have := r.isLt; omega : r.val / 2000 < 160) N_1.symm⟩

/-- Every entry of the gate's array is in the block of the point its row belongs to. -/
theorem cover5 (i : S320000x256.Idx) : ∃ t : Fin cfg1.N, (cfg1.win 5).flush t = true ∧ i ∈ ((cfg1.win 5).blk t).view.set := by
  have hi0 : (i 0).val < 320000 := (i 0).isLt
  have hi1 : (i 1).val < 256 := (i 1).isLt
  refine ⟨pointOf ⟨(i 0).val, hi0⟩, flush1_5 _, ?_⟩
  obtain ⟨-, -, -, -, -, -, -, -, -, -, e0, e1, -⟩ := idx_facts (pointOf ⟨(i 0).val, hi0⟩)
  rw [mem_blk5]
  intro a
  match a with
  | ⟨0, _⟩ =>
    show win1_5.index (pointOf ⟨(i 0).val, hi0⟩) (0 : Fin 2) * 2000 ≤ (i 0).val ∧ (i 0).val < win1_5.index (pointOf ⟨(i 0).val, hi0⟩) (0 : Fin 2) * 2000 + 2000
    rw [e0]
    show (i 0).val / 2000 * 2000 ≤ (i 0).val ∧ (i 0).val < (i 0).val / 2000 * 2000 + 2000
    omega
  | ⟨1, _⟩ =>
    show win1_5.index (pointOf ⟨(i 0).val, hi0⟩) (1 : Fin 2) * 256 ≤ (i 1).val ∧ (i 1).val < win1_5.index (pointOf ⟨(i 0).val, hi0⟩) (1 : Fin 2) * 256 + 256
    rw [e1]
    omega

theorem cover6 (i : S320000x256.Idx) : ∃ t : Fin cfg1.N, (cfg1.win 6).flush t = true ∧ i ∈ ((cfg1.win 6).blk t).view.set := by
  have hi0 : (i 0).val < 320000 := (i 0).isLt
  have hi1 : (i 1).val < 256 := (i 1).isLt
  refine ⟨pointOf ⟨(i 0).val, hi0⟩, flush1_6 _, ?_⟩
  obtain ⟨-, -, -, -, -, -, -, -, -, -, -, -, e0, e1⟩ := idx_facts (pointOf ⟨(i 0).val, hi0⟩)
  rw [mem_blk6]
  intro a
  match a with
  | ⟨0, _⟩ =>
    show win1_6.index (pointOf ⟨(i 0).val, hi0⟩) (0 : Fin 2) * 2000 ≤ (i 0).val ∧ (i 0).val < win1_6.index (pointOf ⟨(i 0).val, hi0⟩) (0 : Fin 2) * 2000 + 2000
    rw [e0]
    show (i 0).val / 2000 * 2000 ≤ (i 0).val ∧ (i 0).val < (i 0).val / 2000 * 2000 + 2000
    omega
  | ⟨1, _⟩ =>
    show win1_6.index (pointOf ⟨(i 0).val, hi0⟩) (1 : Fin 2) * 256 ≤ (i 1).val ∧ (i 1).val < win1_6.index (pointOf ⟨(i 0).val, hi0⟩) (1 : Fin 2) * 256 + 256
    rw [e1]
    omega

/-- THE GATE'S ARRAY after the launch: the gate's argument of the arrays the launch finds, whatever they hold. -/
theorem gate_array (c : Dev nD) :
    (dat1 (F := Ideal) V c).arrAt 5 cfg1.N
      = gate (V c main_arg1) (V c main_v26) (V c main_v33) (V c main_arg10) (V c main_v17) :=
  (dat1 (F := Ideal) V c).arrAt_eq_of_cover 5 _ (fun t _ => flushed5_eq V c t) cover5

/-- THE MESSAGE'S ARRAY after the launch: the message of the arrays the launch finds, whatever they hold. -/
theorem message_array (c : Dev nD) :
    (dat1 (F := Ideal) V c).arrAt 6 cfg1.N
      = message (V c main_arg1) (V c main_v26) (V c main_v33) (V c main_arg10) (V c main_v17) :=
  (dat1 (F := Ideal) V c).arrAt_eq_of_cover 6 _ (fun t _ => flushed6_eq V c t) cover6

end Cert.KernelIdeal.Region1

end
-- ==== Proof.Region2.lean ====
/-
  The output layer's launch as one function of whole arrays.

  The launch has five grid points; point t works on rows 2000·t … 2000·t + 1999 of the aggregate, of the degree
  column and of the node features, with the weight matrix and the bias row whole, and writes those rows of the
  result. So the result array is `Spec.finish` of the arrays the launch finds, whatever they are.
-/
import proofs.«160713_j32031866093817_2_alg».proof.Proof.Gen.KernelIdeal.Frame
import proofs.«160713_j32031866093817_2_alg».proof.Proof.Spec
import proofs.«160713_j32031866093817_2_alg».proof.Proof.KBlock
import Idealize.ShloMosaic.Lib.Pipeline.Value

noncomputable section

namespace Cert.KernelIdeal.Region2

open Cert.KernelIdeal Cert.KernelIdeal.Gen
open Idealize.ShloMosaic Idealize.ShloMosaic.TcCoe Idealize.ShloMosaic.ValueIdx Idealize.SL.Sem

/-- One block's payload at the entry (p, q): x4(p,q) + ((Σ_k x0(p,k)·w(k,q))·d(p,0) + b(0,q)). -/
theorem pay_apply (x0 : Vec Ideal S2000x256 .f32) (w : Vec Ideal S256x256 .f32) (d : Vec Ideal S2000x1 .f32)
    (b : Vec Ideal S1x256 .f32) (x4 : Vec Ideal S2000x256 .f32) (p : Fin 2000) (q : Fin 256) :
    k2_pay1 x0 w d b x4 (ix2 p q)
      = x4 (ix2 p q) + ((∑ k : Fin 256, x0 (ix2 p k) * w (ix2 k q)) * d (ix2 p 0) + b (ix2 0 q)) := by
  have e1 := Block.matmul_apply (truncf (F := Ideal) .bf16 (shapeCast S2000x256 x0 Facts₀.shapeCasts_S2000x256_S2000x256) Facts₀.bitsLt_bf16_f32)
    (truncf (F := Ideal) .bf16 w Facts₀.bitsLt_bf16_f32) p q
  have e2 : (∑ k : Fin 256, (truncf (F := Ideal) .bf16 (shapeCast S2000x256 x0 Facts₀.shapeCasts_S2000x256_S2000x256) Facts₀.bitsLt_bf16_f32) (ix2 p k)
        * (truncf (F := Ideal) .bf16 w Facts₀.bitsLt_bf16_f32) (ix2 k q)) = ∑ k : Fin 256, x0 (ix2 p k) * w (ix2 k q) := by
    rw [shapeCast_self]; rfl
  exact congrArg (x4 (ix2 p q) + ·)
    (congrArg₂ (· + ·) (congrArg₂ (· * ·) (e1.trans e2) (Block.degCols_apply d p q)) (Block.biasRows_apply b p q))

/-- The payload of a block whose loads are rows `base + p` of whole arrays is the output layer at those rows. -/
theorem point_eq (S : Spec.Mat 10000 256) (W : Spec.Mat 256 256) (B : Spec.Mat 1 256) (D : Spec.Mat 10000 1) (X : Spec.Mat 10000 256)
    (x0 : Vec Ideal S2000x256 .f32) (w : Vec Ideal S256x256 .f32) (d : Vec Ideal S2000x1 .f32)
    (b : Vec Ideal S1x256 .f32) (x4 : Vec Ideal S2000x256 .f32)
    (i : S10000x256.Idx) (j : S2000x256.Idx)
    (h0 : ∀ k : Fin 256, x0 (ix2 (j 0) k) = S (ix2 (i 0) k)) (hw : ∀ k : Fin 256, w (ix2 k (j 1)) = W (ix2 k (i 1)))
    (hd : d (ix2 (j 0) 0) = D (ix2 (i 0) 0)) (hb : b (ix2 0 (j 1)) = B (ix2 0 (i 1))) (h4 : x4 j = X i) :
    k2_pay1 x0 w d b x4 j = Spec.finish S W B D X i := by
  obtain ⟨p, q, rfl⟩ : ∃ (p : Fin 2000) (q : Fin 256), j = ix2 p q := ⟨j 0, j 1, eq_ix2 j⟩
  have h0' : ∀ k : Fin 256, x0 (ix2 p k) = S (ix2 (i 0) k) := h0
  have hw' : ∀ k : Fin 256, w (ix2 k q) = W (ix2 k (i 1)) := hw
  have hd' : d (ix2 p 0) = D (ix2 (i 0) 0) := hd
  have hb' : b (ix2 0 q) = B (ix2 0 (i 1)) := hb
  rw [pay_apply, h4, hd', hb']
  unfold Spec.finish Spec.prodAt
  exact congrArg (X i + ·) (congrArg (· + B (ix2 0 (i 1))) (congrArg (· * D (ix2 (i 0) 0))
    (Finset.sum_congr rfl fun k _ => by rw [h0' k, hw' k])))

/-! ## From blocks to the array -/

variable (V : (c : Dev nD) → (b : Ref sig .tc) → Buf (Elt Ideal) ((c : Thread nD τ).loc b))

theorem hz : (![0, 0] : Fin 2 → Nat) = fun _ => 0 := funext fun a => by fin_cases a <;> rfl

/-- Point t's blocks: the row-blocked windows move together along the rows, the weights and the bias row stay whole,
    and there are five row blocks. -/
theorem idx_facts : ∀ t : Fin cfg2.N,
    win2_0.index t (0 : Fin 2) = win2_5.index t (0 : Fin 2) ∧ win2_0.index t (1 : Fin 2) = 0
    ∧ win2_1.index t (0 : Fin 2) = 0 ∧ win2_1.index t (1 : Fin 2) = 0
    ∧ win2_2.index t (0 : Fin 2) = 0 ∧ win2_2.index t (1 : Fin 2) = 0
    ∧ win2_3.index t (0 : Fin 2) = win2_5.index t (0 : Fin 2) ∧ win2_3.index t (1 : Fin 2) = 0
    ∧ win2_4.index t (0 : Fin 2) = win2_5.index t (0 : Fin 2) ∧ win2_4.index t (1 : Fin 2) = 0
    ∧ win2_5.index t (1 : Fin 2) = 0 ∧ win2_5.index t (0 : Fin 2) ≤ 4 :=
  (by decide +kernel : ∀ t : Fin grid2.N, _)

/-- Every row block is some point's. -/
theorem idx_onto : ∀ q0 : Fin 5, ∃ t : Fin cfg2.N, win2_5.index t = ![q0.val, 0] :=
  (by decide +kernel : ∀ q0 : Fin 5, ∃ t : Fin grid2.N, win2_5.index t = ![q0.val, 0])

/-- What point t writes back is block t of the output layer of the arrays the launch finds. -/
theorem flushed_eq (c : Dev nD) (t : Fin cfg2.N) :
    (dat2 (F := Ideal) V c).flushed 5 t = ((cfg2.win 5).blk t).view.read (Elt Ideal)
      (Spec.finish (V c main_v37) (V c main_arg4) (V c main_v18) (V c main_v14) (V c main_arg0)) := by
  show (cfg2.win 5).cut (grid2.coords t) ((dat2 V c).after 5 t) = _
  rw [after2_5]
  unfold out2_5
  rw [View.canon_unit_zero hz]
  simp only [View.ld_unit_zero (S := S2000x256) hz, View.ld_unit_zero (S := S256x256) hz,
    View.ld_unit_zero (S := S2000x1) hz, View.ld_unit_zero (S := S1x256) hz]
  obtain ⟨e00, e01, e10, e11, e20, e21, e30, e31, e40, e41, e51, e5⟩ := idx_facts t
  funext j
  show k2_pay1 (iblk2 V c 0 t) (iblk2 V c 1 t) (iblk2 V c 3 t) (iblk2 V c 2 t) (iblk2 V c 4 t) j
    = Spec.finish (V c main_v37) (V c main_arg4) (V c main_v18) (V c main_v14) (V c main_arg0) (((cfg2.win 5).blk t).view.emb j)
  refine point_eq _ _ _ _ _ _ _ _ _ _ (((cfg2.win 5).blk t).view.emb j) j ?_ ?_ ?_ ?_ ?_
  · intro k
    show V c main_v37 (((cfg2.win 0).blk t).view.emb (ix2 (j 0) k)) = V c main_v37 (ix2 ((((cfg2.win 5).blk t).view.emb j) 0) k)
    refine congrArg _ (funext fun a => Fin.ext ?_)
    match a with
    | ⟨0, _⟩ => show win2_0.index t (0 : Fin 2) * 2000 + 1 * (j 0).val = win2_5.index t (0 : Fin 2) * 2000 + 1 * (j 0).val; omega
    | ⟨1, _⟩ => show win2_0.index t (1 : Fin 2) * 256 + 1 * k.val = k.val; omega
  · intro k
    show V c main_arg4 (((cfg2.win 1).blk t).view.emb (ix2 k (j 1))) = V c main_arg4 (ix2 k ((((cfg2.win 5).blk t).view.emb j) 1))
    refine congrArg _ (funext fun a => Fin.ext ?_)
    match a with
    | ⟨0, _⟩ => show win2_1.index t (0 : Fin 2) * 256 + 1 * k.val = k.val; omega
    | ⟨1, _⟩ => show win2_1.index t (1 : Fin 2) * 256 + 1 * (j 1).val = win2_5.index t (1 : Fin 2) * 256 + 1 * (j 1).val; omega
  · show V c main_v14 (((cfg2.win 3).blk t).view.emb (ix2 (j 0) 0)) = V c main_v14 (ix2 ((((cfg2.win 5).blk t).view.emb j) 0) 0)
    refine congrArg _ (funext fun a => Fin.ext ?_)
    match a with
    | ⟨0, _⟩ => show win2_3.index t (0 : Fin 2) * 2000 + 1 * (j 0).val = win2_5.index t (0 : Fin 2) * 2000 + 1 * (j 0).val; omega
    | ⟨1, _⟩ => show win2_3.index t (1 : Fin 2) * 1 + 1 * 0 = 0; omega
  · show V c main_v18 (((cfg2.win 2).blk t).view.emb (ix2 0 (j 1))) = V c main_v18 (ix2 0 ((((cfg2.win 5).blk t).view.emb j) 1))
    refine congrArg _ (funext fun a => Fin.ext ?_)
    match a with
    | ⟨0, _⟩ => show win2_2.index t (0 : Fin 2) * 1 + 1 * 0 = 0; omega
    | ⟨1, _⟩ => show win2_2.index t (1 : Fin 2) * 256 + 1 * (j 1).val = win2_5.index t (1 : Fin 2) * 256 + 1 * (j 1).val; omega
  · show V c main_arg0 (((cfg2.win 4).blk t).view.emb j) = V c main_arg0 (((cfg2.win 5).blk t).view.emb j)
    refine congrArg _ (funext fun a => Fin.ext ?_)
    match a with
    | ⟨0, _⟩ => show win2_4.index t (0 : Fin 2) * 2000 + 1 * (j 0).val = win2_5.index t (0 : Fin 2) * 2000 + 1 * (j 0).val; omega
    | ⟨1, _⟩ => show win2_4.index t (1 : Fin 2) * 256 + 1 * (j 1).val = win2_5.index t (1 : Fin 2) * 256 + 1 * (j 1).val; omega

/-- An index of the array is in point t's block iff each coordinate is in the block's range on its axis. -/
theorem mem_blk (t : Fin cfg2.N) (i : S10000x256.Idx) :
    i ∈ ((cfg2.win 5).blk t).view.set ↔ ∀ a : Fin 2, win2_5.index t a * S2000x256.size a ≤ (i a).val ∧ (i a).val < win2_5.index t a * S2000x256.size a + S2000x256.size a := by
  show i ∈ ((View.whole main_v38).slice (win2_5.rect t)).set ↔ _
  rw [View.set_slice_whole, Rect.mem_set_unit]
  exact Iff.rfl

/-- Every row of the array is in some point's block: row r in block r / 2000. -/
theorem cover (i : S10000x256.Idx) : ∃ t : Fin cfg2.N, (cfg2.win 5).flush t = true ∧ i ∈ ((cfg2.win 5).blk t).view.set := by
  have hi0 : (i 0).val < 10000 := (i 0).isLt
  have hi1 : (i 1).val < 256 := (i 1).isLt
  obtain ⟨t, ht⟩ := idx_onto ⟨(i 0).val / 2000, by omega⟩
  have q0 : win2_5.index t (0 : Fin 2) = (i 0).val / 2000 := congrFun ht 0
  have q1 : win2_5.index t (1 : Fin 2) = 0 := congrFun ht 1
  refine ⟨t, flush2_5 t, ?_⟩
  rw [mem_blk]
  intro a
  match a with
  | ⟨0, _⟩ => show win2_5.index t (0 : Fin 2) * 2000 ≤ (i 0).val ∧ (i 0).val < win2_5.index t (0 : Fin 2) * 2000 + 2000; omega
  | ⟨1, _⟩ => show win2_5.index t (1 : Fin 2) * 256 ≤ (i 1).val ∧ (i 1).val < win2_5.index t (1 : Fin 2) * 256 + 256; omega

/-- The result array after the launch: the output layer of the arrays the launch finds. -/
theorem out_array (c : Dev nD) :
    (dat2 (F := Ideal) V c).arrAt 5 cfg2.N
      = Spec.finish (V c main_v37) (V c main_arg4) (V c main_v18) (V c main_v14) (V c main_arg0) :=
  (dat2 (F := Ideal) V c).arrAt_eq_of_cover 5 _ (fun t _ => flushed_eq V c t) cover

end Cert.KernelIdeal.Region2

end
-- ==== Proof.KernelFold.lean ====
/-
  The idealized kernel program's two results as pure terms of its arguments.

  The fold through the program is read backwards from each result: the last launch's result array is the output
  layer of what the launch finds; what it finds is the scatter-add of the second launch's messages, the weights,
  the bias row, the in-degree column and the node features; the second launch's arrays are the gate and the message
  of the gathered node tables; the node tables are the first launch's arrays. Every argument buffer is passed through
  the host operations and the launches unchanged.
-/
import proofs.«160713_j32031866093817_2_alg».proof.Proof.Gen.KernelIdeal.Frame
import proofs.«160713_j32031866093817_2_alg».proof.Proof.KTerm
import proofs.«160713_j32031866093817_2_alg».proof.Proof.KernelHost
import proofs.«160713_j32031866093817_2_alg».proof.Proof.Region0
import proofs.«160713_j32031866093817_2_alg».proof.Proof.Region0Dst
import proofs.«160713_j32031866093817_2_alg».proof.Proof.Region1
import proofs.«160713_j32031866093817_2_alg».proof.Proof.Region2

set_option maxRecDepth 16384

noncomputable section

namespace Cert.KernelIdeal.Fold

open Cert.KernelIdeal Cert.KernelIdeal.Gen
open Idealize.ShloMosaic Idealize.ShloMosaic.TcCoe Idealize.SL.Sem

variable (m : (ℓ : Loc nD τ sig) → Buf (Elt Ideal) ℓ) (ρ : Dev nD → PrngReg)

/-! ## After the first launch -/

/-- The node features are still as launched after the first launch (it only reads them). -/
theorem W6_arg0 (c : Dev nD) : W6 m ρ c (Proc.devRef .tc main_arg0) = (m ((c : Thread nD τ).loc main_arg0)) :=
  (W6_arr m ρ c 0).trans ((((dat0 (V5 m ρ) c).arrAt_in 0 rfl _).trans (A_eq0 (V5 m ρ) c 0)).trans (Host.W5_arg0 m ρ c))
theorem W6_arg1 (c : Dev nD) : W6 m ρ c (Proc.devRef .tc main_arg1) = (m ((c : Thread nD τ).loc main_arg1)) :=
  (W6_of_ne m ρ c main_arg1 (by decide)).trans (Host.W5_arg1 m ρ c)
theorem W6_arg2 (c : Dev nD) : W6 m ρ c (Proc.devRef .tc main_arg2) = (m ((c : Thread nD τ).loc main_arg2)) :=
  (W6_of_ne m ρ c main_arg2 (by decide)).trans (Host.W5_arg2 m ρ c)
theorem W6_arg3 (c : Dev nD) : W6 m ρ c (Proc.devRef .tc main_arg3) = (m ((c : Thread nD τ).loc main_arg3)) :=
  (W6_of_ne m ρ c main_arg3 (by decide)).trans (Host.W5_arg3 m ρ c)
theorem W6_arg4 (c : Dev nD) : W6 m ρ c (Proc.devRef .tc main_arg4) = (m ((c : Thread nD τ).loc main_arg4)) :=
  (W6_of_ne m ρ c main_arg4 (by decide)).trans (Host.W5_arg4 m ρ c)
theorem W6_arg10 (c : Dev nD) : W6 m ρ c (Proc.devRef .tc main_arg10) = (m ((c : Thread nD τ).loc main_arg10)) :=
  (W6_of_ne m ρ c main_arg10 (by decide)).trans (Host.W5_arg10 m ρ c)
theorem W6_v17 (c : Dev nD) : W6 m ρ c (Proc.devRef .tc main_v17) = Term.biasRow (m ((c : Thread nD τ).loc main_arg11)) :=
  (W6_of_ne m ρ c main_v17 (by decide)).trans (Host.W5_v17 m ρ c)
theorem W6_v18 (c : Dev nD) : W6 m ρ c (Proc.devRef .tc main_v18) = Term.biasRow (m ((c : Thread nD τ).loc main_arg5)) :=
  (W6_of_ne m ρ c main_v18 (by decide)).trans (Host.W5_v18 m ρ c)
theorem W6_v14 (c : Dev nD) : W6 m ρ c (Proc.devRef .tc main_v14) = Term.degCol (m ((c : Thread nD τ).loc main_arg3)) :=
  (W6_of_ne m ρ c main_v14 (by decide)).trans (Host.W5_v14 m ρ c)

/-- The source-side node table. -/
theorem W6_cat (c : Dev nD) : W6 m ρ c (Proc.devRef .tc main_v19_0)
    = Cert.Spec.nodeCat (m ((c : Thread nD τ).loc main_arg0)) (m ((c : Thread nD τ).loc main_arg6)) (Term.biasRow (m ((c : Thread nD τ).loc main_arg7))) (Term.degCol (m ((c : Thread nD τ).loc main_arg2))) := by
  have e0 : V5 m ρ c main_arg0 = (m ((c : Thread nD τ).loc main_arg0)) := Host.W5_arg0 m ρ c
  have e6 : V5 m ρ c main_arg6 = (m ((c : Thread nD τ).loc main_arg6)) := Host.W5_arg6 m ρ c
  have e15 : V5 m ρ c main_v15 = Term.biasRow (m ((c : Thread nD τ).loc main_arg7)) := Host.W5_v15 m ρ c
  have e10 : V5 m ρ c main_v10 = Term.degCol (m ((c : Thread nD τ).loc main_arg2)) := Host.W5_v10 m ρ c
  refine (W6_arr m ρ c 6).trans ((Region0.cat_array (V5 m ρ) c).trans ?_)
  rw [e0, e6, e15, e10]

/-- The destination-side node table. -/
theorem W6_dst (c : Dev nD) : W6 m ρ c (Proc.devRef .tc main_v19_1)
    = Cert.Spec.affine (m ((c : Thread nD τ).loc main_arg0)) (m ((c : Thread nD τ).loc main_arg8)) (Term.biasRow (m ((c : Thread nD τ).loc main_arg9))) := by
  have e0 : V5 m ρ c main_arg0 = (m ((c : Thread nD τ).loc main_arg0)) := Host.W5_arg0 m ρ c
  have e8 : V5 m ρ c main_arg8 = (m ((c : Thread nD τ).loc main_arg8)) := Host.W5_arg8 m ρ c
  have e16 : V5 m ρ c main_v16 = Term.biasRow (m ((c : Thread nD τ).loc main_arg9)) := Host.W5_v16 m ρ c
  refine (W6_arr m ρ c 7).trans ((Region0Dst.dst_array (V5 m ρ) c).trans ?_)
  rw [e0, e8, e16]

/-! ## What the second launch finds -/

theorem V7_arg1 (c : Dev nD) : V7 m ρ c main_arg1 = (m ((c : Thread nD τ).loc main_arg1)) := (Host.W7_main_arg1 m ρ c).trans (W6_arg1 m ρ c)
theorem V7_arg10 (c : Dev nD) : V7 m ρ c main_arg10 = (m ((c : Thread nD τ).loc main_arg10)) := (Host.W7_main_arg10 m ρ c).trans (W6_arg10 m ρ c)
theorem V7_v17 (c : Dev nD) : V7 m ρ c main_v17 = Term.biasRow (m ((c : Thread nD τ).loc main_arg11)) := (Host.W7_main_v17 m ρ c).trans (W6_v17 m ρ c)
theorem V7_v26 (c : Dev nD) : V7 m ρ c main_v26 = Term.catG (m ((c : Thread nD τ).loc main_arg0)) (m ((c : Thread nD τ).loc main_arg2)) (m ((c : Thread nD τ).loc main_arg6)) (m ((c : Thread nD τ).loc main_arg7)) := by
  refine (Host.W7_v26 m ρ c).trans ?_
  rw [W6_cat, W6_arg2]; rfl
theorem V7_v33 (c : Dev nD) : V7 m ρ c main_v33 = Term.dstG (m ((c : Thread nD τ).loc main_arg0)) (m ((c : Thread nD τ).loc main_arg3)) (m ((c : Thread nD τ).loc main_arg8)) (m ((c : Thread nD τ).loc main_arg9)) := by
  refine (Host.W7_v33 m ρ c).trans ?_
  rw [W6_dst, W6_arg3]; rfl

/-! ## After the second launch -/

/-- The gate's argument on every edge. -/
theorem W8_gate (c : Dev nD) : W8 m ρ c (Proc.devRef .tc main_v34_0)
    = Term.gateK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 5).trans ((Region1.gate_array (V7 m ρ) c).trans ?_)
  rw [V7_arg1, V7_v26, V7_v33, V7_arg10, V7_v17]; rfl

/-- The message on every edge. -/
theorem W8_msg (c : Dev nD) : W8 m ρ c (Proc.devRef .tc main_v34_1)
    = Term.msgK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W8_arr m ρ c 6).trans ((Region1.message_array (V7 m ρ) c).trans ?_)
  rw [V7_arg1, V7_v26, V7_v33, V7_arg10, V7_v17]; rfl

theorem W8_arg0 (c : Dev nD) : W8 m ρ c (Proc.devRef .tc main_arg0) = (m ((c : Thread nD τ).loc main_arg0)) :=
  (W8_of_ne m ρ c main_arg0 (by decide)).trans ((Host.W7_main_arg0 m ρ c).trans (W6_arg0 m ρ c))
theorem W8_arg3 (c : Dev nD) : W8 m ρ c (Proc.devRef .tc main_arg3) = (m ((c : Thread nD τ).loc main_arg3)) :=
  (W8_of_ne m ρ c main_arg3 (by decide)).trans ((Host.W7_main_arg3 m ρ c).trans (W6_arg3 m ρ c))
theorem W8_arg4 (c : Dev nD) : W8 m ρ c (Proc.devRef .tc main_arg4) = (m ((c : Thread nD τ).loc main_arg4)) :=
  (W8_of_ne m ρ c main_arg4 (by decide)).trans ((Host.W7_main_arg4 m ρ c).trans (W6_arg4 m ρ c))
theorem W8_v18 (c : Dev nD) : W8 m ρ c (Proc.devRef .tc main_v18) = Term.biasRow (m ((c : Thread nD τ).loc main_arg5)) :=
  (W8_of_ne m ρ c main_v18 (by decide)).trans ((Host.W7_main_v18 m ρ c).trans (W6_v18 m ρ c))
theorem W8_v14 (c : Dev nD) : W8 m ρ c (Proc.devRef .tc main_v14) = Term.degCol (m ((c : Thread nD τ).loc main_arg3)) :=
  (W8_of_ne m ρ c main_v14 (by decide)).trans ((Host.W7_main_v14 m ρ c).trans (W6_v14 m ρ c))

/-! ## What the third launch finds, and the two results -/

theorem V9_v37 (c : Dev nD) : V9 m ρ c main_v37
    = Term.aggK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (Host.W9_v37 m ρ c).trans ?_
  rw [W8_arg3, W8_msg]; rfl
theorem V9_arg4 (c : Dev nD) : V9 m ρ c main_arg4 = (m ((c : Thread nD τ).loc main_arg4)) := (Host.W9_main_arg4 m ρ c).trans (W8_arg4 m ρ c)
theorem V9_v18 (c : Dev nD) : V9 m ρ c main_v18 = Term.biasRow (m ((c : Thread nD τ).loc main_arg5)) := (Host.W9_main_v18 m ρ c).trans (W8_v18 m ρ c)
theorem V9_v14 (c : Dev nD) : V9 m ρ c main_v14 = Term.degCol (m ((c : Thread nD τ).loc main_arg3)) := (Host.W9_main_v14 m ρ c).trans (W8_v14 m ρ c)
theorem V9_arg0 (c : Dev nD) : V9 m ρ c main_arg0 = (m ((c : Thread nD τ).loc main_arg0)) := (Host.W9_main_arg0 m ρ c).trans (W8_arg0 m ρ c)

/-- The program's second result, the gate's argument, after the whole run. -/
theorem gate_result (c : Dev nD) : W10 m ρ c (Proc.devRef .tc main_v34_0)
    = Term.gateK (m ((c : Thread nD τ).loc main_arg0)) (m ((c : Thread nD τ).loc main_arg1)) (m ((c : Thread nD τ).loc main_arg2)) (m ((c : Thread nD τ).loc main_arg3)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) :=
  (W10_of_ne m ρ c main_v34_0 (by decide)).trans ((Host.W9_main_v34_0 m ρ c).trans (W8_gate m ρ c))

/-- The program's first result, the new node features, after the whole run. -/
theorem rst_result (c : Dev nD) : W10 m ρ c (Proc.devRef .tc main_v38)
    = Term.rstK (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) := by
  refine (W10_arr m ρ c 5).trans ((Region2.out_array (V9 m ρ) c).trans ?_)
  rw [V9_v37, V9_arg4, V9_v18, V9_v14, V9_arg0]; rfl

end Cert.KernelIdeal.Fold

end
-- ==== Proof.LibRowOps.lean ====
/-
  Rows of a matrix taken and accumulated by an index vector, read at an index.

  What `x[idx]` of a matrix `x : [N, C]` at an integer vector `idx : [E]` lowers to is a gather whose start indices
  are `idx` as a column `[E, 1]`: result row `e` is row `idx[e]` of `x`, the start read as a signed integer and clamped
  into `[0, N - 1]`.  What `segment_sum(u, idx, N)` of `u : [E, C]` lowers to is an accumulating scatter with the same
  column of indices: row `v` of the result is row `v` of the operand plus the sum of the rows `u[e]` over the `e` with
  `idx[e] = v`, the index read signed and NOT clamped (a row whose index is outside `[0, N)` lands nowhere).
-/
import Idealize.ShloMosaic.PureOps.Ideal
import Idealize.ShloMosaic.Lib.ValueIdx

noncomputable section

open scoped BigOperators

namespace Idealize.ShloMosaic.RowOps

open Idealize.ShloMosaic Idealize.ShloMosaic.ValueIdx

/-! ## The row gather -/

section Gather
variable {α : Type}

/-- The dimension numbers of a row gather: operand `[N, C]`, start indices `[E, 1]`, result `[E, C]`. -/
abbrev rowGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- A start index read signed and clamped into `[0, N - 1]`: the row a gather reads. -/
def clampRow (N : Nat) (hN : 0 < N) {w : Nat} (z : BitVec w) : Fin N := ⟨min z.toInt.toNat (N - 1), by omega⟩

/-- THE ROW GATHER READ AT `(e, c)`: the operand at row `idx[e]` (signed, clamped), column `c`. -/
theorem rowGather_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (c : Fin C) :
    Host.gather (rowGatherDims N E C wf) x idx (ix2 e c) = x (ix2 (clampRow N hN (idx (ix2 e (0 : Fin 1)))) c) := by
  unfold Host.gather
  congr 1
  funext a
  refine Fin.ext ?_
  match a with
  | ⟨0, _⟩ =>
    show (rowGatherDims N E C wf).start (ix2 e c) idx 0 + (rowGatherDims N E C wf).batchCoord (ix2 e c) 0
      + (rowGatherDims N E C wf).offCoord (ix2 e c) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowGatherDims N E C wf).startIndexMap from List.mem_singleton.mpr rfl)]
    have hsi : (rowGatherDims N E C wf).siIdx (ix2 e c) ⟨List.idxOf (0 : Fin 2) (rowGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    show (rowGatherDims N E C wf).start (ix2 e c) idx 1 + (rowGatherDims N E C wf).batchCoord (ix2 e c) 1
      + (rowGatherDims N E C wf).offCoord (ix2 e c) 1 = c.val
    rw [GatherDims.batchCoord_eq_zero _ _ _ List.not_mem_nil]
    unfold GatherDims.start
    rw [dif_neg (show (1 : Fin 2) ∉ ([0] : List (Fin 2)) by decide)]
    unfold GatherDims.offCoord
    have hk : (1 : Fin 2) ∈ (rowGatherDims N E C wf).sKept :=
      show (1 : Fin 2) ∈ (List.finRange 2).filter (· ∉ (([0] : List (Fin 2)) ++ [])) from by decide
    rw [dif_pos hk]
    simp only [Nat.zero_add]
    rfl

end Gather

/-! ## The accumulating row scatter -/

section Scatter

/-- The dimension numbers of a row scatter: operand `[N, C]`, scatter indices `[E, 1]`, updates `[E, C]`. -/
abbrev rowScatterDims (N E C : Nat)
    (wf : ScatterDims.WF ⟨2, ![N, C]⟩ ⟨2, ![E, 1]⟩ ⟨2, ![E, C]⟩ [1] [0] [0] 1) :
    ScatterDims ⟨2, ![N, C]⟩ ⟨2, ![E, 1]⟩ ⟨2, ![E, C]⟩ where
  updateWindowDims := [1]
  insertedWindowDims := [0]
  scatterDimsToOperandDims := [0]
  indexVectorDim := 1
  wf := wf

variable {N E C w : Nat} (wf : ScatterDims.WF ⟨2, ![N, C]⟩ ⟨2, ![E, 1]⟩ ⟨2, ![E, C]⟩ [1] [0] [0] 1)
  (idx : IVec ⟨2, ![E, 1]⟩ w)

/-- On the row axis an update's window starts at its index, read signed … -/
theorem rowScatter_start0 (j : (⟨2, ![E, C]⟩ : Shape).Idx) :
    (rowScatterDims N E C wf).start j idx 0 = (idx (ix2 (j 0) (0 : Fin 1))).toInt := by
  unfold ScatterDims.start
  rw [dif_pos (show (0 : Fin 2) ∈ (rowScatterDims N E C wf).scatterDimsToOperandDims from List.mem_singleton.mpr rfl)]
  have hsi : (rowScatterDims N E C wf).siIdx j ⟨List.idxOf (0 : Fin 2) (rowScatterDims N E C wf).scatterDimsToOperandDims,
      List.idxOf_lt_length_iff.2 (List.mem_singleton.mpr rfl)⟩ = ix2 (j 0) (0 : Fin 1) := by
    funext b; refine Fin.ext ?_
    match b with
    | ⟨0, _⟩ => rfl
    | ⟨1, _⟩ => rfl
  rw [hsi]
  rfl
/-- … and has no extent (the row axis is inserted); -/
theorem rowScatter_window0 (j : (⟨2, ![E, C]⟩ : Shape).Idx) : (rowScatterDims N E C wf).window j 0 = 0 := by
  unfold ScatterDims.window
  have hk : (0 : Fin 2) ∉ (rowScatterDims N E C wf).sKept :=
    show (0 : Fin 2) ∉ (List.finRange 2).filter (· ∉ ([0] : List (Fin 2))) from by decide
  rw [dif_neg hk]
/-- on the column axis it starts at `0` … -/
theorem rowScatter_start1 (j : (⟨2, ![E, C]⟩ : Shape).Idx) : (rowScatterDims N E C wf).start j idx 1 = 0 := by
  unfold ScatterDims.start
  rw [dif_neg (show (1 : Fin 2) ∉ ([0] : List (Fin 2)) by decide)]
/-- … and the window coordinate is the update's column. -/
theorem rowScatter_window1 (j : (⟨2, ![E, C]⟩ : Shape).Idx) : (rowScatterDims N E C wf).window j 1 = (j 1).val := by
  unfold ScatterDims.window
  have hk : (1 : Fin 2) ∈ (rowScatterDims N E C wf).sKept :=
    show (1 : Fin 2) ∈ (List.finRange 2).filter (· ∉ ([0] : List (Fin 2))) from by decide
  rw [dif_pos hk]
  rfl

/-- Update `(e, b)` lands at `(v, c)` exactly when `idx[e] = v` as integers and `b = c`. -/
theorem rowScatter_lands_iff (e : Fin E) (b : Fin C) (v : Fin N) (c : Fin C) :
    (rowScatterDims N E C wf).resultIdx? (ix2 e b) idx = some (ix2 v c)
      ↔ (idx (ix2 e (0 : Fin 1))).toInt = (v.val : ℤ) ∧ b = c := by
  unfold ScatterDims.resultIdx?
  have s0 := rowScatter_start0 wf idx (ix2 e b)
  have w0 := rowScatter_window0 wf (ix2 e b)
  have s1 := rowScatter_start1 wf idx (ix2 e b)
  have w1 := rowScatter_window1 wf (ix2 e b)
  have e0 : (ix2 e b : (⟨2, ![E, C]⟩ : Shape).Idx) 0 = e := rfl
  have e1 : ((ix2 e b : (⟨2, ![E, C]⟩ : Shape).Idx) 1).val = b.val := rfl
  rw [e0] at s0
  rw [e1] at w1
  split
  · rename_i h
    rw [Option.some.injEq]
    constructor
    · intro hf
      have h0 := congrArg (fun f : (⟨2, ![N, C]⟩ : Shape).Idx => (f 0).val) hf
      have h1 := congrArg (fun f : (⟨2, ![N, C]⟩ : Shape).Idx => (f 1).val) hf
      simp only at h0 h1
      have hv : ((ix2 v c : (⟨2, ![N, C]⟩ : Shape).Idx) 0).val = v.val := rfl
      have hc : ((ix2 v c : (⟨2, ![N, C]⟩ : Shape).Idx) 1).val = c.val := rfl
      rw [hv] at h0; rw [hc] at h1
      have hh0 := (h 0).1
      rw [s0, w0] at h0 hh0
      rw [s1, w1] at h1
      refine ⟨by omega, Fin.ext (by omega)⟩
    · rintro ⟨hz, rfl⟩
      funext a
      refine Fin.ext ?_
      match a with
      | ⟨0, _⟩ =>
        show ((rowScatterDims N E C wf).start (ix2 e b) idx 0 + ((rowScatterDims N E C wf).window (ix2 e b) 0 : ℕ)).toNat = v.val
        rw [s0, w0, hz]; simp
      | ⟨1, _⟩ =>
        show ((rowScatterDims N E C wf).start (ix2 e b) idx 1 + ((rowScatterDims N E C wf).window (ix2 e b) 1 : ℕ)).toNat = b.val
        rw [s1, w1]; simp
  · rename_i h
    constructor
    · intro hf; exact absurd hf (by simp)
    · rintro ⟨hz, rfl⟩
      exfalso; apply h
      intro a
      match a with
      | ⟨0, _⟩ =>
        show 0 ≤ (rowScatterDims N E C wf).start (ix2 e b) idx 0 + ((rowScatterDims N E C wf).window (ix2 e b) 0 : ℕ)
          ∧ (rowScatterDims N E C wf).start (ix2 e b) idx 0 + ((rowScatterDims N E C wf).window (ix2 e b) 0 : ℕ) < (N : ℤ)
        rw [s0, w0, hz]; have := v.isLt; constructor <;> omega
      | ⟨1, _⟩ =>
        show 0 ≤ (rowScatterDims N E C wf).start (ix2 e b) idx 1 + ((rowScatterDims N E C wf).window (ix2 e b) 1 : ℕ)
          ∧ (rowScatterDims N E C wf).start (ix2 e b) idx 1 + ((rowScatterDims N E C wf).window (ix2 e b) 1 : ℕ) < (C : ℤ)
        rw [s1, w1]; have := b.isLt; constructor <;> omega

/-- THE ACCUMULATING ROW SCATTER READ AT `(v, c)`: the operand there plus the sum, over the update rows `e` whose
    index is `v`, of the update at `(e, c)`. -/
theorem rowScatterAdd_apply (x : (⟨2, ![N, C]⟩ : Shape).Idx → EReal) (upd : (⟨2, ![E, C]⟩ : Shape).Idx → EReal)
    (v : Fin N) (c : Fin C) :
    Ideal.hostScatterAdd (rowScatterDims N E C wf) x idx upd (ix2 v c)
      = x (ix2 v c) + ∑ e ∈ Finset.univ.filter (fun e : Fin E => (idx (ix2 e (0 : Fin 1))).toInt = (v.val : ℤ)),
          upd (ix2 e c) := by
  unfold Ideal.hostScatterAdd
  congr 1
  rw [Finset.sum_filter, sum_idx2, Finset.sum_filter]
  refine Finset.sum_congr rfl fun e _ => ?_
  simp only [rowScatter_lands_iff wf idx]
  by_cases hz : (idx (ix2 e (0 : Fin 1))).toInt = (v.val : ℤ)
  · simp only [hz, true_and, if_true]
    rw [Finset.sum_ite_eq' Finset.univ c]
    simp
  · simp [hz]

end Scatter

end Idealize.ShloMosaic.RowOps

end
-- ==== Proof.Gather.lean ====
/-
  The row gathers of the two programs read at an index.

  Each gather takes whole rows of a node table along the edges: result row `e` is the operand's row `row I e`, where
  `row I e` is edge `e`'s start index in the index column `I`, read as a signed integer and clamped into 0..9999.
  The row depends on the index column only, so a 256-column and a 512-column table gathered with one column read
  the same rows.
-/
import proofs.«160713_j32031866093817_2_alg».proof.Proof.Gen.KernelIdeal
import proofs.«160713_j32031866093817_2_alg».proof.Proof.Gen.ReferenceIdeal
import proofs.«160713_j32031866093817_2_alg».proof.Proof.LibRowOps

noncomputable section

namespace Cert.Gather

open Idealize.ShloMosaic Idealize.ShloMosaic.ValueIdx Idealize.ShloMosaic.RowOps

variable {α : Type}

/-- The row edge `e` reads: its start index, read signed and clamped into 0..9999. -/
def row (I : IVec ⟨2, ![320000, 1]⟩ 32) (e : Fin 320000) : Fin 10000 :=
  clampRow 10000 (by decide) (I (ix2 e (0 : Fin 1)))

/-- The kernel program's gather of a 256-column table, at (e, c). -/
theorem gatherK256_apply (A : (⟨2, ![10000, 256]⟩ : Shape).Idx → α) (I : IVec ⟨2, ![320000, 1]⟩ 32)
    (e : Fin 320000) (c : Fin 256) :
    Host.gather Cert.KernelIdeal.gather_S10000x256_S320000x1_S320000x256_1_0_n_n_0_1_1256 A I (ix2 e c)
      = A (ix2 (row I e) c) :=
  rowGather_apply (by decide) Cert.KernelIdeal.Facts₀.gather_S10000x256_S320000x1_S320000x256_1_0_n_n_0_1_1256_wf A I e c

/-- The kernel program's gather of a 512-column table, at (e, c). -/
theorem gatherK512_apply (B : (⟨2, ![10000, 512]⟩ : Shape).Idx → α) (I : IVec ⟨2, ![320000, 1]⟩ 32)
    (e : Fin 320000) (c : Fin 512) :
    Host.gather Cert.KernelIdeal.gather_S10000x512_S320000x1_S320000x512_1_0_n_n_0_1_1512 B I (ix2 e c)
      = B (ix2 (row I e) c) :=
  rowGather_apply (by decide) Cert.KernelIdeal.Facts₀.gather_S10000x512_S320000x1_S320000x512_1_0_n_n_0_1_1512_wf B I e c

/-- The reference program's gather of a 256-column table, at (e, c). -/
theorem gatherR256_apply (A : (⟨2, ![10000, 256]⟩ : Shape).Idx → α) (I : IVec ⟨2, ![320000, 1]⟩ 32)
    (e : Fin 320000) (c : Fin 256) :
    Host.gather Cert.ReferenceIdeal.gather_S10000x256_S320000x1_S320000x256_1_0_n_n_0_1_1256 A I (ix2 e c)
      = A (ix2 (row I e) c) :=
  rowGather_apply (by decide) Cert.ReferenceIdeal.Facts₀.gather_S10000x256_S320000x1_S320000x256_1_0_n_n_0_1_1256_wf A I e c

end Cert.Gather

end
-- ==== Proof.Bridge.lean ====
/-
  The kernel program's two results equal the reference program's two results, for all argument arrays, over the
  extended reals.

  Both programs compute, index by index, the same expressions in the same association:
  * a projected node table  x·W + b  (a product of matrices plus a bias row), read along the edges at the row
    the edge's endpoint names (negative endpoints counted from the end, then clamped into 0..9999);
  * the gate's argument  (src(e,c) + dst(e,c)) + (ef·W + b)(e,c)  — the second result;
  * the message  x(row(e), c) · deg(row(e))^(−1/2) · logistic(gate(e,c)),  where  logistic t  is by definition
    1 / (1 + exp(−t));
  * the messages summed into their destination nodes (the same accumulating scatter applied to equal updates on both
    sides), projected, scaled by the in-degree factor, biased and added to the input — the first result.
  No finiteness is used anywhere: every step is an equality of extended reals.
-/
import proofs.«160713_j32031866093817_2_alg».proof.Proof.KTerm
import proofs.«160713_j32031866093817_2_alg».proof.Proof.Gen.ReferenceIdeal.Read
import proofs.«160713_j32031866093817_2_alg».proof.Proof.Gather
import Idealize.ShloMosaic.Lib.ValueLayout
import Idealize.ShloMosaic.PureOps.IdealRules

noncomputable section

namespace Cert.Bridge

open Idealize.ShloMosaic Idealize.ShloMosaic.ValueIdx Cert.KernelIdeal Cert.KernelIdeal.Term
open Cert.ReferenceIdeal.Read Cert.Spec Cert.Gather

/-! ## The kernel side's layout steps -/

/-- A bias vector as a row, read at (0, c). -/
theorem biasRow_apply (b : Arr S256 .f32) (c : Fin 256) : biasRow b (ix2 (0 : Fin 1) c) = b (ix1 c) :=
  shapeCast_a_1a_apply b _ 0 c

/-- The degree column read at (r, 0) is the degree vector at r. -/
theorem degCol_apply (ends : Arr S320000 .i32) (r : Fin 10000) :
    degCol ends (ix2 r (0 : Fin 1)) = degNorm ends (ix1 r) :=
  shapeCast_apply _ _ _ _ (by
    rw [Shape.rowMajor_val_two, Shape.rowMajor_val_one]
    show r.val = r.val * 1 + 0
    omega)

section Spec
variable {R : Nat}

/-- The left half of the source-side table is the projected features. -/
theorem nodeCat_lo (x : Mat R 256) (w : Mat 256 256) (b : Mat 1 256) (d : Mat R 1) (r : Fin R) (c : Fin 256) :
    nodeCat x w b d (ix2 r (lo c)) = affineAt x w b r c := by
  unfold nodeCat
  rw [dif_pos (show ((ix2 r (lo c) : (⟨2, ![R, 512]⟩ : Shape).Idx) 1).val < 256 from c.isLt)]
  rfl

/-- The right half of the source-side table is the features scaled by the degree column. -/
theorem nodeCat_hi (x : Mat R 256) (w : Mat 256 256) (b : Mat 1 256) (d : Mat R 1) (r : Fin R) (c : Fin 256) :
    nodeCat x w b d (ix2 r (hi c)) = x (ix2 r c) * d (ix2 r 0) := by
  unfold nodeCat
  rw [dif_neg (show ¬ ((ix2 r (hi c) : (⟨2, ![R, 512]⟩ : Shape).Idx) 1).val < 256 from by
    show ¬ (c.val + 256 < 256); omega)]
  refine congrArg (fun k : Fin 256 => x (ix2 r k) * d (ix2 r 0)) (Fin.ext ?_)
  show c.val + 256 - 256 = c.val
  omega

end Spec

/-! ## The reference's projected tables read at an index -/

/-- A product of a 10000-row matrix with a 256×256 matrix, at (r, c). -/
theorem ref_prod (x : Arr S10000x256 .f32) (w : Arr S256x256 .f32) (r : Fin 10000) (c : Fin 256) :
    val_main_v1 (F := Ideal) x w (ix2 r c) = prodAt x w r c := by
  refine (val_main_v1_apply x w _).trans ?_
  unfold prodAt
  refine Finset.sum_congr rfl fun k _ => ?_
  have hl : lidx_main_v1 (ix2 r c) k = ix2 r k :=
    funext fun a => Fin.ext (by match a with | ⟨0, _⟩ => rfl | ⟨1, _⟩ => rfl)
  have hr : ridx_main_v1 (ix2 r c) k = ix2 k c :=
    funext fun a => Fin.ext (by match a with | ⟨0, _⟩ => rfl | ⟨1, _⟩ => rfl)
  exact congrArg₂ (· * ·) (congrArg x hl) (congrArg w hr)

/-- A bias vector broadcast over 10000 rows, at (r, c). -/
theorem ref_bias (b : Arr S256 .f32) (r : Fin 10000) (c : Fin 256) :
    val_main_v3 (F := Ideal) b (ix2 r c) = b (ix1 c) := by
  rw [val_main_v3_apply, val_main_v2_apply]
  exact congrArg b (funext fun a => Fin.ext (by match a with | ⟨0, _⟩ => rfl))

/-- A projected node table, at (r, c). -/
theorem ref_affine (x : Arr S10000x256 .f32) (w : Arr S256x256 .f32) (b : Arr S256 .f32) (r : Fin 10000) (c : Fin 256) :
    val_main_v4 (F := Ideal) x w b (ix2 r c) = affineAt x w (biasRow b) r c := by
  unfold affineAt
  rw [biasRow_apply, ← ref_prod, ← ref_bias b r c]
  rfl

/-- The product of the edge features with a 256×256 matrix, at (e, c). -/
theorem ref_prodE (x : Arr S320000x256 .f32) (w : Arr S256x256 .f32) (e : Fin 320000) (c : Fin 256) :
    val_main_v24 (F := Ideal) x w (ix2 e c) = prodAt x w e c := by
  refine (val_main_v24_apply x w _).trans ?_
  unfold prodAt
  refine Finset.sum_congr rfl fun k _ => ?_
  have hl : lidx_main_v24 (ix2 e c) k = ix2 e k :=
    funext fun a => Fin.ext (by match a with | ⟨0, _⟩ => rfl | ⟨1, _⟩ => rfl)
  have hr : ridx_main_v24 (ix2 e c) k = ix2 k c :=
    funext fun a => Fin.ext (by match a with | ⟨0, _⟩ => rfl | ⟨1, _⟩ => rfl)
  exact congrArg₂ (· * ·) (congrArg x hl) (congrArg w hr)

/-- A bias vector broadcast over the edges, at (e, c). -/
theorem ref_biasE (b : Arr S256 .f32) (e : Fin 320000) (c : Fin 256) :
    val_main_v26 (F := Ideal) b (ix2 e c) = b (ix1 c) := by
  rw [val_main_v26_apply, val_main_v25_apply]
  exact congrArg b (funext fun a => Fin.ext (by match a with | ⟨0, _⟩ => rfl))

/-- The projected edge features, at (e, c). -/
theorem ref_affineE (x : Arr S320000x256 .f32) (w : Arr S256x256 .f32) (b : Arr S256 .f32) (e : Fin 320000) (c : Fin 256) :
    val_main_v27 (F := Ideal) x w b (ix2 e c) = affineAt x w (biasRow b) e c := by
  unfold affineAt
  rw [biasRow_apply, ← ref_prodE, ← ref_biasE b e c]
  rfl

/-! ## The gate's argument -/

section Gate
variable (a0 : Arr S10000x256 .f32) (a1 : Arr S320000x256 .f32) (a2 a3 : Arr S320000 .i32)
  (a6 : Arr S256x256 .f32) (a7 : Arr S256 .f32) (a8 : Arr S256x256 .f32) (a9 : Arr S256 .f32)
  (a10 : Arr S256x256 .f32) (a11 : Arr S256 .f32)

/-- Both programs read the node tables at the same rows: the row numbers are the same function of the endpoints. -/
theorem rows_eq (ends : Arr S320000 .i32) : rowsOf ends = val_main_v14 (F := Ideal) ends := rfl

/-- The gathered source-side projection, on both sides. -/
theorem src_eq (e : Fin 320000) (c : Fin 256) :
    catG a0 a2 a6 a7 (ix2 e (lo c)) = val_main_v15 (F := Ideal) a0 a2 a6 a7 (ix2 e c) := by
  unfold catG val_main_v15
  rw [gatherK512_apply, gatherR256_apply, nodeCat_lo, ref_affine, rows_eq]

/-- The gathered destination-side projection, on both sides. -/
theorem dst_eq (e : Fin 320000) (c : Fin 256) :
    dstG a0 a3 a8 a9 (ix2 e c) = val_main_v22 (F := Ideal) a0 a3 a8 a9 (ix2 e c) := by
  unfold dstG val_main_v22
  rw [gatherK256_apply, gatherR256_apply]
  show affineAt a0 a8 (biasRow a9) _ _ = val_main_v4 (F := Ideal) a0 a8 a9 _
  rw [ref_affine]
  rfl

/-- The gate's argument at (e, c), on both sides. -/
theorem gate_apply (e : Fin 320000) (c : Fin 256) :
    gateAt a1 (catG a0 a2 a6 a7) (dstG a0 a3 a8 a9) a10 (biasRow a11) e c
      = val_main_v28 (F := Ideal) a0 a1 a2 a3 a6 a7 a8 a9 a10 a11 (ix2 e c) := by
  unfold gateAt
  rw [src_eq, dst_eq, ← ref_affineE]
  rfl

/-- THE SECOND RESULT: the gate's argument on every edge. -/
theorem gate_eq :
    gateK a0 a1 a2 a3 a6 a7 a8 a9 a10 a11 = val_main_v28 (F := Ideal) a0 a1 a2 a3 a6 a7 a8 a9 a10 a11 := by
  funext i
  obtain ⟨e, c, rfl⟩ : ∃ (e : Fin 320000) (c : Fin 256), i = ix2 e c := ⟨i 0, i 1, eq_ix2 i⟩
  exact gate_apply a0 a1 a2 a3 a6 a7 a8 a9 a10 a11 e c

end Gate

/-! ## The degree factors -/

/-- Both programs compute the degree vector by the same chain of host operations. -/
theorem deg_eq_src (ends : Arr S320000 .i32) : degNorm ends = val_main_v40 (F := Ideal) ends := rfl
theorem deg_eq_dst (ends : Arr S320000 .i32) : degNorm ends = val_main_v61 (F := Ideal) ends := rfl

/-- The reference's out-degree factor broadcast over the columns, at (r, c). -/
theorem ref_degSrc (ends : Arr S320000 .i32) (r : Fin 10000) (c : Fin 256) :
    val_main_v42 (F := Ideal) ends (ix2 r c) = degNorm ends (ix1 r) := by
  rw [val_main_v42_apply, val_main_v41_apply, deg_eq_src]
  exact congrArg (val_main_v40 (F := Ideal) ends) (funext fun a => Fin.ext (by match a with | ⟨0, _⟩ => rfl))

/-- The reference's in-degree factor broadcast over the columns, at (r, c). -/
theorem ref_degDst (ends : Arr S320000 .i32) (r : Fin 10000) (c : Fin 256) :
    val_main_v63 (F := Ideal) ends (ix2 r c) = degNorm ends (ix1 r) := by
  rw [val_main_v63_apply, val_main_v62_apply, deg_eq_dst]
  exact congrArg (val_main_v61 (F := Ideal) ends) (funext fun a => Fin.ext (by match a with | ⟨0, _⟩ => rfl))

/-! ## The message and the output layer -/

/-- The word 0x3F800000 is the number one. -/
theorem one_word : Ideal.ofBits .f32 0x3F800000#32 = 1 := IdealRules.sign_bit.ideal_onePat .f32

section Rst
variable (a0 : Arr S10000x256 .f32) (a1 : Arr S320000x256 .f32) (a2 a3 : Arr S320000 .i32)
  (a4 : Arr S256x256 .f32) (a5 : Arr S256 .f32)
  (a6 : Arr S256x256 .f32) (a7 : Arr S256 .f32) (a8 : Arr S256x256 .f32) (a9 : Arr S256 .f32)
  (a10 : Arr S256x256 .f32) (a11 : Arr S256 .f32)

/-- The reference's logistic, spelt 1 / (1 + exp(−t)) over broadcast ones, is the logistic of its gate. -/
theorem ref_logistic (i : S320000x256.Idx) :
    val_main_v34 (F := Ideal) a0 a1 a2 a3 a6 a7 a8 a9 a10 a11 i
      = Ideal.logistic (val_main_v28 (F := Ideal) a0 a1 a2 a3 a6 a7 a8 a9 a10 a11 i) := by
  rw [val_main_v34_apply, val_main_v32_apply, val_main_v30_apply, val_main_v29_apply, val_main_v33_apply,
    val_main_v31_apply, val_main_cst_4_apply, val_main_cst_3_apply]
  show FloatOps.hostDivf (Ideal.ofBits .f32 0x3F800000#32)
      (FloatOps.addf (Ideal.ofBits .f32 0x3F800000#32) (FloatOps.hostUnary .exp (FloatOps.hostNegf _))) = _
  rw [one_word]
  rfl

/-- The gathered scaled features, on both sides. -/
theorem scaled_eq (e : Fin 320000) (c : Fin 256) :
    catG a0 a2 a6 a7 (ix2 e (hi c)) = val_main_v50 (F := Ideal) a0 a2 (ix2 e c) := by
  unfold catG val_main_v50
  rw [gatherK512_apply, gatherR256_apply, nodeCat_hi, degCol_apply, val_main_v43_apply, ref_degSrc, rows_eq]
  rfl

/-- The message on every edge, on both sides. -/
theorem msg_eq :
    msgK a0 a1 a2 a3 a6 a7 a8 a9 a10 a11 = val_main_v51 (F := Ideal) a0 a1 a2 a3 a6 a7 a8 a9 a10 a11 := by
  funext i
  obtain ⟨e, c, rfl⟩ : ∃ (e : Fin 320000) (c : Fin 256), i = ix2 e c := ⟨i 0, i 1, eq_ix2 i⟩
  rw [val_main_v51_apply, ref_logistic, ← gate_apply, ← scaled_eq a0 a2 a6 a7 e c]
  rfl

/-- The messages summed into their destination nodes, on both sides: the same accumulating scatter of equal updates. -/
theorem agg_eq :
    aggK a0 a1 a2 a3 a6 a7 a8 a9 a10 a11 = val_main_v54 (F := Ideal) a0 a1 a2 a3 a6 a7 a8 a9 a10 a11 := by
  unfold aggK val_main_v54
  rw [msg_eq]
  rfl

/-- THE FIRST RESULT: the output layer. -/
theorem rst_eq :
    rstK a0 a1 a2 a3 a4 a5 a6 a7 a8 a9 a10 a11
      = val_main_v68 (F := Ideal) a0 a1 a2 a3 a4 a5 a6 a7 a8 a9 a10 a11 := by
  funext i
  obtain ⟨r, c, rfl⟩ : ∃ (r : Fin 10000) (c : Fin 256), i = ix2 r c := ⟨i 0, i 1, eq_ix2 i⟩
  rw [val_main_v68_apply, val_main_v67_apply, val_main_v64_apply, ref_degDst]
  show a0 (ix2 r c) + (prodAt (aggK a0 a1 a2 a3 a6 a7 a8 a9 a10 a11) a4 r c * degCol a3 (ix2 r 0)
      + biasRow a5 (ix2 0 c)) = _
  rw [agg_eq, degCol_apply, biasRow_apply, ← ref_prod, ← ref_bias a5 r c]
  rfl

end Rst

end Cert.Bridge

end
-- ==== Proof.lean ====
/-
  A gated graph convolution with a residual connection: the kernel program against its reference.

  Both programs compute, for node features x [10000, 256], edge features ef [320000, 256] and edge endpoints src, dst:
    e_src = x·W_src + b_src,  e_dst = x·W_dst + b_dst                       (per node)
    m(e)  = (e_src[src e] + e_dst[dst e]) + (ef(e)·W_edge + b_edge)          (the second result)
    msg(e) = (x[src e] · outdeg(src e)^(−1/2)) · logistic (m e)
    agg(v) = Σ over the edges e with dst e = v of msg(e)
    out(v) = x(v) + ((agg(v)·W) · indeg(v)^(−1/2) + bias)                    (the first result)
  where the degrees count the edges at a node and are clipped below at one. The kernel program does the dense
  layers in three grid launches over blocks of 2000 rows and keeps the gathers, the degree histograms and the
  aggregation as host operations; the reference is host operations only. At the extended reals the two are the same
  function of the arguments, entry by entry: every sum is over the same terms in the same association, the
  logistic function is by definition 1/(1 + e^(−x)), and the scatter-adds and the degree chains are the same
  operations applied to equal operands. No finiteness of the inputs is used.

  The kernel program's run ends with its results at the last fold of its segments (`Run.run_named`), which reads
  back to pure terms of the arguments (`Fold.rst_result`, `Fold.gate_result`); the reference's run ends at its
  composed stages; `Bridge.rst_eq` and `Bridge.gate_eq` say the two terms are one function.
-/
import proofs.«160713_j32031866093817_2_alg».proof.Defs
import proofs.«160713_j32031866093817_2_alg».proof.Proof.Gen.Kernel
import proofs.«160713_j32031866093817_2_alg».proof.Proof.Gen.Kernel.Skeleton
import proofs.«160713_j32031866093817_2_alg».proof.Proof.Gen.Kernel.Launch
import proofs.«160713_j32031866093817_2_alg».proof.Proof.Gen.Kernel.Points
import proofs.«160713_j32031866093817_2_alg».proof.Proof.Gen.Kernel.Frame
import proofs.«160713_j32031866093817_2_alg».proof.Proof.Gen.KernelIdeal
import proofs.«160713_j32031866093817_2_alg».proof.Proof.Gen.KernelIdeal.Skeleton
import proofs.«160713_j32031866093817_2_alg».proof.Proof.Gen.KernelIdeal.Launch
import proofs.«160713_j32031866093817_2_alg».proof.Proof.Gen.KernelIdeal.Points
import proofs.«160713_j32031866093817_2_alg».proof.Proof.Gen.KernelIdeal.Frame
import proofs.«160713_j32031866093817_2_alg».proof.Proof.Gen.ReferenceIdeal
import proofs.«160713_j32031866093817_2_alg».proof.Proof.Gen.ReferenceIdeal.Run
import proofs.«160713_j32031866093817_2_alg».proof.Proof.Gen.ReferenceIdeal.Read
import proofs.«160713_j32031866093817_2_alg».proof.Proof.Gen.Pre_finite_inputs
import proofs.«160713_j32031866093817_2_alg».proof.Proof.KernelRun
import proofs.«160713_j32031866093817_2_alg».proof.Proof.KernelFold
import proofs.«160713_j32031866093817_2_alg».proof.Proof.Bridge
import Idealize.ShloMosaic.Adequacy
import Idealize.ShloMosaic.Init

noncomputable section

namespace Cert.Proof

open Idealize.ShloMosaic Idealize.SL.Sem

/-- The kernel program terminates without a fault and leaves its arguments as launched. -/
theorem frame_kernel : Cert.frame_Kernel := fun m ρ _ => Cert.Kernel.Gen.frame m ρ

/-- So does its idealization. -/
theorem frame_kernelIdeal : Cert.frame_KernelIdeal := fun m ρ _ => Cert.KernelIdeal.Gen.frame m ρ

/-- So does the reference: its run with the two results dropped. -/
theorem frame_reference : Cert.frame_ReferenceIdeal := fun m ρ _ =>
  (θ_run Cert.ReferenceIdeal.defs _ _).mono (fun _ h c => (h c).2.2) (Cert.ReferenceIdeal.Value.run (F := Ideal) m ρ)

/-- The idealization rewrote no operation of the kernel program. -/
theorem preserves : Cert.preserves_Kernel_KernelIdeal := trivial

/-- From memories that agree on the arguments both programs run, and their results are equal entry by entry. -/
theorem algebraic : Cert.algebraic_KernelIdeal_ReferenceIdeal := by
  intro m ρ m' ρ' _ hagree
  refine ⟨fun c => Cert.KernelIdeal.Term.rstK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)),
    fun c => Cert.KernelIdeal.Term.gateK (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)), ?_, ?_⟩
  · exact (θ_run Cert.KernelIdeal.defs _ _).mono
      (fun r h c => ⟨(h c).1.trans (Cert.KernelIdeal.Fold.rst_result m ρ c),
        (h c).2.1.trans (Cert.KernelIdeal.Fold.gate_result m ρ c), (h c).2.2⟩)
      (Cert.KernelIdeal.Run.run_named (F := Ideal) m ρ)
  · refine (θ_run Cert.ReferenceIdeal.defs _ _).mono (fun r h c => ⟨(h c).1.trans ?_, (h c).2.1.trans ?_, (h c).2.2⟩)
      (Cert.ReferenceIdeal.Value.run (F := Ideal) m' ρ')
    · obtain ⟨h0, h1, h2, h3, h4, h5, h6, h7, h8, h9, h10, h11⟩ := hagree c
      rw [Cert.ReferenceIdeal.Read.val_main_v68_eq, h0, h1, h2, h3, h4, h5, h6, h7, h8, h9, h10, h11]
      exact (Cert.Bridge.rst_eq _ _ _ _ _ _ _ _ _ _ _ _).symm
    · obtain ⟨h0, h1, h2, h3, h4, h5, h6, h7, h8, h9, h10, h11⟩ := hagree c
      refine (Cert.ReferenceIdeal.Read.val_main_v28_eq _ _ _ _ _ _ _ _ _ _).trans ?_
      rw [h0, h1, h2, h3, h6, h7, h8, h9, h10, h11]
      exact (Cert.Bridge.gate_eq _ _ _ _ _ _ _ _ _ _).symm

theorem claim : Cert.Claim := ⟨Cert.Kernel.Gen.facts, Cert.KernelIdeal.Gen.facts, Cert.ReferenceIdeal.Gen.facts, Cert.Pre_finite_inputs.Gen.facts,
  frame_kernel, frame_kernelIdeal, frame_reference, preserves, algebraic⟩

end Cert.Proof

end
